-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S32 .f32) (main_arg9 : FVec F S32 .f32) (main_arg10 : FVec F S32x2 .f32) (main_arg11 : FVec F S2 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x2 .f32 := Host.absf main_arg10
  let main_cst_16 : FVec F S_ .f32 := constant S_ .f32 0x7F800000#32
  let main_v45 : FVec F S32x2 .f32 := broadcastInDim S32x2 ![] bcast_S_S32x2 main_cst_16
  let main_v46 : IVec S32x2 1 := cmpf .olt main_v44 main_v45
  let main_c_17 : IVec S_ 1 := constantI S_ 1 1#1
  let main_v47 : IVec S_ 1 := (fun x v => Host.reduce IntOp.andi x v reducesTo_S32x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S32 .f32) (main_arg6 : FVec F S32x32 .f32) (main_arg7 : FVec F S32 .f32) (main_arg8 : FVec F S32 .f32) (main_arg9 : FVec F S32 .f32) (main_arg10 : FVec F S32x2 .f32) (main_arg11 : FVec F S2 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x3200000 32) (main_arg2 : FVec F S128x32 .f32) (main_arg3 : FVec F S32 .f32) (main_arg4 : FVec F S32 .f32) (main_arg5 : FVec F S32 .f32) (main_arg6 : FVec F S32x32 .f32) (main_arg7 : FVec F S32 .f32) (main_arg8 : FVec F S32 .f32) (main_arg9 : FVec F S32 .f32) (main_arg10 : FVec F S32x2 .f32) (main_arg11 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x32 : Shape := ⟨2, ![100000, 32]⟩
abbrev S10000x128 : Shape := ⟨2, ![10000, 128]⟩
abbrev S10000x32 : Shape := ⟨2, ![10000, 32]⟩
abbrev S3200000x32 : Shape := ⟨2, ![3200000, 32]⟩
abbrev S1x32 : Shape := ⟨2, ![1, 32]⟩
abbrev S10000x1 : Shape := ⟨2, ![10000, 1]⟩
abbrev S10000 : Shape := ⟨1, ![10000]⟩
abbrev S100000x2 : Shape := ⟨2, ![100000, 2]⟩
abbrev S10000x2 : Shape := ⟨2, ![10000, 2]⟩
abbrev S3200000x2 : Shape := ⟨2, ![3200000, 2]⟩
abbrev S1x2 : Shape := ⟨2, ![1, 2]⟩

abbrev nBuf : Space → Nat
  | .hbm => 110
  | .vmem => 46
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32x2, .f32⟩
  | .hbm, ⟨11, _⟩ => ⟨S2, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S_, .f32⟩
  | .hbm, ⟨17, _⟩ => ⟨S3200000, .f32⟩
  | .hbm, ⟨18, _⟩ => ⟨S_, .f32⟩
  | .hbm, ⟨19, _⟩ => ⟨S100000, .f32⟩
  | .hbm, ⟨20, _⟩ => ⟨S3200000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000, .f32⟩
  | .hbm, ⟨38, _⟩ => ⟨S_, .i32⟩
  | .hbm, ⟨39, _⟩ => ⟨S3200000, .i32⟩
  | .hbm, ⟨40, _⟩ => ⟨S3200000, .i1⟩
  | .hbm, ⟨41, _⟩ => ⟨S_, .i32⟩
  | .hbm, ⟨42, _⟩ => ⟨S3200000, .i32⟩
  | .hbm, ⟨43, _⟩ => ⟨S3200000, .i32⟩
  | .hbm, ⟨44, _⟩ => ⟨S3200000, .i32⟩
  | .hbm, ⟨45, _⟩ => ⟨S3200000x1, .i32⟩
  | .hbm, ⟨46, _⟩ => ⟨S3200000, .f32⟩
  | .hbm, ⟨47, _⟩ => ⟨S3200000, .f32⟩
  | .hbm, ⟨48, _⟩ => ⟨S100000x1, .f32⟩
  | .hbm, ⟨49, _⟩ => ⟨S100000x32, .f32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000x32, .f32⟩
  | .hbm, ⟨59, _⟩ => ⟨S3200000x1, .f32⟩
  | .hbm, ⟨60, _⟩ => ⟨S3200000x32, .f32⟩
  | .hbm, ⟨61, _⟩ => ⟨S3200000x32, .f32⟩
  | .hbm, ⟨62, _⟩ => ⟨S_, .f32⟩
  | .hbm, ⟨63, _⟩ => ⟨S100000x32, .f32⟩
  | .hbm, ⟨64, _⟩ => ⟨S3200000x1, .i32⟩
  | .hbm, ⟨65, _⟩ => ⟨S100000x32, .f32⟩
  | .hbm, ⟨66, _⟩ => ⟨S1x32, .f32⟩
  | .hbm, ⟨67, _⟩ => ⟨S1x32, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S_, .i32⟩
  | .hbm, ⟨72, _⟩ => ⟨S3200000, .i32⟩
  | .hbm, ⟨73, _⟩ => ⟨S3200000, .i1⟩
  | .hbm, ⟨74, _⟩ => ⟨S_, .i32⟩
  | .hbm, ⟨75, _⟩ => ⟨S3200000, .i32⟩
  | .hbm, ⟨76, _⟩ => ⟨S3200000, .i32⟩
  | .hbm, ⟨77, _⟩ => ⟨S3200000, .i32⟩
  | .hbm, ⟨78, _⟩ => ⟨S3200000x1, .i32⟩
  | .hbm, ⟨79, _⟩ => ⟨S3200000x32, .f32⟩
  | .hbm, ⟨80, _⟩ => ⟨S3200000x1, .f32⟩
  | .hbm, ⟨81, _⟩ => ⟨S3200000x32, .f32⟩
  | .hbm, ⟨82, _⟩ => ⟨S3200000x32, .f32⟩
  | .hbm, ⟨83, _⟩ => ⟨S_, .f32⟩
  | .hbm, ⟨84, _⟩ => ⟨S100000x32, .f32⟩
  | .hbm, ⟨85, _⟩ => ⟨S3200000x1, .i32⟩
  | .hbm, ⟨86, _⟩ => ⟨S100000x32, .f32⟩
  | .hbm, ⟨87, _⟩ => ⟨S1x32, .f32⟩
  | .hbm, ⟨88, _⟩ => ⟨S1x32, .f32⟩
  | .hbm, ⟨89, _⟩ => ⟨S1x32, .f32⟩
  | .hbm, ⟨90, _⟩ => ⟨S100000x32, .f32⟩
  | .hbm, ⟨91, _⟩ => ⟨S100000x2, .f32⟩
  | .hbm, ⟨92, _⟩ => ⟨S_, .i32⟩
  | .hbm, ⟨93, _⟩ => ⟨S3200000, .i32⟩
  | .hbm, ⟨94, _⟩ => ⟨S3200000, .i1⟩
  | .hbm, ⟨95, _⟩ => ⟨S_, .i32⟩
  | .hbm, ⟨96, _⟩ => ⟨S3200000, .i32⟩
  | .hbm, ⟨97, _⟩ => ⟨S3200000, .i32⟩
  | .hbm, ⟨98, _⟩ => ⟨S3200000, .i32⟩
  | .hbm, ⟨99, _⟩ => ⟨S3200000x1, .i32⟩
  | .hbm, ⟨100, _⟩ => ⟨S3200000x2, .f32⟩
  | .hbm, ⟨101, _⟩ => ⟨S3200000x1, .f32⟩
  | .hbm, ⟨102, _⟩ => ⟨S3200000x2, .f32⟩
  | .hbm, ⟨103, _⟩ => ⟨S3200000x2, .f32⟩
  | .hbm, ⟨104, _⟩ => ⟨S_, .f32⟩
  | .hbm, ⟨105, _⟩ => ⟨S100000x2, .f32⟩
  | .hbm, ⟨106, _⟩ => ⟨S3200000x1, .i32⟩
  | .hbm, ⟨107, _⟩ => ⟨S100000x2, .f32⟩
  | .hbm, ⟨108, _⟩ => ⟨S1x2, .f32⟩
  | .hbm, ⟨109, _⟩ => ⟨S100000x2, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S10000x32, .f32⟩
  | .local _ .vmem, ⟨8, _⟩ => ⟨S10000x32, .f32⟩
  | .local _ .vmem, ⟨9, _⟩ => ⟨S10000x1, .f32⟩
  | .local _ .vmem, ⟨10, _⟩ => ⟨S10000x1, .f32⟩
  | .local _ .vmem, ⟨11, _⟩ => ⟨S1x32, .f32⟩
  | .local _ .vmem, ⟨12, _⟩ => ⟨S1x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S32x32, .f32⟩
  | .local _ .vmem, ⟨19, _⟩ => ⟨S10000x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S10000x32, .f32⟩
  | .local _ .vmem, ⟨25, _⟩ => ⟨S10000x1, .f32⟩
  | .local _ .vmem, ⟨26, _⟩ => ⟨S10000x1, .f32⟩
  | .local _ .vmem, ⟨27, _⟩ => ⟨S1x32, .f32⟩
  | .local _ .vmem, ⟨28, _⟩ => ⟨S1x32, .f32⟩
  | .local _ .vmem, ⟨29, _⟩ => ⟨S1x32, .f32⟩
  | .local _ .vmem, ⟨30, _⟩ => ⟨S10000x32, .f32⟩
  | .local _ .vmem, ⟨31, _⟩ => ⟨S10000x32, .f32⟩
  | .local _ .vmem, ⟨32, _⟩ => ⟨S10000x32, .f32⟩
  | .local _ .vmem, ⟨33, _⟩ => ⟨S10000x32, .f32⟩
  | .local _ .vmem, ⟨34, _⟩ => ⟨S32x2, .f32⟩
  | .local _ .vmem, ⟨35, _⟩ => ⟨S10000x2, .f32⟩
  | .local _ .vmem, ⟨36, _⟩ => ⟨S10000x2, .f32⟩
  | .local _ .vmem, ⟨37, _⟩ => ⟨S10000x2, .f32⟩
  | .local _ .vmem, ⟨38, _⟩ => ⟨S10000x2, .f32⟩
  | .local _ .vmem, ⟨39, _⟩ => ⟨S10000x2, .f32⟩
  | .local _ .vmem, ⟨40, _⟩ => ⟨S10000x2, .f32⟩
  | .local _ .vmem, ⟨41, _⟩ => ⟨S10000x1, .f32⟩
  | .local _ .vmem, ⟨42, _⟩ => ⟨S10000x1, .f32⟩
  | .local _ .vmem, ⟨43, _⟩ => ⟨S1x2, .f32⟩
  | .local _ .vmem, ⟨44, _⟩ => ⟨S10000x2, .f32⟩
  | .local _ .vmem, ⟨45, _⟩ => ⟨S10000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_12 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_14 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem4_1 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x32 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S10000x32 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x2 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x2 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x32 : S10000x1.Broadcasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  reduces_S10000x32_S10000 : S10000x32.Reduces [1] S10000
  shapeCasts_S10000_S10000x1 : S10000.ShapeCasts S10000x1
  inb_S32x32_S32x32_0_0 : ∀ a, (![0, 0] : Fin 2 → Nat) a + S32x32.size a ≤ S32x32.size a
  h_S32x32 : 0 < S32x32.numel
  inb_S32x2_S32x2_0_0 : ∀ a, (![0, 0] : Fin 2 → Nat) a + S32x2.size a ≤ S32x2.size a
  h_S32x2 : 0 < S32x2.numel
  inb_S10000x2_S10000x2_0_0 : ∀ a, (![0, 0] : Fin 2 → Nat) a + S10000x2.size a ≤ S10000x2.size a
  h_S10000x2 : 0 < S10000x2.numel
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  shapeCasts_S2_S1x2 : S2.ShapeCasts S1x2
  shapeCasts_S10000x2_S10000x2 : S10000x2.ShapeCasts S10000x2
  broadcasts_S10000x1_S10000x2 : S10000x1.Broadcasts S10000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S10000x2 : S1x2.Broadcasts S10000x2
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S10000x128_S128x32_S10000x32_1_0_0_1_n_n_wf : DotDims.WF S10000x128 S128x32 S10000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S10000x32_S32x32_S10000x32_1_0_0_1_n_n_wf : DotDims.WF S10000x32 S32x32 S10000x32 [1] [0] [0] [1] [] []
  dot_S10000x32_S32x2_S10000x2_1_0_0_1_n_n_wf : DotDims.WF S10000x32 S32x2 S10000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x32.size a ≤ S100000x32.size a
  hwx1_6 : ∀ i : grid1.Coords, EltTy.bits .f32 = 32 ∨ (Rect.block (s := S100000x32) S10000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x32.size a ≤ S32x32.size a
  hwx2_1 : ∀ i : grid2.Coords, EltTy.bits .f32 = 32 ∨ (Rect.block (s := S32x32) S32x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S100000x1.size a
  hwx3_2 : ∀ i : grid3.Coords, EltTy.bits .f32 = 32 ∨ (Rect.block (s := S100000x1) S10000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x32.size a ≤ S1x32.size a
  hwx3_5 : ∀ i : grid3.Coords, EltTy.bits .f32 = 32 ∨ (Rect.block (s := S1x32) S1x32.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x32.size a ≤ S100000x32.size a
  hwx3_6 : ∀ i : grid3.Coords, EltTy.bits .f32 = 32 ∨ (Rect.block (s := S100000x32) S10000x32.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x2.size a ≤ S32x2.size a
  hwx4_1 : ∀ i : grid4.Coords, EltTy.bits .f32 = 32 ∨ (Rect.block (s := S32x2) S32x2.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x2.size a ≤ S100000x2.size a
  hwx4_2 : ∀ i : grid4.Coords, EltTy.bits .f32 = 32 ∨ (Rect.block (s := S100000x2) S10000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x2.size a ≤ S100000x2.size a
  hwx5_0 : ∀ i : grid5.Coords, EltTy.bits .f32 = 32 ∨ (Rect.block (s := S100000x2) S10000x2.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x2.size a ≤ S100000x2.size a
  hwx5_1 : ∀ i : grid5.Coords, EltTy.bits .f32 = 32 ∨ (Rect.block (s := S100000x2) S10000x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x2.size a ≤ S1x2.size a
  hwx5_3 : ∀ i : grid5.Coords, EltTy.bits .f32 = 32 ∨ (Rect.block (s := S1x2) S1x2.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x2.size a ≤ S100000x2.size a
  hwx5_4 : ∀ i : grid5.Coords, EltTy.bits .f32 = 32 ∨ (Rect.block (s := S100000x2) S10000x2.size (cc5_transform_4 i) (hinb5_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x2_S10000x2_1_0_0_1_n_n : DotDims S10000x32 S32x2 S10000x2 where
  lhsContracting := [1]
  rhsContracting := [0]
  lhsNonContracting := [0]
  rhsNonContracting := [1]
  lhsBatch := []
  rhsBatch := []
  wf := dot_S10000x32_S32x2_S10000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S10000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S32x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v63) S1x32.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v64) S10000x32.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v64) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S32x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S10000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v78) S10000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v65) S10000x2.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v28) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v79) S1x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S10000x2.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x32 : Shape := ⟨2, ![128, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x32 : Shape := ⟨2, ![100000, 32]⟩
abbrev S3200000x32 : Shape := ⟨2, ![3200000, 32]⟩
abbrev S100000x1 : Shape := ⟨2, ![100000, 1]⟩
abbrev S1x32 : Shape := ⟨2, ![1, 32]⟩
abbrev S100000x2 : Shape := ⟨2, ![100000, 2]⟩
abbrev S3200000x2 : Shape := ⟨2, ![3200000, 2]⟩
abbrev S1x2 : Shape := ⟨2, ![1, 2]⟩

abbrev nBuf : Space → Nat
  | .hbm => 222
  | .vmem => 0
  | .smem => 0
  | _ => 0

abbrev hbmTy0_0 (i : Nat) : BufTy := match i % 128 with
  | 0 => ⟨S100000x128, .f32⟩
  | 1 => ⟨S2x3200000, .i32⟩
  | 2 => ⟨S128x32, .f32⟩
  | 3 => ⟨S32, .f32⟩
  | 4 => ⟨S32, .f32⟩
  | 5 => ⟨S32, .f32⟩
  | 6 => ⟨S32x32, .f32⟩
  | 7 => ⟨S32, .f32⟩
  | 8 => ⟨S32, .f32⟩
  | 9 => ⟨S32, .f32⟩
  | 10 => ⟨S32x2, .f32⟩
  | 11 => ⟨S2, .f32⟩
  | 12 => ⟨S1x3200000, .i32⟩
  | 13 => ⟨S3200000, .i32⟩
  | 14 => ⟨S1x3200000, .i32⟩
  | 15 => ⟨S3200000, .i32⟩
  | 16 => ⟨S_, .f32⟩
  | 17 => ⟨S3200000, .f32⟩
  | 18 => ⟨S_, .f32⟩
  | 19 => ⟨S100000, .f32⟩
  | 20 => ⟨S3200000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x32, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000, .f32⟩
  | 39 => ⟨S_, .i32⟩
  | 40 => ⟨S3200000, .i32⟩
  | 41 => ⟨S3200000, .i1⟩
  | 42 => ⟨S_, .i32⟩
  | 43 => ⟨S3200000, .i32⟩
  | 44 => ⟨S3200000, .i32⟩
  | 45 => ⟨S3200000, .i32⟩
  | 46 => ⟨S3200000x1, .i32⟩
  | 47 => ⟨S3200000, .f32⟩
  | 48 => ⟨S3200000, .f32⟩
  | 49 => ⟨S3200000x1, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000x32, .f32⟩
  | 59 => ⟨S3200000x32, .f32⟩
  | 60 => ⟨S3200000x32, .f32⟩
  | 61 => ⟨S_, .f32⟩
  | 62 => ⟨S100000x32, .f32⟩
  | 63 => ⟨S3200000x1, .i32⟩
  | 64 => ⟨S100000x32, .f32⟩
  | 65 => ⟨S100000x1, .f32⟩
  | 66 => ⟨S100000x32, .f32⟩
  | 67 => ⟨S100000x32, .f32⟩
  | 68 => ⟨S100000x32, .f32⟩
  | 69 => ⟨S1x32, .f32⟩
  | 70 => ⟨S100000x32, .f32⟩
  | 71 => ⟨S100000x32, .f32⟩
  | 72 => ⟨S_, .f32⟩
  | 73 => ⟨S100000, .f32⟩
  | 74 => ⟨S100000x1, .f32⟩
  | 75 => ⟨S_, .f32⟩
  | 76 => ⟨S100000x1, .f32⟩
  | 77 => ⟨S100000x1, .f32⟩
  | 78 => ⟨S100000x32, .f32⟩
  | 79 => ⟨S100000x32, .f32⟩
  | 80 => ⟨S100000x32, .f32⟩
  | 81 => ⟨S_, .f32⟩
  | 82 => ⟨S100000, .f32⟩
  | 83 => ⟨S100000x1, .f32⟩
  | 84 => ⟨S_, .f32⟩
  | 85 => ⟨S100000x1, .f32⟩
  | 86 => ⟨S100000x1, .f32⟩
  | 87 => ⟨S100000x32, .f32⟩
  | 88 => ⟨S100000x32, .f32⟩
  | 89 => ⟨S_, .f32⟩
  | 90 => ⟨S100000x1, .f32⟩
  | 91 => ⟨S100000x1, .f32⟩
  | 92 => ⟨S100000x1, .f32⟩
  | 93 => ⟨S100000x32, .f32⟩
  | 94 => ⟨S100000x32, .f32⟩
  | 95 => ⟨S1x32, .f32⟩
  | 96 => ⟨S100000x32, .f32⟩
  | 97 => ⟨S100000x32, .f32⟩
  | 98 => ⟨S1x32, .f32⟩
  | 99 => ⟨S100000x32, .f32⟩
  | 100 => ⟨S100000x32, .f32⟩
  | 101 => ⟨S_, .f32⟩
  | 102 => ⟨S100000x32, .f32⟩
  | 103 => ⟨S100000x32, .f32⟩
  | 104 => ⟨S100000x32, .f32⟩
  | 105 => ⟨S_, .i32⟩
  | 106 => ⟨S3200000, .i32⟩
  | 107 => ⟨S3200000, .i1⟩
  | 108 => ⟨S_, .i32⟩
  | 109 => ⟨S3200000, .i32⟩
  | 110 => ⟨S3200000, .i32⟩
  | 111 => ⟨S3200000, .i32⟩
  | 112 => ⟨S3200000x1, .i32⟩
  | 113 => ⟨S3200000, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S3200000, .f32⟩
  | 123 => ⟨S3200000, .f32⟩
  | 124 => ⟨S3200000x1, .f32⟩
  | 125 => ⟨S_, .i32⟩
  | 126 => ⟨S3200000, .i32⟩
  | 127 => ⟨S3200000, .i1⟩
  | _ => ⟨S100000x128, .f32⟩

abbrev hbmTy0_1 (i : Nat) : BufTy := match i % 128 with
  | 0 => ⟨S_, .i32⟩
  | 1 => ⟨S3200000, .i32⟩
  | 2 => ⟨S3200000, .i32⟩
  | 3 => ⟨S3200000, .i32⟩
  | 4 => ⟨S3200000x1, .i32⟩
  | 5 => ⟨S3200000x32, .f32⟩
  | 6 => ⟨S3200000x32, .f32⟩
  | 7 => ⟨S3200000x32, .f32⟩
  | 8 => ⟨S_, .f32⟩
  | 9 => ⟨S100000x32, .f32⟩
  | 10 => ⟨S3200000x1, .i32⟩
  | 11 => ⟨S100000x32, .f32⟩
  | 12 => ⟨S100000x1, .f32⟩
  | 13 => ⟨S100000x32, .f32⟩
  | 14 => ⟨S100000x32, .f32⟩
  | 15 => ⟨S100000x32, .f32⟩
  | 16 => ⟨S1x32, .f32⟩
  | 17 => ⟨S100000x32, .f32⟩
  | 18 => ⟨S100000x32, .f32⟩
  | 19 => ⟨S_, .f32⟩
  | 20 => ⟨S100000, .f32⟩
  | 21 => ⟨S100000x1, .f32⟩
  | 22 => ⟨S_, .f32⟩
  | 23 => ⟨S100000x1, .f32⟩
  | 24 => ⟨S100000x1, .f32⟩
  | 25 => ⟨S100000x32, .f32⟩
  | 26 => ⟨S100000x32, .f32⟩
  | 27 => ⟨S100000x32, .f32⟩
  | 28 => ⟨S_, .f32⟩
  | 29 => ⟨S100000, .f32⟩
  | 30 => ⟨S100000x1, .f32⟩
  | 31 => ⟨S_, .f32⟩
  | 32 => ⟨S100000x1, .f32⟩
  | 33 => ⟨S100000x1, .f32⟩
  | 34 => ⟨S100000x32, .f32⟩
  | 35 => ⟨S100000x32, .f32⟩
  | 36 => ⟨S_, .f32⟩
  | 37 => ⟨S100000x1, .f32⟩
  | 38 => ⟨S100000x1, .f32⟩
  | 39 => ⟨S100000x1, .f32⟩
  | 40 => ⟨S100000x32, .f32⟩
  | 41 => ⟨S100000x32, .f32⟩
  | 42 => ⟨S1x32, .f32⟩
  | 43 => ⟨S100000x32, .f32⟩
  | 44 => ⟨S100000x32, .f32⟩
  | 45 => ⟨S1x32, .f32⟩
  | 46 => ⟨S100000x32, .f32⟩
  | 47 => ⟨S100000x32, .f32⟩
  | 48 => ⟨S_, .f32⟩
  | 49 => ⟨S100000x32, .f32⟩
  | 50 => ⟨S100000x32, .f32⟩
  | 51 => ⟨S100000x2, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000, .f32⟩
  | 61 => ⟨S_, .i32⟩
  | 62 => ⟨S3200000, .i32⟩
  | 63 => ⟨S3200000, .i1⟩
  | 64 => ⟨S_, .i32⟩
  | 65 => ⟨S3200000, .i32⟩
  | 66 => ⟨S3200000, .i32⟩
  | 67 => ⟨S3200000, .i32⟩
  | 68 => ⟨S3200000x1, .i32⟩
  | 69 => ⟨S3200000, .f32⟩
  | 70 => ⟨S3200000, .f32⟩
  | 71 => ⟨S3200000x1, .f32⟩
  | 72 => ⟨S_, .i32⟩
  | 73 => ⟨S3200000, .i32⟩
  | 74 => ⟨S3200000, .i1⟩
  | 75 => ⟨S_, .i32⟩
  | 76 => ⟨S3200000, .i32⟩
  | 77 => ⟨S3200000, .i32⟩
  | 78 => ⟨S3200000, .i32⟩
  | 79 => ⟨S3200000x1, .i32⟩
  | 80 => ⟨S3200000x2, .f32⟩
  | 81 => ⟨S3200000x2, .f32⟩
  | 82 => ⟨S3200000x2, .f32⟩
  | 83 => ⟨S_, .f32⟩
  | 84 => ⟨S100000x2, .f32⟩
  | 85 => ⟨S3200000x1, .i32⟩
  | 86 => ⟨S100000x2, .f32⟩
  | 87 => ⟨S100000x1, .f32⟩
  | 88 => ⟨S100000x2, .f32⟩
  | 89 => ⟨S100000x2, .f32⟩
  | 90 => ⟨S100000x2, .f32⟩
  | 91 => ⟨S1x2, .f32⟩
  | 92 => ⟨S100000x2, .f32⟩
  | 93 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_11 : Ref sig .tc := ⟨.hbm, 81, rfl⟩
abbrev main_v56 : Ref sig .tc := ⟨.hbm, 82, rfl⟩
abbrev main_v57 : Ref sig .tc := ⟨.hbm, 83, rfl⟩
abbrev main_cst_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call0_cst : Ref sig .tc := ⟨.hbm, 101, rfl⟩
abbrev main_call0_v0 : Ref sig .tc := ⟨.hbm, 102, rfl⟩
abbrev main_v73 : Ref sig .tc := ⟨.hbm, 103, rfl⟩
abbrev main_v74 : Ref sig .tc := ⟨.hbm, 104, rfl⟩
abbrev main_c_14 : Ref sig .tc := ⟨.hbm, 105, rfl⟩
abbrev main_v75 : Ref sig .tc := ⟨.hbm, 106, rfl⟩
abbrev main_v76 : Ref sig .tc := ⟨.hbm, 107, rfl⟩
abbrev main_c_15 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_16 : Ref sig .tc := ⟨.hbm, 114, rfl⟩
abbrev main_v82 : Ref sig .tc := ⟨.hbm, 115, rfl⟩
abbrev main_v83 : Ref sig .tc := ⟨.hbm, 116, rfl⟩
abbrev main_c_17 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_c_18 : Ref sig .tc := ⟨.hbm, 125, rfl⟩
abbrev main_v91 : Ref sig .tc := ⟨.hbm, 126, rfl⟩
abbrev main_v92 : Ref sig .tc := ⟨.hbm, 127, rfl⟩
abbrev main_c_19 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_20 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_21 : Ref sig .tc := ⟨.hbm, 147, rfl⟩
abbrev main_v110 : Ref sig .tc := ⟨.hbm, 148, rfl⟩
abbrev main_v111 : Ref sig .tc := ⟨.hbm, 149, rfl⟩
abbrev main_cst_22 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_23 : Ref sig .tc := ⟨.hbm, 156, rfl⟩
abbrev main_v117 : Ref sig .tc := ⟨.hbm, 157, rfl⟩
abbrev main_v118 : Ref sig .tc := ⟨.hbm, 158, rfl⟩
abbrev main_cst_24 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_cst_25 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_call1_cst : Ref sig .tc := ⟨.hbm, 176, rfl⟩
abbrev main_call1_v0 : Ref sig .tc := ⟨.hbm, 177, rfl⟩
abbrev main_v134 : Ref sig .tc := ⟨.hbm, 178, rfl⟩
abbrev main_v135 : Ref sig .tc := ⟨.hbm, 179, rfl⟩
abbrev main_c_26 : Ref sig .tc := ⟨.hbm, 180, rfl⟩
abbrev main_v136 : Ref sig .tc := ⟨.hbm, 181, rfl⟩
abbrev main_v137 : Ref sig .tc := ⟨.hbm, 182, rfl⟩
abbrev main_c_27 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_c_28 : Ref sig .tc := ⟨.hbm, 189, rfl⟩
abbrev main_v143 : Ref sig .tc := ⟨.hbm, 190, rfl⟩
abbrev main_v144 : Ref sig .tc := ⟨.hbm, 191, rfl⟩
abbrev main_c_29 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_c_30 : Ref sig .tc := ⟨.hbm, 200, rfl⟩
abbrev main_v152 : Ref sig .tc := ⟨.hbm, 201, rfl⟩
abbrev main_v153 : Ref sig .tc := ⟨.hbm, 202, rfl⟩
abbrev main_c_31 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_32 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  reducesTo_S100000x32_S100000_d1 : S100000x32.ReducesTo [1] S100000
  h_S_ : 0 < S_.numel
  bcast_S_S100000x1 : S_.BroadcastsInDim S100000x1 (![] : Fin 0 → Fin S100000x1.rank)
  bcast_S3200000x1_S3200000x2_0_1 : S3200000x1.BroadcastsInDim S3200000x2 (![0, 1] : Fin 2 → Fin S3200000x2.rank)
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S3200000x1_S3200000_n_0_0_1_wf : ScatterDims.WF S100000 S3200000x1 S3200000 [] [0] [0] 1
  dot_S100000x128_S128x32_S100000x32_1_0_0_1_n_n_wf : DotDims.WF S100000x128 S128x32 S100000x32 [1] [0] [0] [1] [] []
  gather_S100000_S3200000x1_S3200000_n_0_n_n_0_1_1_wf : GatherDims.WF S100000 S3200000x1 S3200000 [] [0] [] [0] [] 1 ![1]
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x32_S100000x32_1_0_0_1_n_n_wf : DotDims.WF S100000x32 S32x32 S100000x32 [1] [0] [0] [1] [] []
  dot_S100000x32_S32x2_S100000x2_1_0_0_1_n_n_wf : DotDims.WF S100000x32 S32x2 S100000x2 [1] [0] [0] [1] [] []
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf

class Facts : Prop extends Facts₀ where

variable [Facts]
-- ==== Proof.KernelRun.lean ====
/-
  The idealized kernel's run, with its result named.

  @main is ten segments: four stretches of host operations and six kernel regions. The buffer contents at the
  segment boundaries are a fold from the launch memory (`W0` … `W10`): a stretch applies its operations, a region
  leaves its output array at what its grid points wrote back and every other buffer as it was. Every weakly fair
  execution terminates with each unscoped buffer at the last boundary's contents; read at the result buffer and at
  the twelve argument buffers this is the statement below: the result holds `W10` at its reference, the arguments
  are as launched.
-/
import proofs.«157691_j35631048688033_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v80) = W10 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v80 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.Whole

end
-- ==== Proof.KernelStretches.lean ====
/-
  The idealized kernel's host stretches, in the reference's stage functions.

  Between its six kernel regions the kernel's @main runs four stretches of host operations: a prologue (the edge
  endpoints, the degrees, their reciprocal root and reciprocal, the per-edge coefficient, the reciprocal as a column)
  and, before each layer's second region, the layer's neighbour sum (gather the projected rows by source, scale by the
  coefficient, scatter-add by destination) and its bias — and, for the hidden layers, gain and offset — as rows.
  These are the reference's own operations: the prologue's outputs are the reference's stage functions of the edge
  array, and each neighbour sum is the reference's stage function for that layer GIVEN that the projection it gathers
  from holds the reference's projection. The reference recomputes the coefficient in every layer; the three stage
  functions are one function of the edge array. The rows and the column are the argument vectors reshaped, which is
  how they are left here; a buffer a stretch does not write keeps its contents.
-/
import proofs.«157691_j35631048688033_1_alg».proof.Proof.Gen.KernelIdeal.Launch
import proofs.«157691_j35631048688033_1_alg».proof.Proof.RefRead
import Idealize.ShloMosaic.Lib.StableHlo.Run

set_option maxRecDepth 16384

noncomputable section

namespace Cert.KernelIdeal.Stretches

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]

/-! ## The per-edge coefficient is one function of the edge array -/

theorem coeff_second (x1 : (⟨Cert.ReferenceIdeal.S2x3200000, .i32⟩ : BufTy).Contents (Elt F)) : val_main_v89 (F := F) x1 = val_main_v28 (F := F) x1 := rfl
theorem coeff_third (x1 : (⟨Cert.ReferenceIdeal.S2x3200000, .i32⟩ : BufTy).Contents (Elt F)) : val_main_v150 (F := F) x1 = val_main_v28 (F := F) x1 := rfl

/-! ## What each stretch writes, and what it leaves alone -/

/-- The references `hostOps0`'s operations write. -/
abbrev hostOps0_W : List (Ref sig .tc) := [main_v0, main_v1, main_v2, main_v3, main_cst, main_v4, main_cst_0, main_v5, main_v6, main_v7, main_cst_1, main_v8, main_v9, main_v10, main_cst_2, main_v11, main_v12, main_c, main_v13, main_v14, main_c_3, main_v15, main_v16, main_v17, main_v18, main_v19, main_c_4, main_v20, main_v21, main_c_5, main_v22, main_v23, main_v24, main_v25, main_v26, main_v27, main_v28]
theorem hostOps0_writes : (hostOps0 : List (HloOp τ sig (Elt F))).Forall fun op => op.writes ⊆ (hostOps0_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents through it. -/
theorem hostOps0_keep (V : Valuation τ sig (Elt F)) (r : Ref sig .tc) (h : r ∉ hostOps0_W) :
    StableHlo.after hostOps0 V (Proc.devRef .tc r) = V (Proc.devRef .tc r) :=
  StableHlo.after_of_writes_sub hostOps0 V hostOps0_writes h

/-- The references `hostOps1`'s operations write. -/
abbrev hostOps1_W : List (Ref sig .tc) := [main_c_6, main_v30, main_v31, main_c_7, main_v32, main_v33, main_v34, main_v35, main_v36, main_v37, main_v38, main_v39, main_cst_8, main_v40, main_v41, main_v42, main_v43, main_v44, main_v45]
theorem hostOps1_writes : (hostOps1 : List (HloOp τ sig (Elt F))).Forall fun op => op.writes ⊆ (hostOps1_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents through it. -/
theorem hostOps1_keep (V : Valuation τ sig (Elt F)) (r : Ref sig .tc) (h : r ∉ hostOps1_W) :
    StableHlo.after hostOps1 V (Proc.devRef .tc r) = V (Proc.devRef .tc r) :=
  StableHlo.after_of_writes_sub hostOps1 V hostOps1_writes h

/-- The references `hostOps3`'s operations write. -/
abbrev hostOps3_W : List (Ref sig .tc) := [main_c_9, main_v48, main_v49, main_c_10, main_v50, main_v51, main_v52, main_v53, main_v54, main_v55, main_v56, main_v57, main_cst_11, main_v58, main_v59, main_v60, main_v61, main_v62, main_v63]
theorem hostOps3_writes : (hostOps3 : List (HloOp τ sig (Elt F))).Forall fun op => op.writes ⊆ (hostOps3_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents through it. -/
theorem hostOps3_keep (V : Valuation τ sig (Elt F)) (r : Ref sig .tc) (h : r ∉ hostOps3_W) :
    StableHlo.after hostOps3 V (Proc.devRef .tc r) = V (Proc.devRef .tc r) :=
  StableHlo.after_of_writes_sub hostOps3 V hostOps3_writes h

/-- The references `hostOps5`'s operations write. -/
abbrev hostOps5_W : List (Ref sig .tc) := [main_c_12, main_v66, main_v67, main_c_13, main_v68, main_v69, main_v70, main_v71, main_v72, main_v73, main_v74, main_v75, main_cst_14, main_v76, main_v77, main_v78, main_v79]
theorem hostOps5_writes : (hostOps5 : List (HloOp τ sig (Elt F))).Forall fun op => op.writes ⊆ (hostOps5_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer the stretch does not write keeps its contents through it. -/
theorem hostOps5_keep (V : Valuation τ sig (Elt F)) (r : Ref sig .tc) (h : r ∉ hostOps5_W) :
    StableHlo.after hostOps5 V (Proc.devRef .tc r) = V (Proc.devRef .tc r) :=
  StableHlo.after_of_writes_sub hostOps5 V hostOps5_writes h

/-! ## The prologue -/

theorem pro_v1 (V : Valuation τ sig (Elt F)) (x1 : (⟨Cert.ReferenceIdeal.S2x3200000, .i32⟩ : BufTy).Contents (Elt F)) (a1 : V (Proc.devRef .tc main_arg1) = x1) :
    StableHlo.after hostOps0 V (Proc.devRef .tc main_v1) = val_main_v1 (F := F) x1 := by
  after_results_simp
  rw [a1]
  rfl
theorem pro_v3 (V : Valuation τ sig (Elt F)) (x1 : (⟨Cert.ReferenceIdeal.S2x3200000, .i32⟩ : BufTy).Contents (Elt F)) (a1 : V (Proc.devRef .tc main_arg1) = x1) :
    StableHlo.after hostOps0 V (Proc.devRef .tc main_v3) = val_main_v3 (F := F) x1 := by
  after_results_simp
  rw [a1]
  rfl
/-- The per-edge coefficient: the product of the degree's reciprocal root gathered at the two endpoints. -/
theorem pro_v27 (V : Valuation τ sig (Elt F)) (x1 : (⟨Cert.ReferenceIdeal.S2x3200000, .i32⟩ : BufTy).Contents (Elt F)) (a1 : V (Proc.devRef .tc main_arg1) = x1) :
    StableHlo.after hostOps0 V (Proc.devRef .tc main_v27) = val_main_v28 (F := F) x1 := by
  after_results_simp
  rw [a1]
  rfl
/-- The degree's reciprocal, reshaped to a column. -/
theorem pro_v28 (V : Valuation τ sig (Elt F)) (x1 : (⟨Cert.ReferenceIdeal.S2x3200000, .i32⟩ : BufTy).Contents (Elt F)) (a1 : V (Proc.devRef .tc main_arg1) = x1) :
    StableHlo.after hostOps0 V (Proc.devRef .tc main_v28) = shapeCast _ (val_main_v12 (F := F) x1) Facts₀.shapeCasts_S100000_S100000x1 := by
  after_results_simp
  rw [a1]
  rfl

/-! ## The three neighbour sums, and the vectors made rows -/

theorem sum1 (V : Valuation τ sig (Elt F)) (x0 : (⟨Cert.ReferenceIdeal.S100000x128, .f32⟩ : BufTy).Contents (Elt F)) (x1 : (⟨Cert.ReferenceIdeal.S2x3200000, .i32⟩ : BufTy).Contents (Elt F)) (x2 : (⟨Cert.ReferenceIdeal.S128x32, .f32⟩ : BufTy).Contents (Elt F))
    (hv29 : V (Proc.devRef .tc main_v29) = val_main_v13 (F := F) x0 x2)
    (hv1 : V (Proc.devRef .tc main_v1) = val_main_v1 (F := F) x1)
    (hv3 : V (Proc.devRef .tc main_v3) = val_main_v3 (F := F) x1)
    (hv27 : V (Proc.devRef .tc main_v27) = val_main_v28 (F := F) x1) :
    StableHlo.after hostOps1 V (Proc.devRef .tc main_v42) = val_main_v41 (F := F) x0 x1 x2 := by
  after_results_simp
  rw [hv29, hv1, hv3, hv27]
  rfl

theorem sum2 (V : Valuation τ sig (Elt F)) (x0 : (⟨Cert.ReferenceIdeal.S100000x128, .f32⟩ : BufTy).Contents (Elt F)) (x1 : (⟨Cert.ReferenceIdeal.S2x3200000, .i32⟩ : BufTy).Contents (Elt F)) (x2 : (⟨Cert.ReferenceIdeal.S128x32, .f32⟩ : BufTy).Contents (Elt F)) (x3 : (⟨Cert.ReferenceIdeal.S32, .f32⟩ : BufTy).Contents (Elt F)) (x4 : (⟨Cert.ReferenceIdeal.S32, .f32⟩ : BufTy).Contents (Elt F)) (x5 : (⟨Cert.ReferenceIdeal.S32, .f32⟩ : BufTy).Contents (Elt F)) (x6 : (⟨Cert.ReferenceIdeal.S32x32, .f32⟩ : BufTy).Contents (Elt F))
    (hv47 : V (Proc.devRef .tc main_v47) = val_main_v74 (F := F) x0 x1 x2 x3 x4 x5 x6)
    (hv1 : V (Proc.devRef .tc main_v1) = val_main_v1 (F := F) x1)
    (hv3 : V (Proc.devRef .tc main_v3) = val_main_v3 (F := F) x1)
    (hv27 : V (Proc.devRef .tc main_v27) = val_main_v89 (F := F) x1) :
    StableHlo.after hostOps3 V (Proc.devRef .tc main_v60) = val_main_v102 (F := F) x0 x1 x2 x3 x4 x5 x6 := by
  after_results_simp
  rw [hv47, hv1, hv3, hv27]
  rfl

theorem sum3 (V : Valuation τ sig (Elt F)) (x0 : (⟨Cert.ReferenceIdeal.S100000x128, .f32⟩ : BufTy).Contents (Elt F)) (x1 : (⟨Cert.ReferenceIdeal.S2x3200000, .i32⟩ : BufTy).Contents (Elt F)) (x2 : (⟨Cert.ReferenceIdeal.S128x32, .f32⟩ : BufTy).Contents (Elt F)) (x3 : (⟨Cert.ReferenceIdeal.S32, .f32⟩ : BufTy).Contents (Elt F)) (x4 : (⟨Cert.ReferenceIdeal.S32, .f32⟩ : BufTy).Contents (Elt F)) (x5 : (⟨Cert.ReferenceIdeal.S32, .f32⟩ : BufTy).Contents (Elt F)) (x6 : (⟨Cert.ReferenceIdeal.S32x32, .f32⟩ : BufTy).Contents (Elt F)) (x7 : (⟨Cert.ReferenceIdeal.S32, .f32⟩ : BufTy).Contents (Elt F)) (x8 : (⟨Cert.ReferenceIdeal.S32, .f32⟩ : BufTy).Contents (Elt F)) (x9 : (⟨Cert.ReferenceIdeal.S32, .f32⟩ : BufTy).Contents (Elt F)) (x10 : (⟨Cert.ReferenceIdeal.S32x2, .f32⟩ : BufTy).Contents (Elt F))
    (hv65 : V (Proc.devRef .tc main_v65) = val_main_v135 (F := F) x0 x1 x2 x3 x4 x5 x6 x7 x8 x9 x10)
    (hv1 : V (Proc.devRef .tc main_v1) = val_main_v1 (F := F) x1)
    (hv3 : V (Proc.devRef .tc main_v3) = val_main_v3 (F := F) x1)
    (hv27 : V (Proc.devRef .tc main_v27) = val_main_v150 (F := F) x1) :
    StableHlo.after hostOps5 V (Proc.devRef .tc main_v78) = val_main_v163 (F := F) x0 x1 x2 x3 x4 x5 x6 x7 x8 x9 x10 := by
  after_results_simp
  rw [hv65, hv1, hv3, hv27]
  rfl

theorem row_v43 (V : Valuation τ sig (Elt F)) :
    StableHlo.after hostOps1 V (Proc.devRef .tc main_v43) = shapeCast _ (V (Proc.devRef .tc main_arg3)) Facts₀.shapeCasts_S32_S1x32 := by
  after_results_simp
  rfl
theorem row_v44 (V : Valuation τ sig (Elt F)) :
    StableHlo.after hostOps1 V (Proc.devRef .tc main_v44) = shapeCast _ (V (Proc.devRef .tc main_arg4)) Facts₀.shapeCasts_S32_S1x32 := by
  after_results_simp
  rfl
theorem row_v45 (V : Valuation τ sig (Elt F)) :
    StableHlo.after hostOps1 V (Proc.devRef .tc main_v45) = shapeCast _ (V (Proc.devRef .tc main_arg5)) Facts₀.shapeCasts_S32_S1x32 := by
  after_results_simp
  rfl
theorem row_v61 (V : Valuation τ sig (Elt F)) :
    StableHlo.after hostOps3 V (Proc.devRef .tc main_v61) = shapeCast _ (V (Proc.devRef .tc main_arg7)) Facts₀.shapeCasts_S32_S1x32 := by
  after_results_simp
  rfl
theorem row_v62 (V : Valuation τ sig (Elt F)) :
    StableHlo.after hostOps3 V (Proc.devRef .tc main_v62) = shapeCast _ (V (Proc.devRef .tc main_arg8)) Facts₀.shapeCasts_S32_S1x32 := by
  after_results_simp
  rfl
theorem row_v63 (V : Valuation τ sig (Elt F)) :
    StableHlo.after hostOps3 V (Proc.devRef .tc main_v63) = shapeCast _ (V (Proc.devRef .tc main_arg9)) Facts₀.shapeCasts_S32_S1x32 := by
  after_results_simp
  rfl
theorem row_v79 (V : Valuation τ sig (Elt F)) :
    StableHlo.after hostOps5 V (Proc.devRef .tc main_v79) = shapeCast _ (V (Proc.devRef .tc main_arg11)) Facts₀.shapeCasts_S2_S1x2 := by
  after_results_simp
  rfl

end Cert.KernelIdeal.Stretches

end
-- ==== Proof.RowForms.lean ====
/-
  One row of a graph-convolution layer, on the extended reals.

  A layer's value at node r depends only on row r of three arrays: the neighbours' weighted sum a, the node's own
  projected features x and the node's self-loop weight d. The pre-activation row is a + x · d + b (b the bias row).
  The two hidden layers then normalise that row of 32 entries — subtract its mean, scale by the reciprocal square root
  of its variance plus a constant, multiply by a gain row and add an offset row — and take the positive part.
  Means are quotients by the constant 32; sums are over the 32 lanes of the row.
-/
import Idealize.ShloMosaic.PureOps.Ideal

open scoped BigOperators

noncomputable section

namespace Cert.Gcn

open Idealize.ShloMosaic

/-- The row `a + x · d + b`: neighbours' sum, self-loop term, bias. -/
def selfLoop {n : ℕ} (a x : Fin n → EReal) (d : EReal) (b : Fin n → EReal) : Fin n → EReal :=
  fun q => a q + x q * d + b q

/-- The mean of a row of 32 entries: their sum divided by the constant 32. -/
def rowMean (h : Fin 32 → EReal) : EReal :=
  Ideal.div (∑ k : Fin 32, h k) (Ideal.ofBits .f32 0x42000000#32)

/-- A row of 32 entries centred, scaled by the reciprocal root of its variance plus a constant, then
    `· g + be`, then its positive part. -/
def normRelu (h g be : Fin 32 → EReal) : Fin 32 → EReal :=
  fun q => max ((h q - rowMean h)
      * Ideal.rsqrt (rowMean (fun k => (h k - rowMean h) * (h k - rowMean h)) + Ideal.ofBits .f32 0x3727C5AC#32)
      * g q + be q) (Ideal.ofBits .f32 0x00000000#32)

end Cert.Gcn

end
-- ==== Proof.LibLaneSum.lean ====
/-
  The sum along the rows of a matrix, read at a row.

  Summing an [a, b] matrix over its second axis leaves a vector of length a whose entry i is the sum of the b entries
  of row i. The general statement names the summed entries through the index "entry i with coordinate k inserted on the
  summed axis"; for a matrix that index is simply (i, k).
-/
import Idealize.ShloMosaic.PureOps.Ideal.Laws
import Idealize.ShloMosaic.Lib.ValueIdx

open scoped BigOperators

namespace Idealize.ShloMosaic.ValueIdx

open Idealize.ShloMosaic

/-- Inserting coordinate `k` on axis 1 over the row index `i` gives the matrix index `(i, k)`. -/
theorem reduces_rows_lift {a b : ℕ} (h : (⟨2, ![a, b]⟩ : Shape).Reduces [1] ⟨1, ![a]⟩) (i : Fin a) (k : Fin b) :
    h.lift (ix1 i) k = ix2 i k := by
  funext ax; apply Fin.ext
  show h.liftVal (ix1 i) k.val ax = (ix2 i k ax).val
  unfold Shape.Reduces.liftVal
  match ax with
  | ⟨0, _⟩ => rfl
  | ⟨1, _⟩ => rfl

/-- The sum of an `[a, b]` matrix over axis 1, at the exact extended reals, read at row `i`: the sum of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ c : Fin b, src (ix2 i c) := by
  refine (Ideal.multiReduction_add_single src acc h hφ hacc (ix1 i)).trans ?_
  exact Finset.sum_congr rfl fun c _ => congrArg src (reduces_rows_lift h i c)

end Idealize.ShloMosaic.ValueIdx
-- ==== Proof.LibColumnCast.lean ====
/-
  A vector cast to a one-column matrix, read at an entry.

  The row-major position of entry (i, 0) of an [a, 1] matrix is i · 1 + 0 = i, the position of entry i of the
  [a] vector it was cast from; so the cast reads the vector's entry i there. (The companion forms for a leading
  unit axis, [a] → [1, a] and back, are the library's `shapeCast_a_1a_apply` and `shapeCast_1a_a_apply`.)
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Idealize.ShloMosaic.ValueIdx
-- ==== Proof.LibColumnBroadcast.lean ====
/-
  One column broadcast over many.

  An [a, 1] matrix broadcast to [a, b] repeats its one column: entry (p, c) of the result is entry (p, 0) of the
  operand, whatever the column c. (The companion form for one ROW, [1, b] → [a, b], is the library's
  `broadcastTo_1b_ab_apply`.)
-/
import Idealize.ShloMosaic.Lib.ValueLayout

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibPlainMatmul.lean ====
/-
  The product of an m × k matrix by a k × n matrix, accumulated into zero, read at an entry.

  The matrix unit's product with the left operand contracted on its second axis and the right on its first, started
  from an accumulator of zeros, has at entry (a, b) the sum over the k contracted coordinates c of A(a, c) · B(c, b).
  The general statement sums over the indices of a one-axis "contraction shape"; that index set is carried onto the
  k coordinates, and the two operand indices it names are (a, c) and (c, b).
-/
import Idealize.ShloMosaic.PureOps.Ideal.Laws
import Idealize.ShloMosaic.Lib.ValueIdx

open scoped BigOperators

namespace Idealize.ShloMosaic.ValueIdx

open Idealize.ShloMosaic

/-- `A · B` into a zero accumulator, at the exact extended reals, read at `(a, b)`: `∑ c, A (a, c) * B (c, b)`. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Idealize.ShloMosaic.ValueIdx
-- ==== Proof.KernelRows.lean ====
/-
  The six kernel bodies' stored values, read at an entry.

  Three bodies are matrix products started from zero: entry (p, q) of the stored array is the sum over the contracted
  coordinate c of A(p, c) · B(c, q) (the narrowing of the operands' format is the identity on extended reals). The output
  layer's body stores the self-loop row a + x · d + b of each node. The two hidden layers' bodies store that row
  normalised over its 32 lanes — centred on its mean, scaled by the reciprocal root of its variance plus a constant,
  times a gain row, plus an offset row — and clipped below at zero. Every statement is "the stored array at (p, q) is
  entry q of the row form built from row p of the operands" (the row forms are `Cert.Gcn.selfLoop`, `rowMean`, `normRelu`).
-/
import proofs.«157691_j35631048688033_1_alg».proof.Proof.Gen.KernelIdeal.Skeleton
import proofs.«157691_j35631048688033_1_alg».proof.Proof.RowForms
import proofs.«157691_j35631048688033_1_alg».proof.Proof.LibLaneSum
import proofs.«157691_j35631048688033_1_alg».proof.Proof.LibColumnCast
import proofs.«157691_j35631048688033_1_alg».proof.Proof.LibColumnBroadcast
import proofs.«157691_j35631048688033_1_alg».proof.Proof.LibPlainMatmul
import Idealize.ShloMosaic.Lib.ValueLayout
import Idealize.ShloMosaic.Lib.Pipeline.Value
import Idealize.ShloMosaic.Lib.ValueIdx

open scoped BigOperators

noncomputable section

namespace Cert.KernelIdeal.Rows

open Cert.KernelIdeal Cert.KernelIdeal.Gen Cert.Gcn Idealize.ShloMosaic Idealize.ShloMosaic.ValueIdx

/-! ## The three matrix products -/

theorem k0_pay1_apply (v0 : Vec Ideal S10000x128 .f32) (v2 : Vec Ideal S128x32 .f32) (p : Fin 10000) (q : Fin 32) :
    k0_pay1 (F := Ideal) v0 v2 (ix2 p q) = ∑ c : Fin 128, v0 (ix2 p c) * v2 (ix2 c q) := by
  unfold k0_pay1
  exact matmul_plain_zero_apply Facts₀.dot_S10000x128_S128x32_S10000x32_1_0_0_1_n_n_wf none
    (truncf .bf16 v0 Facts₀.bitsLt_bf16_f32) (truncf .bf16 v2 Facts₀.bitsLt_bf16_f32) p q

theorem k2_pay1_apply (v0 : Vec Ideal S10000x32 .f32) (v3 : Vec Ideal S32x32 .f32) (p : Fin 10000) (q : Fin 32) :
    k2_pay1 (F := Ideal) v0 v3 (ix2 p q) = ∑ c : Fin 32, v0 (ix2 p c) * v3 (ix2 c q) := by
  unfold k2_pay1
  simp only [shapeCast_self]
  exact matmul_plain_zero_apply Facts₀.dot_S10000x32_S32x32_S10000x32_1_0_0_1_n_n_wf none
    (truncf .bf16 v0 Facts₀.bitsLt_bf16_f32) (truncf .bf16 v3 Facts₀.bitsLt_bf16_f32) p q

theorem k4_pay1_apply (v0 : Vec Ideal S10000x32 .f32) (v3 : Vec Ideal S32x2 .f32) (p : Fin 10000) (q : Fin 2) :
    k4_pay1 (F := Ideal) v0 v3 (ix2 p q) = ∑ c : Fin 32, v0 (ix2 p c) * v3 (ix2 c q) := by
  unfold k4_pay1
  simp only [shapeCast_self]
  exact matmul_plain_zero_apply Facts₀.dot_S10000x32_S32x2_S10000x2_1_0_0_1_n_n_wf none
    (truncf .bf16 v0 Facts₀.bitsLt_bf16_f32) (truncf .bf16 v3 Facts₀.bitsLt_bf16_f32) p q

/-! ## The output layer's body -/

theorem k5_pay1_apply (v0 v2 : Vec Ideal S10000x2 .f32) (v4 : Vec Ideal S10000x1 .f32) (v9 : Vec Ideal S1x2 .f32)
    (p : Fin 10000) (q : Fin 2) :
    k5_pay1 (F := Ideal) v0 v2 v4 v9 (ix2 p q)
      = selfLoop (fun k => v0 (ix2 p k)) (fun k => v2 (ix2 p k)) (v4 (ix2 p (0 : Fin 1))) (fun k => v9 (ix2 (0 : Fin 1) k)) q := by
  unfold k5_pay1 selfLoop
  simp only [shapeCast_self]
  show v0 (ix2 p q) + v2 (ix2 p q) * broadcastTo S10000x2 v4 Facts₀.broadcasts_S10000x1_S10000x2 (ix2 p q)
      + broadcastTo S10000x2 v9 Facts₀.broadcasts_S1x2_S10000x2 (ix2 p q) = _
  rw [broadcastTo_a1_ab_apply, broadcastTo_1b_ab_apply]

/-! ## The two hidden layers' bodies

The body computes the pre-normalisation array `H = a + x · d + b` (the column `d` and the row `b` spread over the
array), then from `H` alone the normalised, gained, offset and clipped array. Each stage is named and read at an index
on its own; the payload is their composition. -/

/-- The array `a + x · d + b`, the column `d` spread along the lanes and the row `b` down the rows. -/
def preAct (X Y : FVec Ideal S10000x32 .f32) (D : FVec Ideal S10000x1 .f32) (B : FVec Ideal S1x32 .f32) :
    FVec Ideal S10000x32 .f32 :=
  addf (addf X (mulf Y (broadcastTo S10000x32 D Facts₀.broadcasts_S10000x1_S10000x32)))
    (broadcastTo S10000x32 B Facts₀.broadcasts_S1x32_S10000x32)

/-- Its entry `(p, k)` is entry `k` of the self-loop row built from row `p` of the operands. -/
theorem preAct_apply (X Y : FVec Ideal S10000x32 .f32) (D : FVec Ideal S10000x1 .f32) (B : FVec Ideal S1x32 .f32)
    (p : Fin 10000) (k : Fin 32) :
    preAct X Y D B (ix2 p k)
      = selfLoop (fun j => X (ix2 p j)) (fun j => Y (ix2 p j)) (D (ix2 p (0 : Fin 1))) (fun j => B (ix2 (0 : Fin 1) j)) k := by
  unfold preAct selfLoop
  show X (ix2 p k) + Y (ix2 p k) * broadcastTo S10000x32 D Facts₀.broadcasts_S10000x1_S10000x32 (ix2 p k)
      + broadcastTo S10000x32 B Facts₀.broadcasts_S1x32_S10000x32 (ix2 p k) = _
  rw [broadcastTo_a1_ab_apply, broadcastTo_1b_ab_apply]

/-- The column of row means: each row's lane sum, as a one-column matrix, divided by the constant 32. -/
def colMean (W : FVec Ideal S10000x32 .f32) : FVec Ideal S10000x1 .f32 :=
  divf (shapeCast S10000x1
      (multiReduction .add [1] S10000 W 0x00000000#32 Facts₀.reduces_S10000x32_S10000 (.inl rfl) rfl)
      Facts₀.shapeCasts_S10000_S10000x1)
    (broadcast S10000x1 (Scalar.ofBits (F := Ideal) .f32 0x42000000#32))

/-- Its entry in row `p` is the mean of row `p`. -/
theorem colMean_apply (W : FVec Ideal S10000x32 .f32) (p : Fin 10000) (u : Fin 1) :
    colMean W (ix2 p u) = rowMean (fun k => W (ix2 p k)) := by
  unfold colMean rowMean
  show Ideal.div (shapeCast S10000x1
      (multiReduction .add [1] S10000 W 0x00000000#32 Facts₀.reduces_S10000x32_S10000 (.inl rfl) rfl)
      Facts₀.shapeCasts_S10000_S10000x1 (ix2 p u)) (Ideal.ofBits .f32 0x42000000#32) = _
  refine congrArg (fun x => Ideal.div x (Ideal.ofBits .f32 0x42000000#32)) ?_
  refine (shapeCast_a_a1_apply _ Facts₀.shapeCasts_S10000_S10000x1 p u).trans ?_
  exact multiReduction_add_rows_apply W 0x00000000#32 Facts₀.reduces_S10000x32_S10000 (.inl rfl) rfl p

/-- The array centred on its row means: `H` minus the column of row means spread along the lanes. -/
def centred (H : FVec Ideal S10000x32 .f32) : FVec Ideal S10000x32 .f32 :=
  subf H (broadcastTo S10000x32 (colMean H) Facts₀.broadcasts_S10000x1_S10000x32)

/-- Its entry `(p, k)` is entry `k` of row `p` less that row's mean. -/
theorem centred_apply (H : FVec Ideal S10000x32 .f32) (p : Fin 10000) (k : Fin 32) :
    centred H (ix2 p k) = H (ix2 p k) - rowMean (fun j => H (ix2 p j)) := by
  unfold centred
  show H (ix2 p k) - broadcastTo S10000x32 (colMean H) Facts₀.broadcasts_S10000x1_S10000x32 (ix2 p k) = _
  rw [broadcastTo_a1_ab_apply, colMean_apply]

/-- The column of reciprocal roots: the row means of the centred array's squares, plus the constant, under the
    reciprocal square root. -/
def colScale (H : FVec Ideal S10000x32 .f32) : FVec Ideal S10000x1 .f32 :=
  rsqrt (addf (colMean (mulf (centred H) (centred H)))
    (broadcast S10000x1 (Scalar.ofBits (F := Ideal) .f32 0x3727C5AC#32)))

/-- Its entry in row `p` is the reciprocal root of row `p`'s variance plus the constant. -/
theorem colScale_apply (H : FVec Ideal S10000x32 .f32) (p : Fin 10000) (u : Fin 1) :
    colScale H (ix2 p u)
      = Ideal.rsqrt (rowMean (fun k => (H (ix2 p k) - rowMean (fun j => H (ix2 p j)))
            * (H (ix2 p k) - rowMean (fun j => H (ix2 p j)))) + Ideal.ofBits .f32 0x3727C5AC#32) := by
  unfold colScale
  show Ideal.rsqrt (colMean (mulf (centred H) (centred H)) (ix2 p u) + Ideal.ofBits .f32 0x3727C5AC#32) = _
  rw [colMean_apply]
  have hsq : (fun k : Fin 32 => mulf (centred H) (centred H) (ix2 p k))
      = fun k => (H (ix2 p k) - rowMean (fun j => H (ix2 p j))) * (H (ix2 p k) - rowMean (fun j => H (ix2 p j))) :=
    funext fun k => by
      show centred H (ix2 p k) * centred H (ix2 p k) = _
      rw [centred_apply]
  rw [hsq]

/-- The normalised array: centred, scaled by the column of reciprocal roots, times the gain row, plus the offset row,
    and its positive part. -/
def normAct (H : FVec Ideal S10000x32 .f32) (G Be : FVec Ideal S1x32 .f32) : FVec Ideal S10000x32 .f32 :=
  maximumf
    (addf (mulf (mulf (centred H) (broadcastTo S10000x32 (colScale H) Facts₀.broadcasts_S10000x1_S10000x32))
        (broadcastTo S10000x32 G Facts₀.broadcasts_S1x32_S10000x32))
      (broadcastTo S10000x32 Be Facts₀.broadcasts_S1x32_S10000x32))
    (broadcast S10000x32 (Scalar.ofBits (F := Ideal) .f32 0x00000000#32))

/-- Its entry `(p, q)` is entry `q` of the normalised row built from row `p`. -/
theorem normAct_apply (H : FVec Ideal S10000x32 .f32) (G Be : FVec Ideal S1x32 .f32) (p : Fin 10000) (q : Fin 32) :
    normAct H G Be (ix2 p q)
      = normRelu (fun k => H (ix2 p k)) (fun k => G (ix2 (0 : Fin 1) k)) (fun k => Be (ix2 (0 : Fin 1) k)) q := by
  unfold normAct normRelu
  show max (centred H (ix2 p q) * broadcastTo S10000x32 (colScale H) Facts₀.broadcasts_S10000x1_S10000x32 (ix2 p q)
        * broadcastTo S10000x32 G Facts₀.broadcasts_S1x32_S10000x32 (ix2 p q)
      + broadcastTo S10000x32 Be Facts₀.broadcasts_S1x32_S10000x32 (ix2 p q)) (Ideal.ofBits .f32 0x00000000#32) = _
  rw [centred_apply, broadcastTo_a1_ab_apply, broadcastTo_1b_ab_apply, broadcastTo_1b_ab_apply, colScale_apply]

/-- The hidden layers' payload is the normalised array of the pre-normalisation array. -/
theorem k1_pay1_eq (v0 v2 : Vec Ideal S10000x32 .f32) (v4 : Vec Ideal S10000x1 .f32) (v9 v31 v35 : Vec Ideal S1x32 .f32) :
    k1_pay1 (F := Ideal) v0 v2 v4 v9 v31 v35 = normAct (preAct v0 v2 v4 v9) v31 v35 := by
  unfold k1_pay1
  simp only [shapeCast_self]
  rfl

theorem k1_pay1_apply (v0 v2 : Vec Ideal S10000x32 .f32) (v4 : Vec Ideal S10000x1 .f32) (v9 v31 v35 : Vec Ideal S1x32 .f32)
    (p : Fin 10000) (q : Fin 32) :
    k1_pay1 (F := Ideal) v0 v2 v4 v9 v31 v35 (ix2 p q)
      = normRelu (selfLoop (fun k => v0 (ix2 p k)) (fun k => v2 (ix2 p k)) (v4 (ix2 p (0 : Fin 1))) (fun k => v9 (ix2 (0 : Fin 1) k)))
          (fun k => v31 (ix2 (0 : Fin 1) k)) (fun k => v35 (ix2 (0 : Fin 1) k)) q := by
  rw [k1_pay1_eq]
  refine (normAct_apply (preAct v0 v2 v4 v9) v31 v35 p q).trans ?_
  have hrow : (fun k : Fin 32 => preAct v0 v2 v4 v9 (ix2 p k))
      = selfLoop (fun k => v0 (ix2 p k)) (fun k => v2 (ix2 p k)) (v4 (ix2 p (0 : Fin 1))) (fun k => v9 (ix2 (0 : Fin 1) k)) :=
    funext fun k => preAct_apply v0 v2 v4 v9 p k
  rw [hrow]

/-- The second hidden layer's body is the same composition. -/
theorem k3_pay1_eq (v0 v2 : Vec Ideal S10000x32 .f32) (v4 : Vec Ideal S10000x1 .f32) (v9 v31 v35 : Vec Ideal S1x32 .f32) :
    k3_pay1 (F := Ideal) v0 v2 v4 v9 v31 v35 = normAct (preAct v0 v2 v4 v9) v31 v35 := by
  unfold k3_pay1
  simp only [shapeCast_self]
  rfl

theorem k3_pay1_apply (v0 v2 : Vec Ideal S10000x32 .f32) (v4 : Vec Ideal S10000x1 .f32) (v9 v31 v35 : Vec Ideal S1x32 .f32)
    (p : Fin 10000) (q : Fin 32) :
    k3_pay1 (F := Ideal) v0 v2 v4 v9 v31 v35 (ix2 p q)
      = normRelu (selfLoop (fun k => v0 (ix2 p k)) (fun k => v2 (ix2 p k)) (v4 (ix2 p (0 : Fin 1))) (fun k => v9 (ix2 (0 : Fin 1) k)))
          (fun k => v31 (ix2 (0 : Fin 1) k)) (fun k => v35 (ix2 (0 : Fin 1) k)) q := by
  rw [k3_pay1_eq]
  refine (normAct_apply (preAct v0 v2 v4 v9) v31 v35 p q).trans ?_
  have hrow : (fun k : Fin 32 => preAct v0 v2 v4 v9 (ix2 p k))
      = selfLoop (fun k => v0 (ix2 p k)) (fun k => v2 (ix2 p k)) (v4 (ix2 p (0 : Fin 1))) (fun k => v9 (ix2 (0 : Fin 1) k)) :=
    funext fun k => preAct_apply v0 v2 v4 v9 p k
  rw [hrow]

end Cert.KernelIdeal.Rows

end
-- ==== Proof.KernelArrays.lean ====
/-
  The six kernel regions' output arrays, as whole arrays.

  Every region runs its body at ten grid points; point t fetches rows 10000·t … 10000·t + 9999 of the node-indexed
  operands (and the whole of the small ones: a weight matrix, a vector made a row), and writes back the same rows
  of its output. So the output array, after the region, is the array whose row r is the body's row form of row r of
  the operands: for the three projections the sum over the contracted coordinate; for the two hidden layers the
  normalised, clipped self-loop row; for the output layer the self-loop row. Each statement is over ANY contents
  `V` the region is entered with, and over any array `G` that has that row form — which is how the reference's
  stage functions will meet it. The steps per region are: the printed index maps decided over the grid; what point t
  writes back, entry by entry (the body's stored value at an entry, from the payload lemmas; each block read where
  the point's rectangle says); the blocks tile the array; hence the array.
-/
import proofs.«157691_j35631048688033_1_alg».proof.Proof.Gen.KernelIdeal.Frame
import proofs.«157691_j35631048688033_1_alg».proof.Proof.KernelRows
import Idealize.ShloMosaic.Lib.Pipeline.Value
import Idealize.ShloMosaic.Lib.ValueIdx
import Idealize.ShloMosaic.Lib.ValueLayout

set_option maxRecDepth 16384

open scoped BigOperators

noncomputable section

namespace Cert.KernelIdeal.Arrays

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

variable (V : (c : Dev nD) → (b : Ref sig .tc) → Buf (Elt Ideal) ((c : Thread nD τ).loc b))

/-! ## Region 0: a projection, ten thousand rows at a time -/

theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- WHAT GRID POINT `t` WRITES BACK: rows `10000·t … 10000·t + 9999` of any array `G` whose entry `(r, q)` is the
    sum over the contracted coordinate of `A (r, ·) · B (·, q)` — the block's rows are the array's, the second operand
    is whole at every point. -/
theorem flushed0 (c : Dev nD) (t : Fin cfg0.N) (A : (⟨S100000x128, .f32⟩ : BufTy).Contents (Elt Ideal)) (B : (⟨S128x32, .f32⟩ : BufTy).Contents (Elt Ideal)) (G : (⟨S100000x32, .f32⟩ : BufTy).Contents (Elt Ideal))
    (hA : V c main_arg0 = A) (hB : V c main_arg2 = B)
    (hG : ∀ (r : Fin 100000) (q : Fin 32), G (ix2 r q) = ∑ k : Fin 128, A (ix2 r k) * B (ix2 k q)) :
    (dat0 (F := Ideal) V c).flushed 2 t = ((cfg0.win 2).blk t).view.read (Elt Ideal) G := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  funext j
  obtain ⟨p, q, rfl⟩ : ∃ (p : Fin 10000) (q : Fin 32), j = ix2 p q := ⟨j 0, j 1, eq_ix2 j⟩
  show k0_pay1 (F := Ideal) (iblk0 V c 0 t) (iblk0 V c 1 t) (ix2 p q) = G (((cfg0.win 2).blk t).view.emb (ix2 p q))
  refine (Rows.k0_pay1_apply _ _ p q).trans ?_
  obtain ⟨e00, e01, e10, e11, e20, e21⟩ := idx0 t
  have ht : t.val < 10 := (show t.val < grid0.N from t.isLt).trans_eq N_0
  have hr : t.val * 10000 + p.val < 100000 := by have := p.isLt; omega
  have hemb : ((cfg0.win 2).blk t).view.emb (ix2 p q) = ix2 (⟨t.val * 10000 + p.val, hr⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 32 + 1 * q.val = q.val; omega
  rw [hemb, hG]
  refine Finset.sum_congr rfl fun k _ => ?_
  have b0 : iblk0 V c 0 t (ix2 p k) = A (ix2 (⟨t.val * 10000 + p.val, hr⟩ : Fin 100000) k) := by
    show V c main_arg0 (((cfg0.win 0).blk t).view.emb (ix2 p k)) = _
    rw [hA]
    refine congrArg A ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have b1 : iblk0 V c 1 t (ix2 k q) = B (ix2 k q) := by
    show V c main_arg2 (((cfg0.win 1).blk t).view.emb (ix2 k q)) = _
    rw [hB]
    refine congrArg B ?_
    funext a; apply Fin.ext
    match a with
    | ⟨0, _⟩ => show win0_1.index t (0 : Fin 2) * 128 + 1 * k.val = k.val; omega
    | ⟨1, _⟩ => show win0_1.index t (1 : Fin 2) * 32 + 1 * q.val = q.val; omega
  rw [b0, b1]

/-- An index of region 0's output array is in grid point `t`'s block iff each coordinate is in the block's range. -/
theorem mem_blk0 (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v29).slice (win0_2.rect t)).set ↔ _
  rw [View.set_slice_whole, Rect.mem_set_unit]
  exact Iff.rfl

/-- Row `r` of region 0's output array lies in the block of grid point `r / 10000`: the ten blocks tile the array. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : (i 0).val / 10000 < grid0.N := by rw [N_0]; omega
  obtain ⟨e00, e01, e10, e11, e20, e21⟩ := idx0 ⟨(i 0).val / 10000, hN⟩
  refine ⟨⟨(i 0).val / 10000, hN⟩, flush0_2 _, ?_⟩
  rw [mem_blk0]
  intro a
  match a with
  | ⟨0, _⟩ =>
    show win0_2.index ⟨(i 0).val / 10000, hN⟩ (0 : Fin 2) * 10000 ≤ (i 0).val ∧ (i 0).val < win0_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, hN⟩ (1 : Fin 2) * 32 ≤ (i 1).val ∧ (i 1).val < win0_2.index ⟨(i 0).val / 10000, hN⟩ (1 : Fin 2) * 32 + 32
    rw [e21]; omega

/-- THE ARRAY after region 0: `G`. -/
theorem final0 (c : Dev nD) (A : (⟨S100000x128, .f32⟩ : BufTy).Contents (Elt Ideal)) (B : (⟨S128x32, .f32⟩ : BufTy).Contents (Elt Ideal)) (G : (⟨S100000x32, .f32⟩ : BufTy).Contents (Elt Ideal))
    (hA : V c main_arg0 = A) (hB : V c main_arg2 = B)
    (hG : ∀ (r : Fin 100000) (q : Fin 32), G (ix2 r q) = ∑ k : Fin 128, A (ix2 r k) * B (ix2 k q)) :
    (dat0 (F := Ideal) V c).arrAt 2 cfg0.N = G :=
  (dat0 V c).arrAt_eq_of_cover 2 G (fun t _ => flushed0 V c t A B G hA hB hG) cover0

/-! ## Region 1: self-loop, bias, normalisation and positive part, ten thousand rows at a time -/

theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = t.val
    ∧ win1_6.index t (1 : Fin 2) = 0 :=
  (by decide +kernel : ∀ t : Fin grid1.N, _)

/-- WHAT GRID POINT `t` WRITES BACK: rows `10000·t … 10000·t + 9999` of any array `G` whose row `r` is the row form of
    row `r` of the neighbours' sum and of the projection, the node's self-loop weight and the bias, gain and offset rows:
    the blocks of the two matrices and of the weight column are their rows `10000·t + p`, the vectors made rows are
    whole at every point. -/
theorem flushed1 (c : Dev nD) (t : Fin cfg1.N) (Agg Xw : (⟨S100000x32, .f32⟩ : BufTy).Contents (Elt Ideal)) (Dinv : (⟨S100000, .f32⟩ : BufTy).Contents (Elt Ideal)) (b g be : (⟨S32, .f32⟩ : BufTy).Contents (Elt Ideal)) (G : (⟨S100000x32, .f32⟩ : BufTy).Contents (Elt Ideal))
    (h0 : V c main_v42 = Agg) (h1 : V c main_v29 = Xw)
    (h2 : V c main_v28 = shapeCast _ Dinv Facts₀.shapeCasts_S100000_S100000x1)
    (h3 : V c main_v43 = shapeCast _ b Facts₀.shapeCasts_S32_S1x32)
    (h4 : V c main_v44 = shapeCast _ g Facts₀.shapeCasts_S32_S1x32) (h5 : V c main_v45 = shapeCast _ be Facts₀.shapeCasts_S32_S1x32)
    (hG : ∀ (r : Fin 100000) (q : Fin 32), G (ix2 r q) = normRelu (selfLoop (fun k => Agg (ix2 r k)) (fun k => Xw (ix2 r k)) (Dinv (ix1 r)) (fun k => b (ix1 k))) (fun k => g (ix1 k)) (fun k => be (ix1 k)) q) :
    (dat1 (F := Ideal) V c).flushed 6 t = ((cfg1.win 6).blk t).view.read (Elt Ideal) G := by
  show (cfg1.win 6).cut (grid1.coords t) ((dat1 V c).after 6 t) = _
  rw [after1_6]
  unfold out1_6
  rw [View.canon_unit_zero hz]
  simp only [View.ld_unit_zero (S := S10000x32) hz, View.ld_unit_zero (S := S10000x1) hz, View.ld_unit_zero (S := S1x32) hz]
  funext j
  obtain ⟨p, q, rfl⟩ : ∃ (p : Fin 10000) (q : Fin 32), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q) = G (((cfg1.win 6).blk t).view.emb (ix2 p q))
  refine (Rows.k1_pay1_apply _ _ _ _ _ _ p q).trans ?_
  obtain ⟨e00, e01, e10, e11, e20, e21, e30, e31, e40, e41, e50, e51, e60, e61⟩ := idx1 t
  have ht : t.val < 10 := (show t.val < grid1.N from t.isLt).trans_eq N_1
  have hr : t.val * 10000 + p.val < 100000 := by have := p.isLt; omega
  have hemb : ((cfg1.win 6).blk t).view.emb (ix2 p q) = ix2 (⟨t.val * 10000 + p.val, hr⟩ : Fin 100000) q := by
    funext a; apply Fin.ext
    match a with
    | ⟨0, _⟩ => show win1_6.index t (0 : Fin 2) * 10000 + 1 * p.val = t.val * 10000 + p.val; omega
    | ⟨1, _⟩ => show win1_6.index t (1 : Fin 2) * 32 + 1 * q.val = q.val; omega
  rw [hemb, hG]
  have b0 : ∀ k : Fin 32, iblk1 V c 0 t (ix2 p k) = Agg (ix2 (⟨t.val * 10000 + p.val, hr⟩ : Fin 100000) k) := fun k => by
    show V c main_v42 (((cfg1.win 0).blk t).view.emb (ix2 p k)) = _
    rw [h0]
    refine congrArg Agg ?_
    funext a; apply Fin.ext
    match a with
    | ⟨0, _⟩ => show win1_0.index t (0 : Fin 2) * 10000 + 1 * p.val = t.val * 10000 + p.val; omega
    | ⟨1, _⟩ => show win1_0.index t (1 : Fin 2) * 32 + 1 * k.val = k.val; omega
  have b1 : ∀ k : Fin 32, iblk1 V c 1 t (ix2 p k) = Xw (ix2 (⟨t.val * 10000 + p.val, hr⟩ : Fin 100000) k) := fun k => by
    show V c main_v29 (((cfg1.win 1).blk t).view.emb (ix2 p k)) = _
    rw [h1]
    refine congrArg Xw ?_
    funext a; apply Fin.ext
    match a with
    | ⟨0, _⟩ => show win1_1.index t (0 : Fin 2) * 10000 + 1 * p.val = t.val * 10000 + p.val; omega
    | ⟨1, _⟩ => show win1_1.index t (1 : Fin 2) * 32 + 1 * k.val = k.val; omega
  have b2 : iblk1 V c 2 t (ix2 p (0 : Fin 1)) = Dinv (ix1 (⟨t.val * 10000 + p.val, hr⟩ : Fin 100000)) := by
    show V c main_v28 (((cfg1.win 2).blk t).view.emb (ix2 p (0 : Fin 1))) = _
    rw [h2]
    have he : ((cfg1.win 2).blk t).view.emb (ix2 p (0 : Fin 1)) = ix2 (⟨t.val * 10000 + p.val, hr⟩ : Fin 100000) (0 : Fin 1) := by
      funext a; apply Fin.ext
      match a with
      | ⟨0, _⟩ => show win1_2.index t (0 : Fin 2) * 10000 + 1 * p.val = t.val * 10000 + p.val; omega
      | ⟨1, _⟩ => show win1_2.index t (1 : Fin 2) * 1 + 1 * 0 = 0; omega
    rw [he]
    exact shapeCast_a_a1_apply _ _ (⟨t.val * 10000 + p.val, hr⟩ : Fin 100000) (0 : Fin 1)
  have b3 : ∀ k : Fin 32, iblk1 V c 3 t (ix2 (0 : Fin 1) k) = b (ix1 k) := fun k => by
    show V c main_v43 (((cfg1.win 3).blk t).view.emb (ix2 (0 : Fin 1) k)) = _
    rw [h3]
    have he : ((cfg1.win 3).blk t).view.emb (ix2 (0 : Fin 1) k) = ix2 (0 : Fin 1) k := by
      funext a; apply Fin.ext
      match a with
      | ⟨0, _⟩ => show win1_3.index t (0 : Fin 2) * 1 + 1 * 0 = 0; omega
      | ⟨1, _⟩ => show win1_3.index t (1 : Fin 2) * 32 + 1 * k.val = k.val; omega
    rw [he]
    exact shapeCast_a_1a_apply _ _ (0 : Fin 1) k
  have b4 : ∀ k : Fin 32, iblk1 V c 4 t (ix2 (0 : Fin 1) k) = g (ix1 k) := fun k => by
    show V c main_v44 (((cfg1.win 4).blk t).view.emb (ix2 (0 : Fin 1) k)) = _
    rw [h4]
    have he : ((cfg1.win 4).blk t).view.emb (ix2 (0 : Fin 1) k) = ix2 (0 : Fin 1) k := by
      funext a; apply Fin.ext
      match a with
      | ⟨0, _⟩ => show win1_4.index t (0 : Fin 2) * 1 + 1 * 0 = 0; omega
      | ⟨1, _⟩ => show win1_4.index t (1 : Fin 2) * 32 + 1 * k.val = k.val; omega
    rw [he]
    exact shapeCast_a_1a_apply _ _ (0 : Fin 1) k
  have b5 : ∀ k : Fin 32, iblk1 V c 5 t (ix2 (0 : Fin 1) k) = be (ix1 k) := fun k => by
    show V c main_v45 (((cfg1.win 5).blk t).view.emb (ix2 (0 : Fin 1) k)) = _
    rw [h5]
    have he : ((cfg1.win 5).blk t).view.emb (ix2 (0 : Fin 1) k) = ix2 (0 : Fin 1) k := by
      funext a; apply Fin.ext
      match a with
      | ⟨0, _⟩ => show win1_5.index t (0 : Fin 2) * 1 + 1 * 0 = 0; omega
      | ⟨1, _⟩ => show win1_5.index t (1 : Fin 2) * 32 + 1 * k.val = k.val; omega
    rw [he]
    exact shapeCast_a_1a_apply _ _ (0 : Fin 1) k
  simp only [b0, b1, b2, b3, b4, b5]

/-- An index of region 1's output array is in grid point `t`'s block iff each coordinate is in the block's range. -/
theorem mem_blk1 (t : Fin cfg1.N) (i : S100000x32.Idx) :
    i ∈ ((cfg1.win 6).blk t).view.set ↔ ∀ a : Fin 2, win1_6.index t a * S10000x32.size a ≤ (i a).val ∧ (i a).val < win1_6.index t a * S10000x32.size a + S10000x32.size a := by
  show i ∈ ((View.whole main_v46).slice (win1_6.rect t)).set ↔ _
  rw [View.set_slice_whole, Rect.mem_set_unit]
  exact Iff.rfl

/-- Row `r` of region 1's output array lies in the block of grid point `r / 10000`: the ten blocks tile the array. -/
theorem cover1 (i : S100000x32.Idx) : ∃ t : Fin cfg1.N, (cfg1.win 6).flush t = true ∧ i ∈ ((cfg1.win 6).blk t).view.set := by
  have hi0 : (i 0).val < 100000 := (i 0).isLt
  have hi1 : (i 1).val < 32 := (i 1).isLt
  have hN : (i 0).val / 10000 < grid1.N := by rw [N_1]; omega
  obtain ⟨e00, e01, e10, e11, e20, e21, e30, e31, e40, e41, e50, e51, e60, e61⟩ := idx1 ⟨(i 0).val / 10000, hN⟩
  refine ⟨⟨(i 0).val / 10000, hN⟩, flush1_6 _, ?_⟩
  rw [mem_blk1]
  intro a
  match a with
  | ⟨0, _⟩ =>
    show win1_6.index ⟨(i 0).val / 10000, hN⟩ (0 : Fin 2) * 10000 ≤ (i 0).val ∧ (i 0).val < win1_6.index ⟨(i 0).val / 10000, hN⟩ (0 : Fin 2) * 10000 + 10000
    rw [e60]; show (i 0).val / 10000 * 10000 ≤ (i 0).val ∧ (i 0).val < (i 0).val / 10000 * 10000 + 10000; omega
  | ⟨1, _⟩ =>
    show win1_6.index ⟨(i 0).val / 10000, hN⟩ (1 : Fin 2) * 32 ≤ (i 1).val ∧ (i 1).val < win1_6.index ⟨(i 0).val / 10000, hN⟩ (1 : Fin 2) * 32 + 32
    rw [e61]; omega

/-- THE ARRAY after region 1: `G`. -/
theorem final1 (c : Dev nD) (Agg Xw : (⟨S100000x32, .f32⟩ : BufTy).Contents (Elt Ideal)) (Dinv : (⟨S100000, .f32⟩ : BufTy).Contents (Elt Ideal)) (b g be : (⟨S32, .f32⟩ : BufTy).Contents (Elt Ideal)) (G : (⟨S100000x32, .f32⟩ : BufTy).Contents (Elt Ideal))
    (h0 : V c main_v42 = Agg) (h1 : V c main_v29 = Xw)
    (h2 : V c main_v28 = shapeCast _ Dinv Facts₀.shapeCasts_S100000_S100000x1)
    (h3 : V c main_v43 = shapeCast _ b Facts₀.shapeCasts_S32_S1x32)
    (h4 : V c main_v44 = shapeCast _ g Facts₀.shapeCasts_S32_S1x32) (h5 : V c main_v45 = shapeCast _ be Facts₀.shapeCasts_S32_S1x32)
    (hG : ∀ (r : Fin 100000) (q : Fin 32), G (ix2 r q) = normRelu (selfLoop (fun k => Agg (ix2 r k)) (fun k => Xw (ix2 r k)) (Dinv (ix1 r)) (fun k => b (ix1 k))) (fun k => g (ix1 k)) (fun k => be (ix1 k)) q) :
    (dat1 (F := Ideal) V c).arrAt 6 cfg1.N = G :=
  (dat1 V c).arrAt_eq_of_cover 6 G (fun t _ => flushed1 V c t Agg Xw Dinv b g be G h0 h1 h2 h3 h4 h5 hG) cover1

/-! ## Region 2: a projection, ten thousand rows at a time -/

theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- WHAT GRID POINT `t` WRITES BACK: rows `10000·t … 10000·t + 9999` of any array `G` whose entry `(r, q)` is the
    sum over the contracted coordinate of `A (r, ·) · B (·, q)` — the block's rows are the array's, the second operand
    is whole at every point. -/
theorem flushed2 (c : Dev nD) (t : Fin cfg2.N) (A : (⟨S100000x32, .f32⟩ : BufTy).Contents (Elt Ideal)) (B : (⟨S32x32, .f32⟩ : BufTy).Contents (Elt Ideal)) (G : (⟨S100000x32, .f32⟩ : BufTy).Contents (Elt Ideal))
    (hA : V c main_v46 = A) (hB : V c main_arg6 = B)
    (hG : ∀ (r : Fin 100000) (q : Fin 32), G (ix2 r q) = ∑ k : Fin 32, A (ix2 r k) * B (ix2 k q)) :
    (dat2 (F := Ideal) V c).flushed 2 t = ((cfg2.win 2).blk t).view.read (Elt Ideal) G := by
  show (cfg2.win 2).cut (grid2.coords t) ((dat2 V c).after 2 t) = _
  rw [after2_2]
  unfold out2_2
  rw [View.canon_unit_zero hz]
  simp only [View.ld_unit_zero (S := S10000x32) hz, View.ld_unit_zero (S := S32x32) hz]
  funext j
  obtain ⟨p, q, rfl⟩ : ∃ (p : Fin 10000) (q : Fin 32), j = ix2 p q := ⟨j 0, j 1, eq_ix2 j⟩
  show k2_pay1 (F := Ideal) (iblk2 V c 0 t) (iblk2 V c 1 t) (ix2 p q) = G (((cfg2.win 2).blk t).view.emb (ix2 p q))
  refine (Rows.k2_pay1_apply _ _ p q).trans ?_
  obtain ⟨e00, e01, e10, e11, e20, e21⟩ := idx2 t
  have ht : t.val < 10 := (show t.val < grid2.N from t.isLt).trans_eq N_2
  have hr : t.val * 10000 + p.val < 100000 := by have := p.isLt; omega
  have hemb : ((cfg2.win 2).blk t).view.emb (ix2 p q) = ix2 (⟨t.val * 10000 + p.val, hr⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 32 + 1 * q.val = q.val; omega
  rw [hemb, hG]
  refine Finset.sum_congr rfl fun k _ => ?_
  have b0 : iblk2 V c 0 t (ix2 p k) = A (ix2 (⟨t.val * 10000 + p.val, hr⟩ : Fin 100000) k) := by
    show V c main_v46 (((cfg2.win 0).blk t).view.emb (ix2 p k)) = _
    rw [hA]
    refine congrArg A ?_
    funext a; apply Fin.ext
    match a with
    | ⟨0, _⟩ => show win2_0.index t (0 : Fin 2) * 10000 + 1 * p.val = t.val * 10000 + p.val; omega
    | ⟨1, _⟩ => show win2_0.index t (1 : Fin 2) * 32 + 1 * k.val = k.val; omega
  have b1 : iblk2 V c 1 t (ix2 k q) = B (ix2 k q) := by
    show V c main_arg6 (((cfg2.win 1).blk t).view.emb (ix2 k q)) = _
    rw [hB]
    refine congrArg B ?_
    funext a; apply Fin.ext
    match a with
    | ⟨0, _⟩ => show win2_1.index t (0 : Fin 2) * 32 + 1 * k.val = k.val; omega
    | ⟨1, _⟩ => show win2_1.index t (1 : Fin 2) * 32 + 1 * q.val = q.val; omega
  rw [b0, b1]

/-- An index of region 2's output array is in grid point `t`'s block iff each coordinate is in the block's range. -/
theorem mem_blk2 (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v47).slice (win2_2.rect t)).set ↔ _
  rw [View.set_slice_whole, Rect.mem_set_unit]
  exact Iff.rfl

/-- Row `r` of region 2's output array lies in the block of grid point `r / 10000`: the ten blocks tile the array. -/
theorem cover2 (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : (i 0).val / 10000 < grid2.N := by rw [N_2]; omega
  obtain ⟨e00, e01, e10, e11, e20, e21⟩ := idx2 ⟨(i 0).val / 10000, hN⟩
  refine ⟨⟨(i 0).val / 10000, hN⟩, flush2_2 _, ?_⟩
  rw [mem_blk2]
  intro a
  match a with
  | ⟨0, _⟩ =>
    show win2_2.index ⟨(i 0).val / 10000, hN⟩ (0 : Fin 2) * 10000 ≤ (i 0).val ∧ (i 0).val < win2_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win2_2.index ⟨(i 0).val / 10000, hN⟩ (1 : Fin 2) * 32 ≤ (i 1).val ∧ (i 1).val < win2_2.index ⟨(i 0).val / 10000, hN⟩ (1 : Fin 2) * 32 + 32
    rw [e21]; omega

/-- THE ARRAY after region 2: `G`. -/
theorem final2 (c : Dev nD) (A : (⟨S100000x32, .f32⟩ : BufTy).Contents (Elt Ideal)) (B : (⟨S32x32, .f32⟩ : BufTy).Contents (Elt Ideal)) (G : (⟨S100000x32, .f32⟩ : BufTy).Contents (Elt Ideal))
    (hA : V c main_v46 = A) (hB : V c main_arg6 = B)
    (hG : ∀ (r : Fin 100000) (q : Fin 32), G (ix2 r q) = ∑ k : Fin 32, A (ix2 r k) * B (ix2 k q)) :
    (dat2 (F := Ideal) V c).arrAt 2 cfg2.N = G :=
  (dat2 V c).arrAt_eq_of_cover 2 G (fun t _ => flushed2 V c t A B G hA hB hG) cover2

/-! ## Region 3: self-loop, bias, normalisation and positive part, ten thousand rows at a time -/

theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-- WHAT GRID POINT `t` WRITES BACK: rows `10000·t … 10000·t + 9999` of any array `G` whose row `r` is the row form of
    row `r` of the neighbours' sum and of the projection, the node's self-loop weight and the bias, gain and offset rows:
    the blocks of the two matrices and of the weight column are their rows `10000·t + p`, the vectors made rows are
    whole at every point. -/
theorem flushed3 (c : Dev nD) (t : Fin cfg3.N) (Agg Xw : (⟨S100000x32, .f32⟩ : BufTy).Contents (Elt Ideal)) (Dinv : (⟨S100000, .f32⟩ : BufTy).Contents (Elt Ideal)) (b g be : (⟨S32, .f32⟩ : BufTy).Contents (Elt Ideal)) (G : (⟨S100000x32, .f32⟩ : BufTy).Contents (Elt Ideal))
    (h0 : V c main_v60 = Agg) (h1 : V c main_v47 = Xw)
    (h2 : V c main_v28 = shapeCast _ Dinv Facts₀.shapeCasts_S100000_S100000x1)
    (h3 : V c main_v61 = shapeCast _ b Facts₀.shapeCasts_S32_S1x32)
    (h4 : V c main_v62 = shapeCast _ g Facts₀.shapeCasts_S32_S1x32) (h5 : V c main_v63 = shapeCast _ be Facts₀.shapeCasts_S32_S1x32)
    (hG : ∀ (r : Fin 100000) (q : Fin 32), G (ix2 r q) = normRelu (selfLoop (fun k => Agg (ix2 r k)) (fun k => Xw (ix2 r k)) (Dinv (ix1 r)) (fun k => b (ix1 k))) (fun k => g (ix1 k)) (fun k => be (ix1 k)) q) :
    (dat3 (F := Ideal) V c).flushed 6 t = ((cfg3.win 6).blk t).view.read (Elt Ideal) G := by
  show (cfg3.win 6).cut (grid3.coords t) ((dat3 V c).after 6 t) = _
  rw [after3_6]
  unfold out3_6
  rw [View.canon_unit_zero hz]
  simp only [View.ld_unit_zero (S := S10000x32) hz, View.ld_unit_zero (S := S10000x1) hz, View.ld_unit_zero (S := S1x32) hz]
  funext j
  obtain ⟨p, q, rfl⟩ : ∃ (p : Fin 10000) (q : Fin 32), j = ix2 p q := ⟨j 0, j 1, eq_ix2 j⟩
  show k3_pay1 (F := Ideal) (iblk3 V c 0 t) (iblk3 V c 1 t) (iblk3 V c 2 t) (iblk3 V c 3 t) (iblk3 V c 4 t) (iblk3 V c 5 t) (ix2 p q) = G (((cfg3.win 6).blk t).view.emb (ix2 p q))
  refine (Rows.k3_pay1_apply _ _ _ _ _ _ p q).trans ?_
  obtain ⟨e00, e01, e10, e11, e20, e21, e30, e31, e40, e41, e50, e51, e60, e61⟩ := idx3 t
  have ht : t.val < 10 := (show t.val < grid3.N from t.isLt).trans_eq N_3
  have hr : t.val * 10000 + p.val < 100000 := by have := p.isLt; omega
  have hemb : ((cfg3.win 6).blk t).view.emb (ix2 p q) = ix2 (⟨t.val * 10000 + p.val, hr⟩ : Fin 100000) q := by
    funext a; apply Fin.ext
    match a with
    | ⟨0, _⟩ => show win3_6.index t (0 : Fin 2) * 10000 + 1 * p.val = t.val * 10000 + p.val; omega
    | ⟨1, _⟩ => show win3_6.index t (1 : Fin 2) * 32 + 1 * q.val = q.val; omega
  rw [hemb, hG]
  have b0 : ∀ k : Fin 32, iblk3 V c 0 t (ix2 p k) = Agg (ix2 (⟨t.val * 10000 + p.val, hr⟩ : Fin 100000) k) := fun k => by
    show V c main_v60 (((cfg3.win 0).blk t).view.emb (ix2 p k)) = _
    rw [h0]
    refine congrArg Agg ?_
    funext a; apply Fin.ext
    match a with
    | ⟨0, _⟩ => show win3_0.index t (0 : Fin 2) * 10000 + 1 * p.val = t.val * 10000 + p.val; omega
    | ⟨1, _⟩ => show win3_0.index t (1 : Fin 2) * 32 + 1 * k.val = k.val; omega
  have b1 : ∀ k : Fin 32, iblk3 V c 1 t (ix2 p k) = Xw (ix2 (⟨t.val * 10000 + p.val, hr⟩ : Fin 100000) k) := fun k => by
    show V c main_v47 (((cfg3.win 1).blk t).view.emb (ix2 p k)) = _
    rw [h1]
    refine congrArg Xw ?_
    funext a; apply Fin.ext
    match a with
    | ⟨0, _⟩ => show win3_1.index t (0 : Fin 2) * 10000 + 1 * p.val = t.val * 10000 + p.val; omega
    | ⟨1, _⟩ => show win3_1.index t (1 : Fin 2) * 32 + 1 * k.val = k.val; omega
  have b2 : iblk3 V c 2 t (ix2 p (0 : Fin 1)) = Dinv (ix1 (⟨t.val * 10000 + p.val, hr⟩ : Fin 100000)) := by
    show V c main_v28 (((cfg3.win 2).blk t).view.emb (ix2 p (0 : Fin 1))) = _
    rw [h2]
    have he : ((cfg3.win 2).blk t).view.emb (ix2 p (0 : Fin 1)) = ix2 (⟨t.val * 10000 + p.val, hr⟩ : Fin 100000) (0 : Fin 1) := by
      funext a; apply Fin.ext
      match a with
      | ⟨0, _⟩ => show win3_2.index t (0 : Fin 2) * 10000 + 1 * p.val = t.val * 10000 + p.val; omega
      | ⟨1, _⟩ => show win3_2.index t (1 : Fin 2) * 1 + 1 * 0 = 0; omega
    rw [he]
    exact shapeCast_a_a1_apply _ _ (⟨t.val * 10000 + p.val, hr⟩ : Fin 100000) (0 : Fin 1)
  have b3 : ∀ k : Fin 32, iblk3 V c 3 t (ix2 (0 : Fin 1) k) = b (ix1 k) := fun k => by
    show V c main_v61 (((cfg3.win 3).blk t).view.emb (ix2 (0 : Fin 1) k)) = _
    rw [h3]
    have he : ((cfg3.win 3).blk t).view.emb (ix2 (0 : Fin 1) k) = ix2 (0 : Fin 1) k := by
      funext a; apply Fin.ext
      match a with
      | ⟨0, _⟩ => show win3_3.index t (0 : Fin 2) * 1 + 1 * 0 = 0; omega
      | ⟨1, _⟩ => show win3_3.index t (1 : Fin 2) * 32 + 1 * k.val = k.val; omega
    rw [he]
    exact shapeCast_a_1a_apply _ _ (0 : Fin 1) k
  have b4 : ∀ k : Fin 32, iblk3 V c 4 t (ix2 (0 : Fin 1) k) = g (ix1 k) := fun k => by
    show V c main_v62 (((cfg3.win 4).blk t).view.emb (ix2 (0 : Fin 1) k)) = _
    rw [h4]
    have he : ((cfg3.win 4).blk t).view.emb (ix2 (0 : Fin 1) k) = ix2 (0 : Fin 1) k := by
      funext a; apply Fin.ext
      match a with
      | ⟨0, _⟩ => show win3_4.index t (0 : Fin 2) * 1 + 1 * 0 = 0; omega
      | ⟨1, _⟩ => show win3_4.index t (1 : Fin 2) * 32 + 1 * k.val = k.val; omega
    rw [he]
    exact shapeCast_a_1a_apply _ _ (0 : Fin 1) k
  have b5 : ∀ k : Fin 32, iblk3 V c 5 t (ix2 (0 : Fin 1) k) = be (ix1 k) := fun k => by
    show V c main_v63 (((cfg3.win 5).blk t).view.emb (ix2 (0 : Fin 1) k)) = _
    rw [h5]
    have he : ((cfg3.win 5).blk t).view.emb (ix2 (0 : Fin 1) k) = ix2 (0 : Fin 1) k := by
      funext a; apply Fin.ext
      match a with
      | ⟨0, _⟩ => show win3_5.index t (0 : Fin 2) * 1 + 1 * 0 = 0; omega
      | ⟨1, _⟩ => show win3_5.index t (1 : Fin 2) * 32 + 1 * k.val = k.val; omega
    rw [he]
    exact shapeCast_a_1a_apply _ _ (0 : Fin 1) k
  simp only [b0, b1, b2, b3, b4, b5]

/-- An index of region 3's output array is in grid point `t`'s block iff each coordinate is in the block's range. -/
theorem mem_blk3 (t : Fin cfg3.N) (i : S100000x32.Idx) :
    i ∈ ((cfg3.win 6).blk t).view.set ↔ ∀ a : Fin 2, win3_6.index t a * S10000x32.size a ≤ (i a).val ∧ (i a).val < win3_6.index t a * S10000x32.size a + S10000x32.size a := by
  show i ∈ ((View.whole main_v64).slice (win3_6.rect t)).set ↔ _
  rw [View.set_slice_whole, Rect.mem_set_unit]
  exact Iff.rfl

/-- Row `r` of region 3's output array lies in the block of grid point `r / 10000`: the ten blocks tile the array. -/
theorem cover3 (i : S100000x32.Idx) : ∃ t : Fin cfg3.N, (cfg3.win 6).flush t = true ∧ i ∈ ((cfg3.win 6).blk t).view.set := by
  have hi0 : (i 0).val < 100000 := (i 0).isLt
  have hi1 : (i 1).val < 32 := (i 1).isLt
  have hN : (i 0).val / 10000 < grid3.N := by rw [N_3]; omega
  obtain ⟨e00, e01, e10, e11, e20, e21, e30, e31, e40, e41, e50, e51, e60, e61⟩ := idx3 ⟨(i 0).val / 10000, hN⟩
  refine ⟨⟨(i 0).val / 10000, hN⟩, flush3_6 _, ?_⟩
  rw [mem_blk3]
  intro a
  match a with
  | ⟨0, _⟩ =>
    show win3_6.index ⟨(i 0).val / 10000, hN⟩ (0 : Fin 2) * 10000 ≤ (i 0).val ∧ (i 0).val < win3_6.index ⟨(i 0).val / 10000, hN⟩ (0 : Fin 2) * 10000 + 10000
    rw [e60]; show (i 0).val / 10000 * 10000 ≤ (i 0).val ∧ (i 0).val < (i 0).val / 10000 * 10000 + 10000; omega
  | ⟨1, _⟩ =>
    show win3_6.index ⟨(i 0).val / 10000, hN⟩ (1 : Fin 2) * 32 ≤ (i 1).val ∧ (i 1).val < win3_6.index ⟨(i 0).val / 10000, hN⟩ (1 : Fin 2) * 32 + 32
    rw [e61]; omega

/-- THE ARRAY after region 3: `G`. -/
theorem final3 (c : Dev nD) (Agg Xw : (⟨S100000x32, .f32⟩ : BufTy).Contents (Elt Ideal)) (Dinv : (⟨S100000, .f32⟩ : BufTy).Contents (Elt Ideal)) (b g be : (⟨S32, .f32⟩ : BufTy).Contents (Elt Ideal)) (G : (⟨S100000x32, .f32⟩ : BufTy).Contents (Elt Ideal))
    (h0 : V c main_v60 = Agg) (h1 : V c main_v47 = Xw)
    (h2 : V c main_v28 = shapeCast _ Dinv Facts₀.shapeCasts_S100000_S100000x1)
    (h3 : V c main_v61 = shapeCast _ b Facts₀.shapeCasts_S32_S1x32)
    (h4 : V c main_v62 = shapeCast _ g Facts₀.shapeCasts_S32_S1x32) (h5 : V c main_v63 = shapeCast _ be Facts₀.shapeCasts_S32_S1x32)
    (hG : ∀ (r : Fin 100000) (q : Fin 32), G (ix2 r q) = normRelu (selfLoop (fun k => Agg (ix2 r k)) (fun k => Xw (ix2 r k)) (Dinv (ix1 r)) (fun k => b (ix1 k))) (fun k => g (ix1 k)) (fun k => be (ix1 k)) q) :
    (dat3 (F := Ideal) V c).arrAt 6 cfg3.N = G :=
  (dat3 V c).arrAt_eq_of_cover 6 G (fun t _ => flushed3 V c t Agg Xw Dinv b g be G h0 h1 h2 h3 h4 h5 hG) cover3

/-! ## Region 4: a projection, ten thousand rows at a time -/

theorem idx4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- WHAT GRID POINT `t` WRITES BACK: rows `10000·t … 10000·t + 9999` of any array `G` whose entry `(r, q)` is the
    sum over the contracted coordinate of `A (r, ·) · B (·, q)` — the block's rows are the array's, the second operand
    is whole at every point. -/
theorem flushed4 (c : Dev nD) (t : Fin cfg4.N) (A : (⟨S100000x32, .f32⟩ : BufTy).Contents (Elt Ideal)) (B : (⟨S32x2, .f32⟩ : BufTy).Contents (Elt Ideal)) (G : (⟨S100000x2, .f32⟩ : BufTy).Contents (Elt Ideal))
    (hA : V c main_v64 = A) (hB : V c main_arg10 = B)
    (hG : ∀ (r : Fin 100000) (q : Fin 2), G (ix2 r q) = ∑ k : Fin 32, A (ix2 r k) * B (ix2 k q)) :
    (dat4 (F := Ideal) V c).flushed 2 t = ((cfg4.win 2).blk t).view.read (Elt Ideal) G := by
  show (cfg4.win 2).cut (grid4.coords t) ((dat4 V c).after 2 t) = _
  rw [after4_2]
  unfold out4_2
  rw [View.canon_unit_zero hz]
  simp only [View.ld_unit_zero (S := S10000x32) hz, View.ld_unit_zero (S := S32x2) hz]
  funext j
  obtain ⟨p, q, rfl⟩ : ∃ (p : Fin 10000) (q : Fin 2), j = ix2 p q := ⟨j 0, j 1, eq_ix2 j⟩
  show k4_pay1 (F := Ideal) (iblk4 V c 0 t) (iblk4 V c 1 t) (ix2 p q) = G (((cfg4.win 2).blk t).view.emb (ix2 p q))
  refine (Rows.k4_pay1_apply _ _ p q).trans ?_
  obtain ⟨e00, e01, e10, e11, e20, e21⟩ := idx4 t
  have ht : t.val < 10 := (show t.val < grid4.N from t.isLt).trans_eq N_4
  have hr : t.val * 10000 + p.val < 100000 := by have := p.isLt; omega
  have hemb : ((cfg4.win 2).blk t).view.emb (ix2 p q) = ix2 (⟨t.val * 10000 + p.val, hr⟩ : Fin 100000) q := by
    funext a; apply Fin.ext
    match a with
    | ⟨0, _⟩ => show win4_2.index t (0 : Fin 2) * 10000 + 1 * p.val = t.val * 10000 + p.val; omega
    | ⟨1, _⟩ => show win4_2.index t (1 : Fin 2) * 2 + 1 * q.val = q.val; omega
  rw [hemb, hG]
  refine Finset.sum_congr rfl fun k _ => ?_
  have b0 : iblk4 V c 0 t (ix2 p k) = A (ix2 (⟨t.val * 10000 + p.val, hr⟩ : Fin 100000) k) := by
    show V c main_v64 (((cfg4.win 0).blk t).view.emb (ix2 p k)) = _
    rw [hA]
    refine congrArg A ?_
    funext a; apply Fin.ext
    match a with
    | ⟨0, _⟩ => show win4_0.index t (0 : Fin 2) * 10000 + 1 * p.val = t.val * 10000 + p.val; omega
    | ⟨1, _⟩ => show win4_0.index t (1 : Fin 2) * 32 + 1 * k.val = k.val; omega
  have b1 : iblk4 V c 1 t (ix2 k q) = B (ix2 k q) := by
    show V c main_arg10 (((cfg4.win 1).blk t).view.emb (ix2 k q)) = _
    rw [hB]
    refine congrArg B ?_
    funext a; apply Fin.ext
    match a with
    | ⟨0, _⟩ => show win4_1.index t (0 : Fin 2) * 32 + 1 * k.val = k.val; omega
    | ⟨1, _⟩ => show win4_1.index t (1 : Fin 2) * 2 + 1 * q.val = q.val; omega
  rw [b0, b1]

/-- An index of region 4's output array is in grid point `t`'s block iff each coordinate is in the block's range. -/
theorem mem_blk4 (t : Fin cfg4.N) (i : S100000x2.Idx) :
    i ∈ ((cfg4.win 2).blk t).view.set ↔ ∀ a : Fin 2, win4_2.index t a * S10000x2.size a ≤ (i a).val ∧ (i a).val < win4_2.index t a * S10000x2.size a + S10000x2.size a := by
  show i ∈ ((View.whole main_v65).slice (win4_2.rect t)).set ↔ _
  rw [View.set_slice_whole, Rect.mem_set_unit]
  exact Iff.rfl

/-- Row `r` of region 4's output array lies in the block of grid point `r / 10000`: the ten blocks tile the array. -/
theorem cover4 (i : S100000x2.Idx) : ∃ t : Fin cfg4.N, (cfg4.win 2).flush t = true ∧ i ∈ ((cfg4.win 2).blk t).view.set := by
  have hi0 : (i 0).val < 100000 := (i 0).isLt
  have hi1 : (i 1).val < 2 := (i 1).isLt
  have hN : (i 0).val / 10000 < grid4.N := by rw [N_4]; omega
  obtain ⟨e00, e01, e10, e11, e20, e21⟩ := idx4 ⟨(i 0).val / 10000, hN⟩
  refine ⟨⟨(i 0).val / 10000, hN⟩, flush4_2 _, ?_⟩
  rw [mem_blk4]
  intro a
  match a with
  | ⟨0, _⟩ =>
    show win4_2.index ⟨(i 0).val / 10000, hN⟩ (0 : Fin 2) * 10000 ≤ (i 0).val ∧ (i 0).val < win4_2.index ⟨(i 0).val / 10000, hN⟩ (0 : Fin 2) * 10000 + 10000
    rw [e20]; show (i 0).val / 10000 * 10000 ≤ (i 0).val ∧ (i 0).val < (i 0).val / 10000 * 10000 + 10000; omega
  | ⟨1, _⟩ =>
    show win4_2.index ⟨(i 0).val / 10000, hN⟩ (1 : Fin 2) * 2 ≤ (i 1).val ∧ (i 1).val < win4_2.index ⟨(i 0).val / 10000, hN⟩ (1 : Fin 2) * 2 + 2
    rw [e21]; omega

/-- THE ARRAY after region 4: `G`. -/
theorem final4 (c : Dev nD) (A : (⟨S100000x32, .f32⟩ : BufTy).Contents (Elt Ideal)) (B : (⟨S32x2, .f32⟩ : BufTy).Contents (Elt Ideal)) (G : (⟨S100000x2, .f32⟩ : BufTy).Contents (Elt Ideal))
    (hA : V c main_v64 = A) (hB : V c main_arg10 = B)
    (hG : ∀ (r : Fin 100000) (q : Fin 2), G (ix2 r q) = ∑ k : Fin 32, A (ix2 r k) * B (ix2 k q)) :
    (dat4 (F := Ideal) V c).arrAt 2 cfg4.N = G :=
  (dat4 V c).arrAt_eq_of_cover 2 G (fun t _ => flushed4 V c t A B G hA hB hG) cover4

/-! ## Region 5: self-loop and bias, ten thousand rows at a time -/

theorem idx5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = t.val
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

/-- WHAT GRID POINT `t` WRITES BACK: rows `10000·t … 10000·t + 9999` of any array `G` whose row `r` is the row form of
    row `r` of the neighbours' sum and of the projection, the node's self-loop weight and the bias row:
    the blocks of the two matrices and of the weight column are their rows `10000·t + p`, the vectors made rows are
    whole at every point. -/
theorem flushed5 (c : Dev nD) (t : Fin cfg5.N) (Agg Xw : (⟨S100000x2, .f32⟩ : BufTy).Contents (Elt Ideal)) (Dinv : (⟨S100000, .f32⟩ : BufTy).Contents (Elt Ideal)) (b : (⟨S2, .f32⟩ : BufTy).Contents (Elt Ideal)) (G : (⟨S100000x2, .f32⟩ : BufTy).Contents (Elt Ideal))
    (h0 : V c main_v78 = Agg) (h1 : V c main_v65 = Xw)
    (h2 : V c main_v28 = shapeCast _ Dinv Facts₀.shapeCasts_S100000_S100000x1)
    (h3 : V c main_v79 = shapeCast _ b Facts₀.shapeCasts_S2_S1x2)
    (hG : ∀ (r : Fin 100000) (q : Fin 2), G (ix2 r q) = selfLoop (fun k => Agg (ix2 r k)) (fun k => Xw (ix2 r k)) (Dinv (ix1 r)) (fun k => b (ix1 k)) q) :
    (dat5 (F := Ideal) V c).flushed 4 t = ((cfg5.win 4).blk t).view.read (Elt Ideal) G := by
  show (cfg5.win 4).cut (grid5.coords t) ((dat5 V c).after 4 t) = _
  rw [after5_4]
  unfold out5_4
  rw [View.canon_unit_zero hz]
  simp only [View.ld_unit_zero (S := S10000x2) hz, View.ld_unit_zero (S := S10000x1) hz, View.ld_unit_zero (S := S1x2) hz]
  funext j
  obtain ⟨p, q, rfl⟩ : ∃ (p : Fin 10000) (q : Fin 2), j = ix2 p q := ⟨j 0, j 1, eq_ix2 j⟩
  show k5_pay1 (F := Ideal) (iblk5 V c 0 t) (iblk5 V c 1 t) (iblk5 V c 2 t) (iblk5 V c 3 t) (ix2 p q) = G (((cfg5.win 4).blk t).view.emb (ix2 p q))
  refine (Rows.k5_pay1_apply _ _ _ _ p q).trans ?_
  obtain ⟨e00, e01, e10, e11, e20, e21, e30, e31, e40, e41⟩ := idx5 t
  have ht : t.val < 10 := (show t.val < grid5.N from t.isLt).trans_eq N_5
  have hr : t.val * 10000 + p.val < 100000 := by have := p.isLt; omega
  have hemb : ((cfg5.win 4).blk t).view.emb (ix2 p q) = ix2 (⟨t.val * 10000 + p.val, hr⟩ : Fin 100000) q := by
    funext a; apply Fin.ext
    match a with
    | ⟨0, _⟩ => show win5_4.index t (0 : Fin 2) * 10000 + 1 * p.val = t.val * 10000 + p.val; omega
    | ⟨1, _⟩ => show win5_4.index t (1 : Fin 2) * 2 + 1 * q.val = q.val; omega
  rw [hemb, hG]
  have b0 : ∀ k : Fin 2, iblk5 V c 0 t (ix2 p k) = Agg (ix2 (⟨t.val * 10000 + p.val, hr⟩ : Fin 100000) k) := fun k => by
    show V c main_v78 (((cfg5.win 0).blk t).view.emb (ix2 p k)) = _
    rw [h0]
    refine congrArg Agg ?_
    funext a; apply Fin.ext
    match a with
    | ⟨0, _⟩ => show win5_0.index t (0 : Fin 2) * 10000 + 1 * p.val = t.val * 10000 + p.val; omega
    | ⟨1, _⟩ => show win5_0.index t (1 : Fin 2) * 2 + 1 * k.val = k.val; omega
  have b1 : ∀ k : Fin 2, iblk5 V c 1 t (ix2 p k) = Xw (ix2 (⟨t.val * 10000 + p.val, hr⟩ : Fin 100000) k) := fun k => by
    show V c main_v65 (((cfg5.win 1).blk t).view.emb (ix2 p k)) = _
    rw [h1]
    refine congrArg Xw ?_
    funext a; apply Fin.ext
    match a with
    | ⟨0, _⟩ => show win5_1.index t (0 : Fin 2) * 10000 + 1 * p.val = t.val * 10000 + p.val; omega
    | ⟨1, _⟩ => show win5_1.index t (1 : Fin 2) * 2 + 1 * k.val = k.val; omega
  have b2 : iblk5 V c 2 t (ix2 p (0 : Fin 1)) = Dinv (ix1 (⟨t.val * 10000 + p.val, hr⟩ : Fin 100000)) := by
    show V c main_v28 (((cfg5.win 2).blk t).view.emb (ix2 p (0 : Fin 1))) = _
    rw [h2]
    have he : ((cfg5.win 2).blk t).view.emb (ix2 p (0 : Fin 1)) = ix2 (⟨t.val * 10000 + p.val, hr⟩ : Fin 100000) (0 : Fin 1) := by
      funext a; apply Fin.ext
      match a with
      | ⟨0, _⟩ => show win5_2.index t (0 : Fin 2) * 10000 + 1 * p.val = t.val * 10000 + p.val; omega
      | ⟨1, _⟩ => show win5_2.index t (1 : Fin 2) * 1 + 1 * 0 = 0; omega
    rw [he]
    exact shapeCast_a_a1_apply _ _ (⟨t.val * 10000 + p.val, hr⟩ : Fin 100000) (0 : Fin 1)
  have b3 : ∀ k : Fin 2, iblk5 V c 3 t (ix2 (0 : Fin 1) k) = b (ix1 k) := fun k => by
    show V c main_v79 (((cfg5.win 3).blk t).view.emb (ix2 (0 : Fin 1) k)) = _
    rw [h3]
    have he : ((cfg5.win 3).blk t).view.emb (ix2 (0 : Fin 1) k) = ix2 (0 : Fin 1) k := by
      funext a; apply Fin.ext
      match a with
      | ⟨0, _⟩ => show win5_3.index t (0 : Fin 2) * 1 + 1 * 0 = 0; omega
      | ⟨1, _⟩ => show win5_3.index t (1 : Fin 2) * 2 + 1 * k.val = k.val; omega
    rw [he]
    exact shapeCast_a_1a_apply _ _ (0 : Fin 1) k
  simp only [b0, b1, b2, b3]

/-- An index of region 5's output array is in grid point `t`'s block iff each coordinate is in the block's range. -/
theorem mem_blk5 (t : Fin cfg5.N) (i : S100000x2.Idx) :
    i ∈ ((cfg5.win 4).blk t).view.set ↔ ∀ a : Fin 2, win5_4.index t a * S10000x2.size a ≤ (i a).val ∧ (i a).val < win5_4.index t a * S10000x2.size a + S10000x2.size a := by
  show i ∈ ((View.whole main_v80).slice (win5_4.rect t)).set ↔ _
  rw [View.set_slice_whole, Rect.mem_set_unit]
  exact Iff.rfl

/-- Row `r` of region 5's output array lies in the block of grid point `r / 10000`: the ten blocks tile the array. -/
theorem cover5 (i : S100000x2.Idx) : ∃ t : Fin cfg5.N, (cfg5.win 4).flush t = true ∧ i ∈ ((cfg5.win 4).blk t).view.set := by
  have hi0 : (i 0).val < 100000 := (i 0).isLt
  have hi1 : (i 1).val < 2 := (i 1).isLt
  have hN : (i 0).val / 10000 < grid5.N := by rw [N_5]; omega
  obtain ⟨e00, e01, e10, e11, e20, e21, e30, e31, e40, e41⟩ := idx5 ⟨(i 0).val / 10000, hN⟩
  refine ⟨⟨(i 0).val / 10000, hN⟩, flush5_4 _, ?_⟩
  rw [mem_blk5]
  intro a
  match a with
  | ⟨0, _⟩ =>
    show win5_4.index ⟨(i 0).val / 10000, hN⟩ (0 : Fin 2) * 10000 ≤ (i 0).val ∧ (i 0).val < win5_4.index ⟨(i 0).val / 10000, hN⟩ (0 : Fin 2) * 10000 + 10000
    rw [e40]; show (i 0).val / 10000 * 10000 ≤ (i 0).val ∧ (i 0).val < (i 0).val / 10000 * 10000 + 10000; omega
  | ⟨1, _⟩ =>
    show win5_4.index ⟨(i 0).val / 10000, hN⟩ (1 : Fin 2) * 2 ≤ (i 1).val ∧ (i 1).val < win5_4.index ⟨(i 0).val / 10000, hN⟩ (1 : Fin 2) * 2 + 2
    rw [e41]; omega

/-- THE ARRAY after region 5: `G`. -/
theorem final5 (c : Dev nD) (Agg Xw : (⟨S100000x2, .f32⟩ : BufTy).Contents (Elt Ideal)) (Dinv : (⟨S100000, .f32⟩ : BufTy).Contents (Elt Ideal)) (b : (⟨S2, .f32⟩ : BufTy).Contents (Elt Ideal)) (G : (⟨S100000x2, .f32⟩ : BufTy).Contents (Elt Ideal))
    (h0 : V c main_v78 = Agg) (h1 : V c main_v65 = Xw)
    (h2 : V c main_v28 = shapeCast _ Dinv Facts₀.shapeCasts_S100000_S100000x1)
    (h3 : V c main_v79 = shapeCast _ b Facts₀.shapeCasts_S2_S1x2)
    (hG : ∀ (r : Fin 100000) (q : Fin 2), G (ix2 r q) = selfLoop (fun k => Agg (ix2 r k)) (fun k => Xw (ix2 r k)) (Dinv (ix1 r)) (fun k => b (ix1 k)) q) :
    (dat5 (F := Ideal) V c).arrAt 4 cfg5.N = G :=
  (dat5 V c).arrAt_eq_of_cover 4 G (fun t _ => flushed5 V c t Agg Xw Dinv b G h0 h1 h2 h3 hG) cover5

end Cert.KernelIdeal.Arrays

end
-- ==== Proof.RefRows.lean ====
/-
  The reference program's layer stages, read one row at a time.

  Each of the three graph-convolution layers of the reference is, at node r, a function of row r of three arrays:
  the neighbours' weighted sum, the node's own projected features and the node's self-loop weight. The lemmas
  below read the reference's values at an index (r, q) and identify them with the row forms: the projection is a
  finite sum over the contracted axis, the pre-activation row is the self-loop row, and a hidden layer's output is
  the normalised, rectified self-loop row. The neighbours' sums stay as they are: they are the only values that
  depend on other rows.
-/
import proofs.«157691_j35631048688033_1_alg».proof.Proof.RefRead
import proofs.«157691_j35631048688033_1_alg».proof.Proof.RowForms

open scoped BigOperators

noncomputable section

namespace Cert.ReferenceIdeal.Rows

open Cert.ReferenceIdeal Cert.ReferenceIdeal.ReadP Cert.Gcn Idealize.ShloMosaic Idealize.ShloMosaic.ValueIdx

/-! ## The projections: a row of the product is a finite sum over the contracted axis -/

/-- Layer 1's projection at (r, q): the sum over the 128 input features. -/
theorem val_main_v13_rows (x0 : (⟨S100000x128, .f32⟩ : BufTy).Contents (Elt Ideal))
    (x2 : (⟨S128x32, .f32⟩ : BufTy).Contents (Elt Ideal))
    (r : Fin 100000) (q : Fin 32) :
    val_main_v13 (F := Ideal) x0 x2 (ix2 r q) = ∑ c : Fin 128, x0 (ix2 r c) * x2 (ix2 c q) := by
  refine (val_main_v13_apply x0 x2 (ix2 r q)).trans (Finset.sum_congr rfl fun c _ => ?_)
  have el : lidx_main_v13 (ix2 r q) c = ix2 r c :=
    funext fun a => Fin.ext (by match a with | ⟨0, _⟩ => rfl | ⟨1, _⟩ => rfl)
  have er : ridx_main_v13 (ix2 r q) c = ix2 c q :=
    funext fun a => Fin.ext (by match a with | ⟨0, _⟩ => rfl | ⟨1, _⟩ => rfl)
  rw [el, er]

/-- Layer 2's projection at (r, q): the sum over the 32 hidden features of layer 1's output. -/
theorem val_main_v74_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (x6 : (⟨S32x32, .f32⟩ : BufTy).Contents (Elt Ideal))
    (r : Fin 100000) (q : Fin 32) :
    val_main_v74 (F := Ideal) x0 x1 x2 x3 x4 x5 x6 (ix2 r q)
      = ∑ c : Fin 32, val_main_v73 (F := Ideal) x0 x1 x2 x3 x4 x5 (ix2 r c) * x6 (ix2 c q) := by
  refine (val_main_v74_apply x0 x1 x2 x3 x4 x5 x6 (ix2 r q)).trans (Finset.sum_congr rfl fun c _ => ?_)
  have el : lidx_main_v74 (ix2 r q) c = ix2 r c :=
    funext fun a => Fin.ext (by match a with | ⟨0, _⟩ => rfl | ⟨1, _⟩ => rfl)
  have er : ridx_main_v74 (ix2 r q) c = ix2 c q :=
    funext fun a => Fin.ext (by match a with | ⟨0, _⟩ => rfl | ⟨1, _⟩ => rfl)
  rw [el, er]

/-- Layer 3's projection at (r, q): the sum over the 32 hidden features of layer 2's output. -/
theorem val_main_v135_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (x6 : (⟨S32x32, .f32⟩ : BufTy).Contents (Elt Ideal))
    (x7 : (⟨S32, .f32⟩ : BufTy).Contents (Elt Ideal))
    (x8 : (⟨S32, .f32⟩ : BufTy).Contents (Elt Ideal))
    (x9 : (⟨S32, .f32⟩ : BufTy).Contents (Elt Ideal))
    (x10 : (⟨S32x2, .f32⟩ : BufTy).Contents (Elt Ideal))
    (r : Fin 100000) (q : Fin 2) :
    val_main_v135 (F := Ideal) x0 x1 x2 x3 x4 x5 x6 x7 x8 x9 x10 (ix2 r q)
      = ∑ c : Fin 32, val_main_v134 (F := Ideal) x0 x1 x2 x3 x4 x5 x6 x7 x8 x9 (ix2 r c) * x10 (ix2 c q) := by
  refine (val_main_v135_apply x0 x1 x2 x3 x4 x5 x6 x7 x8 x9 x10 (ix2 r q)).trans
    (Finset.sum_congr rfl fun c _ => ?_)
  have el : lidx_main_v135 (ix2 r q) c = ix2 r c :=
    funext fun a => Fin.ext (by match a with | ⟨0, _⟩ => rfl | ⟨1, _⟩ => rfl)
  have er : ridx_main_v135 (ix2 r q) c = ix2 c q :=
    funext fun a => Fin.ext (by match a with | ⟨0, _⟩ => rfl | ⟨1, _⟩ => rfl)
  rw [el, er]

/-! ## Layer 1: the self-loop row, normalised and rectified -/

/-- Layer 1's pre-normalisation row at node r: neighbours' sum plus self-loop term plus bias. -/
def refRow1 (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (r : Fin 100000) : Fin 32 → EReal :=
  selfLoop (fun k => val_main_v41 (F := Ideal) x0 x1 x2 (ix2 r k))
    (fun k => val_main_v13 (F := Ideal) x0 x2 (ix2 r k))
    (val_main_v12 (F := Ideal) x1 (ix1 r)) (fun k => x3 (ix1 k))

/-- The pre-normalisation value at (r, k) is entry k of that row. -/
theorem val_main_v48_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (r : Fin 100000) (k : Fin 32) :
    val_main_v48 (F := Ideal) x0 x1 x2 x3 (ix2 r k) = refRow1 x0 x1 x2 x3 r k := by
  have e1 : idx_main_v42 (idx_main_v43 (ix2 r k)) = ix1 r :=
    funext fun a => Fin.ext (by match a with | ⟨0, _⟩ => rfl)
  have e2 : idx_main_v46 (idx_main_v47 (ix2 r k)) = ix1 k :=
    funext fun a => Fin.ext (by match a with | ⟨0, _⟩ => rfl)
  rw [val_main_v48_apply, val_main_v45_apply, val_main_v44_apply, val_main_v43_apply, val_main_v42_apply,
    val_main_v47_apply, val_main_v46_apply, e1, e2]
  rfl

/-- The row sum, a vector over the nodes: at r it is the sum of the pre-normalisation row. -/
theorem val_main_v49_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (r : Fin 100000) :
    val_main_v49 (F := Ideal) x0 x1 x2 x3 (ix1 r) = ∑ k : Fin 32, refRow1 x0 x1 x2 x3 r k := by
  have hs : ∀ k : Fin 32, val_main_v48 (F := Ideal) x0 x1 x2 x3 (idx_main_v49 (ix1 r) k) = refRow1 x0 x1 x2 x3 r k := fun k =>
    (congrArg (val_main_v48 (F := Ideal) x0 x1 x2 x3)
      (funext fun a => Fin.ext (by match a with | ⟨0, _⟩ => rfl | ⟨1, _⟩ => rfl))).trans
      (val_main_v48_rows x0 x1 x2 x3 r k)
  refine (val_main_v49_apply x0 x1 x2 x3 (ix1 r)).trans ?_
  rw [val_main_cst_9_apply, Finset.sum_congr rfl fun k _ => hs k]
  exact (congrArg (· + _) Ideal.ofBits_zero_f32).trans (zero_add _)

/-- The row mean, kept as a column: at (r, 0) it is the mean of the pre-normalisation row. -/
theorem val_main_v52_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (r : Fin 100000) (z : Fin 1) :
    val_main_v52 (F := Ideal) x0 x1 x2 x3 (ix2 r z) = rowMean (refRow1 x0 x1 x2 x3 r) := by
  have e1 : idx_main_v50 (ix2 r z) = ix1 r :=
    funext fun a => Fin.ext (by match a with | ⟨0, _⟩ => rfl)
  rw [val_main_v52_apply, val_main_v50_apply, e1, val_main_v49_rows, val_main_v51_apply, val_main_cst_10_apply]
  rfl

/-- The centred row at (r, k), as used for the variance. -/
theorem val_main_v54_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (r : Fin 100000) (k : Fin 32) :
    val_main_v54 (F := Ideal) x0 x1 x2 x3 (ix2 r k) = refRow1 x0 x1 x2 x3 r k - rowMean (refRow1 x0 x1 x2 x3 r) := by
  have e1 : idx_main_v53 (ix2 r k) = ix2 r (0 : Fin 1) :=
    funext fun a => Fin.ext (by match a with | ⟨0, _⟩ => rfl | ⟨1, _⟩ => rfl)
  rw [val_main_v54_apply, val_main_v53_apply, e1, val_main_v52_rows, val_main_v48_rows]
  rfl

/-- The centred row at (r, k), as used for the output. -/
theorem val_main_v61_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (r : Fin 100000) (k : Fin 32) :
    val_main_v61 (F := Ideal) x0 x1 x2 x3 (ix2 r k) = refRow1 x0 x1 x2 x3 r k - rowMean (refRow1 x0 x1 x2 x3 r) := by
  have e1 : idx_main_v60 (ix2 r k) = ix2 r (0 : Fin 1) :=
    funext fun a => Fin.ext (by match a with | ⟨0, _⟩ => rfl | ⟨1, _⟩ => rfl)
  rw [val_main_v61_apply, val_main_v60_apply, e1, val_main_v52_rows, val_main_v48_rows]
  rfl

/-- The sum of squares of the centred row, a vector over the nodes. -/
theorem val_main_v56_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (r : Fin 100000) :
    val_main_v56 (F := Ideal) x0 x1 x2 x3 (ix1 r)
      = ∑ k : Fin 32, (refRow1 x0 x1 x2 x3 r k - rowMean (refRow1 x0 x1 x2 x3 r)) * (refRow1 x0 x1 x2 x3 r k - rowMean (refRow1 x0 x1 x2 x3 r)) := by
  have hs : ∀ k : Fin 32, val_main_v55 (F := Ideal) x0 x1 x2 x3 (idx_main_v56 (ix1 r) k)
      = (refRow1 x0 x1 x2 x3 r k - rowMean (refRow1 x0 x1 x2 x3 r)) * (refRow1 x0 x1 x2 x3 r k - rowMean (refRow1 x0 x1 x2 x3 r)) := fun k =>
    (congrArg (val_main_v55 (F := Ideal) x0 x1 x2 x3)
      (funext fun a => Fin.ext (by match a with | ⟨0, _⟩ => rfl | ⟨1, _⟩ => rfl))).trans
      ((val_main_v55_apply x0 x1 x2 x3 (ix2 r k)).trans
        (congrArg (fun t => t * t) (val_main_v54_rows x0 x1 x2 x3 r k)))
  refine (val_main_v56_apply x0 x1 x2 x3 (ix1 r)).trans ?_
  rw [val_main_cst_11_apply, Finset.sum_congr rfl fun k _ => hs k]
  exact (congrArg (· + _) Ideal.ofBits_zero_f32).trans (zero_add _)

/-- The reciprocal root of the row's variance plus the constant, kept as a column. -/
theorem val_main_v64_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (r : Fin 100000) (z : Fin 1) :
    val_main_v64 (F := Ideal) x0 x1 x2 x3 (ix2 r z)
      = Ideal.rsqrt (rowMean (fun k => (refRow1 x0 x1 x2 x3 r k - rowMean (refRow1 x0 x1 x2 x3 r)) * (refRow1 x0 x1 x2 x3 r k - rowMean (refRow1 x0 x1 x2 x3 r)))
          + Ideal.ofBits .f32 0x3727C5AC#32) := by
  have e1 : idx_main_v57 (ix2 r z) = ix1 r :=
    funext fun a => Fin.ext (by match a with | ⟨0, _⟩ => rfl)
  rw [val_main_v64_apply, val_main_v63_apply, val_main_v59_apply, val_main_v57_apply, e1, val_main_v56_rows, val_main_v58_apply,
    val_main_v62_apply, val_main_cst_12_apply, val_main_cst_13_apply]
  rfl

/-- Layer 1's output at (r, q): the normalised, rectified self-loop row. -/
theorem val_main_v73_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (r : Fin 100000) (q : Fin 32) :
    val_main_v73 (F := Ideal) x0 x1 x2 x3 x4 x5 (ix2 r q)
      = normRelu (selfLoop (fun k => val_main_v41 (F := Ideal) x0 x1 x2 (ix2 r k))
            (fun k => val_main_v13 (F := Ideal) x0 x2 (ix2 r k))
            (val_main_v12 (F := Ideal) x1 (ix1 r)) (fun k => x3 (ix1 k)))
          (fun k => x4 (ix1 k)) (fun k => x5 (ix1 k)) q := by
  have e1 : idx_main_v65 (ix2 r q) = ix2 r (0 : Fin 1) :=
    funext fun a => Fin.ext (by match a with | ⟨0, _⟩ => rfl | ⟨1, _⟩ => rfl)
  have e2 : idx_main_v67 (idx_main_v68 (ix2 r q)) = ix1 q :=
    funext fun a => Fin.ext (by match a with | ⟨0, _⟩ => rfl)
  have e3 : idx_main_v70 (idx_main_v71 (ix2 r q)) = ix1 q :=
    funext fun a => Fin.ext (by match a with | ⟨0, _⟩ => rfl)
  rw [val_main_v73_apply, val_main_v72_apply, val_main_v69_apply, val_main_v66_apply,
    val_main_v65_apply, val_main_v68_apply, val_main_v67_apply,
    val_main_v71_apply, val_main_v70_apply, val_main_call0_v0_apply, val_main_call0_cst_apply, e1, e2, e3,
    val_main_v61_rows, val_main_v64_rows]
  rfl

/-! ## Layer 2: the self-loop row, normalised and rectified -/

/-- Layer 2's pre-normalisation row at node r: neighbours' sum plus self-loop term plus bias. -/
def refRow2 (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (x6 : (⟨S32x32, .f32⟩ : BufTy).Contents (Elt Ideal))
    (x7 : (⟨S32, .f32⟩ : BufTy).Contents (Elt Ideal))
    (r : Fin 100000) : Fin 32 → EReal :=
  selfLoop (fun k => val_main_v102 (F := Ideal) x0 x1 x2 x3 x4 x5 x6 (ix2 r k))
    (fun k => val_main_v74 (F := Ideal) x0 x1 x2 x3 x4 x5 x6 (ix2 r k))
    (val_main_v12 (F := Ideal) x1 (ix1 r)) (fun k => x7 (ix1 k))

/-- The pre-normalisation value at (r, k) is entry k of that row. -/
theorem val_main_v109_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (x6 : (⟨S32x32, .f32⟩ : BufTy).Contents (Elt Ideal))
    (x7 : (⟨S32, .f32⟩ : BufTy).Contents (Elt Ideal))
    (r : Fin 100000) (k : Fin 32) :
    val_main_v109 (F := Ideal) x0 x1 x2 x3 x4 x5 x6 x7 (ix2 r k) = refRow2 x0 x1 x2 x3 x4 x5 x6 x7 r k := by
  have e1 : idx_main_v103 (idx_main_v104 (ix2 r k)) = ix1 r :=
    funext fun a => Fin.ext (by match a with | ⟨0, _⟩ => rfl)
  have e2 : idx_main_v107 (idx_main_v108 (ix2 r k)) = ix1 k :=
    funext fun a => Fin.ext (by match a with | ⟨0, _⟩ => rfl)
  rw [val_main_v109_apply, val_main_v106_apply, val_main_v105_apply, val_main_v104_apply, val_main_v103_apply,
    val_main_v108_apply, val_main_v107_apply, e1, e2]
  rfl

/-- The row sum, a vector over the nodes: at r it is the sum of the pre-normalisation row. -/
theorem val_main_v110_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (x6 : (⟨S32x32, .f32⟩ : BufTy).Contents (Elt Ideal))
    (x7 : (⟨S32, .f32⟩ : BufTy).Contents (Elt Ideal))
    (r : Fin 100000) :
    val_main_v110 (F := Ideal) x0 x1 x2 x3 x4 x5 x6 x7 (ix1 r) = ∑ k : Fin 32, refRow2 x0 x1 x2 x3 x4 x5 x6 x7 r k := by
  have hs : ∀ k : Fin 32, val_main_v109 (F := Ideal) x0 x1 x2 x3 x4 x5 x6 x7 (idx_main_v110 (ix1 r) k) = refRow2 x0 x1 x2 x3 x4 x5 x6 x7 r k := fun k =>
    (congrArg (val_main_v109 (F := Ideal) x0 x1 x2 x3 x4 x5 x6 x7)
      (funext fun a => Fin.ext (by match a with | ⟨0, _⟩ => rfl | ⟨1, _⟩ => rfl))).trans
      (val_main_v109_rows x0 x1 x2 x3 x4 x5 x6 x7 r k)
  refine (val_main_v110_apply x0 x1 x2 x3 x4 x5 x6 x7 (ix1 r)).trans ?_
  rw [val_main_cst_21_apply, Finset.sum_congr rfl fun k _ => hs k]
  exact (congrArg (· + _) Ideal.ofBits_zero_f32).trans (zero_add _)

/-- The row mean, kept as a column: at (r, 0) it is the mean of the pre-normalisation row. -/
theorem val_main_v113_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (x6 : (⟨S32x32, .f32⟩ : BufTy).Contents (Elt Ideal))
    (x7 : (⟨S32, .f32⟩ : BufTy).Contents (Elt Ideal))
    (r : Fin 100000) (z : Fin 1) :
    val_main_v113 (F := Ideal) x0 x1 x2 x3 x4 x5 x6 x7 (ix2 r z) = rowMean (refRow2 x0 x1 x2 x3 x4 x5 x6 x7 r) := by
  have e1 : idx_main_v111 (ix2 r z) = ix1 r :=
    funext fun a => Fin.ext (by match a with | ⟨0, _⟩ => rfl)
  rw [val_main_v113_apply, val_main_v111_apply, e1, val_main_v110_rows, val_main_v112_apply, val_main_cst_22_apply]
  rfl

/-- The centred row at (r, k), as used for the variance. -/
theorem val_main_v115_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (x6 : (⟨S32x32, .f32⟩ : BufTy).Contents (Elt Ideal))
    (x7 : (⟨S32, .f32⟩ : BufTy).Contents (Elt Ideal))
    (r : Fin 100000) (k : Fin 32) :
    val_main_v115 (F := Ideal) x0 x1 x2 x3 x4 x5 x6 x7 (ix2 r k) = refRow2 x0 x1 x2 x3 x4 x5 x6 x7 r k - rowMean (refRow2 x0 x1 x2 x3 x4 x5 x6 x7 r) := by
  have e1 : idx_main_v114 (ix2 r k) = ix2 r (0 : Fin 1) :=
    funext fun a => Fin.ext (by match a with | ⟨0, _⟩ => rfl | ⟨1, _⟩ => rfl)
  rw [val_main_v115_apply, val_main_v114_apply, e1, val_main_v113_rows, val_main_v109_rows]
  rfl

/-- The centred row at (r, k), as used for the output. -/
theorem val_main_v122_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (x6 : (⟨S32x32, .f32⟩ : BufTy).Contents (Elt Ideal))
    (x7 : (⟨S32, .f32⟩ : BufTy).Contents (Elt Ideal))
    (r : Fin 100000) (k : Fin 32) :
    val_main_v122 (F := Ideal) x0 x1 x2 x3 x4 x5 x6 x7 (ix2 r k) = refRow2 x0 x1 x2 x3 x4 x5 x6 x7 r k - rowMean (refRow2 x0 x1 x2 x3 x4 x5 x6 x7 r) := by
  have e1 : idx_main_v121 (ix2 r k) = ix2 r (0 : Fin 1) :=
    funext fun a => Fin.ext (by match a with | ⟨0, _⟩ => rfl | ⟨1, _⟩ => rfl)
  rw [val_main_v122_apply, val_main_v121_apply, e1, val_main_v113_rows, val_main_v109_rows]
  rfl

/-- The sum of squares of the centred row, a vector over the nodes. -/
theorem val_main_v117_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (x6 : (⟨S32x32, .f32⟩ : BufTy).Contents (Elt Ideal))
    (x7 : (⟨S32, .f32⟩ : BufTy).Contents (Elt Ideal))
    (r : Fin 100000) :
    val_main_v117 (F := Ideal) x0 x1 x2 x3 x4 x5 x6 x7 (ix1 r)
      = ∑ k : Fin 32, (refRow2 x0 x1 x2 x3 x4 x5 x6 x7 r k - rowMean (refRow2 x0 x1 x2 x3 x4 x5 x6 x7 r)) * (refRow2 x0 x1 x2 x3 x4 x5 x6 x7 r k - rowMean (refRow2 x0 x1 x2 x3 x4 x5 x6 x7 r)) := by
  have hs : ∀ k : Fin 32, val_main_v116 (F := Ideal) x0 x1 x2 x3 x4 x5 x6 x7 (idx_main_v117 (ix1 r) k)
      = (refRow2 x0 x1 x2 x3 x4 x5 x6 x7 r k - rowMean (refRow2 x0 x1 x2 x3 x4 x5 x6 x7 r)) * (refRow2 x0 x1 x2 x3 x4 x5 x6 x7 r k - rowMean (refRow2 x0 x1 x2 x3 x4 x5 x6 x7 r)) := fun k =>
    (congrArg (val_main_v116 (F := Ideal) x0 x1 x2 x3 x4 x5 x6 x7)
      (funext fun a => Fin.ext (by match a with | ⟨0, _⟩ => rfl | ⟨1, _⟩ => rfl))).trans
      ((val_main_v116_apply x0 x1 x2 x3 x4 x5 x6 x7 (ix2 r k)).trans
        (congrArg (fun t => t * t) (val_main_v115_rows x0 x1 x2 x3 x4 x5 x6 x7 r k)))
  refine (val_main_v117_apply x0 x1 x2 x3 x4 x5 x6 x7 (ix1 r)).trans ?_
  rw [val_main_cst_23_apply, Finset.sum_congr rfl fun k _ => hs k]
  exact (congrArg (· + _) Ideal.ofBits_zero_f32).trans (zero_add _)

/-- The reciprocal root of the row's variance plus the constant, kept as a column. -/
theorem val_main_v125_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (x6 : (⟨S32x32, .f32⟩ : BufTy).Contents (Elt Ideal))
    (x7 : (⟨S32, .f32⟩ : BufTy).Contents (Elt Ideal))
    (r : Fin 100000) (z : Fin 1) :
    val_main_v125 (F := Ideal) x0 x1 x2 x3 x4 x5 x6 x7 (ix2 r z)
      = Ideal.rsqrt (rowMean (fun k => (refRow2 x0 x1 x2 x3 x4 x5 x6 x7 r k - rowMean (refRow2 x0 x1 x2 x3 x4 x5 x6 x7 r)) * (refRow2 x0 x1 x2 x3 x4 x5 x6 x7 r k - rowMean (refRow2 x0 x1 x2 x3 x4 x5 x6 x7 r)))
          + Ideal.ofBits .f32 0x3727C5AC#32) := by
  have e1 : idx_main_v118 (ix2 r z) = ix1 r :=
    funext fun a => Fin.ext (by match a with | ⟨0, _⟩ => rfl)
  rw [val_main_v125_apply, val_main_v124_apply, val_main_v120_apply, val_main_v118_apply, e1, val_main_v117_rows, val_main_v119_apply,
    val_main_v123_apply, val_main_cst_24_apply, val_main_cst_25_apply]
  rfl

/-- Layer 2's output at (r, q): the normalised, rectified self-loop row. -/
theorem val_main_v134_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (x6 : (⟨S32x32, .f32⟩ : BufTy).Contents (Elt Ideal))
    (x7 : (⟨S32, .f32⟩ : BufTy).Contents (Elt Ideal))
    (x8 : (⟨S32, .f32⟩ : BufTy).Contents (Elt Ideal))
    (x9 : (⟨S32, .f32⟩ : BufTy).Contents (Elt Ideal))
    (r : Fin 100000) (q : Fin 32) :
    val_main_v134 (F := Ideal) x0 x1 x2 x3 x4 x5 x6 x7 x8 x9 (ix2 r q)
      = normRelu (selfLoop (fun k => val_main_v102 (F := Ideal) x0 x1 x2 x3 x4 x5 x6 (ix2 r k))
            (fun k => val_main_v74 (F := Ideal) x0 x1 x2 x3 x4 x5 x6 (ix2 r k))
            (val_main_v12 (F := Ideal) x1 (ix1 r)) (fun k => x7 (ix1 k)))
          (fun k => x8 (ix1 k)) (fun k => x9 (ix1 k)) q := by
  have e1 : idx_main_v126 (ix2 r q) = ix2 r (0 : Fin 1) :=
    funext fun a => Fin.ext (by match a with | ⟨0, _⟩ => rfl | ⟨1, _⟩ => rfl)
  have e2 : idx_main_v128 (idx_main_v129 (ix2 r q)) = ix1 q :=
    funext fun a => Fin.ext (by match a with | ⟨0, _⟩ => rfl)
  have e3 : idx_main_v131 (idx_main_v132 (ix2 r q)) = ix1 q :=
    funext fun a => Fin.ext (by match a with | ⟨0, _⟩ => rfl)
  rw [val_main_v134_apply, val_main_v133_apply, val_main_v130_apply, val_main_v127_apply,
    val_main_v126_apply, val_main_v129_apply, val_main_v128_apply,
    val_main_v132_apply, val_main_v131_apply, val_main_call1_v0_apply, val_main_call1_cst_apply, e1, e2, e3,
    val_main_v122_rows, val_main_v125_rows]
  rfl

/-! ## Layer 3: the self-loop row, no normalisation -/

/-- Layer 3's output at (r, q) is the self-loop row of the neighbours' sum, the projection, the node's
    self-loop weight and the bias. -/
theorem val_main_v170_rows (x0 : (⟨S100000x128, .f32⟩ : BufTy).Contents (Elt Ideal))
    (x1 : (⟨S2x3200000, .i32⟩ : BufTy).Contents (Elt Ideal))
    (x2 : (⟨S128x32, .f32⟩ : BufTy).Contents (Elt Ideal))
    (x3 : (⟨S32, .f32⟩ : BufTy).Contents (Elt Ideal))
    (x4 : (⟨S32, .f32⟩ : BufTy).Contents (Elt Ideal))
    (x5 : (⟨S32, .f32⟩ : BufTy).Contents (Elt Ideal))
    (x6 : (⟨S32x32, .f32⟩ : BufTy).Contents (Elt Ideal))
    (x7 : (⟨S32, .f32⟩ : BufTy).Contents (Elt Ideal))
    (x8 : (⟨S32, .f32⟩ : BufTy).Contents (Elt Ideal))
    (x9 : (⟨S32, .f32⟩ : BufTy).Contents (Elt Ideal))
    (x10 : (⟨S32x2, .f32⟩ : BufTy).Contents (Elt Ideal))
    (x11 : (⟨S2, .f32⟩ : BufTy).Contents (Elt Ideal))
    (r : Fin 100000) (q : Fin 2) :
    val_main_v170 (F := Ideal) x0 x1 x2 x3 x4 x5 x6 x7 x8 x9 x10 x11 (ix2 r q)
      = selfLoop (fun k => val_main_v163 (F := Ideal) x0 x1 x2 x3 x4 x5 x6 x7 x8 x9 x10 (ix2 r k))
          (fun k => val_main_v135 (F := Ideal) x0 x1 x2 x3 x4 x5 x6 x7 x8 x9 x10 (ix2 r k))
          (val_main_v12 (F := Ideal) x1 (ix1 r)) (fun k => x11 (ix1 k)) q := by
  have e1 : idx_main_v164 (idx_main_v165 (ix2 r q)) = ix1 r :=
    funext fun a => Fin.ext (by match a with | ⟨0, _⟩ => rfl)
  have e2 : idx_main_v168 (idx_main_v169 (ix2 r q)) = ix1 q :=
    funext fun a => Fin.ext (by match a with | ⟨0, _⟩ => rfl)
  rw [val_main_v170_apply, val_main_v167_apply, val_main_v166_apply, val_main_v165_apply, val_main_v164_apply,
    val_main_v169_apply, val_main_v168_apply, e1, e2]
  rfl

end Cert.ReferenceIdeal.Rows

end
-- ==== Proof.KernelFold.lean ====
/-
  The idealized kernel's result, in the reference's stage functions.

  The kernel's @main alternates host stretches and kernel regions; the buffer contents at the ten boundaries are the
  fold `W1 … W10` of the run module. Walking the fold once: after the prologue the edge endpoints, the coefficient
  and the reciprocal-degree column are the reference's stage functions of the edge array; after the first region the
  projection buffer holds the reference's first projection (the region's array is the row-by-row product, which is
  what the reference's projection is row by row); after the next stretch the neighbour sum and the three vectors made
  rows; after the second region the reference's first layer output (both are the normalised, clipped self-loop row of
  the same rows); and so on through the second layer and the output layer. At each step the buffers a later step
  reads are carried through the stretches and regions that do not write them (a region leaves its input arrays as it
  found them). The last region's array is the reference's result function of the twelve argument arrays.
-/
import proofs.«157691_j35631048688033_1_alg».proof.Proof.Gen.KernelIdeal.Frame
import proofs.«157691_j35631048688033_1_alg».proof.Proof.KernelStretches
import proofs.«157691_j35631048688033_1_alg».proof.Proof.KernelArrays
import proofs.«157691_j35631048688033_1_alg».proof.Proof.RefRows

set_option maxRecDepth 16384

noncomputable section

namespace Cert.KernelIdeal.Fold

open Cert.KernelIdeal Cert.KernelIdeal.Gen Cert.ReferenceIdeal.ReadP Cert.KernelIdeal.Stretches Cert.KernelIdeal.Arrays
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- From a launch memory whose argument buffers hold `x0 … x11`, the last boundary's contents at the result buffer
    are the reference's result function of those twelve arrays. -/
theorem chain (c : Dev nD) (x0 : (⟨Cert.ReferenceIdeal.S100000x128, .f32⟩ : BufTy).Contents (Elt Ideal)) (x1 : (⟨Cert.ReferenceIdeal.S2x3200000, .i32⟩ : BufTy).Contents (Elt Ideal)) (x2 : (⟨Cert.ReferenceIdeal.S128x32, .f32⟩ : BufTy).Contents (Elt Ideal)) (x3 : (⟨Cert.ReferenceIdeal.S32, .f32⟩ : BufTy).Contents (Elt Ideal)) (x4 : (⟨Cert.ReferenceIdeal.S32, .f32⟩ : BufTy).Contents (Elt Ideal)) (x5 : (⟨Cert.ReferenceIdeal.S32, .f32⟩ : BufTy).Contents (Elt Ideal)) (x6 : (⟨Cert.ReferenceIdeal.S32x32, .f32⟩ : BufTy).Contents (Elt Ideal)) (x7 : (⟨Cert.ReferenceIdeal.S32, .f32⟩ : BufTy).Contents (Elt Ideal)) (x8 : (⟨Cert.ReferenceIdeal.S32, .f32⟩ : BufTy).Contents (Elt Ideal)) (x9 : (⟨Cert.ReferenceIdeal.S32, .f32⟩ : BufTy).Contents (Elt Ideal)) (x10 : (⟨Cert.ReferenceIdeal.S32x2, .f32⟩ : BufTy).Contents (Elt Ideal)) (x11 : (⟨Cert.ReferenceIdeal.S2, .f32⟩ : BufTy).Contents (Elt Ideal))
    (a0 : W0 (F := Ideal) m ρ c (Proc.devRef .tc main_arg0) = x0)
    (a1 : W0 (F := Ideal) m ρ c (Proc.devRef .tc main_arg1) = x1)
    (a2 : W0 (F := Ideal) m ρ c (Proc.devRef .tc main_arg2) = x2)
    (a3 : W0 (F := Ideal) m ρ c (Proc.devRef .tc main_arg3) = x3)
    (a4 : W0 (F := Ideal) m ρ c (Proc.devRef .tc main_arg4) = x4)
    (a5 : W0 (F := Ideal) m ρ c (Proc.devRef .tc main_arg5) = x5)
    (a6 : W0 (F := Ideal) m ρ c (Proc.devRef .tc main_arg6) = x6)
    (a7 : W0 (F := Ideal) m ρ c (Proc.devRef .tc main_arg7) = x7)
    (a8 : W0 (F := Ideal) m ρ c (Proc.devRef .tc main_arg8) = x8)
    (a9 : W0 (F := Ideal) m ρ c (Proc.devRef .tc main_arg9) = x9)
    (a10 : W0 (F := Ideal) m ρ c (Proc.devRef .tc main_arg10) = x10)
    (a11 : W0 (F := Ideal) m ρ c (Proc.devRef .tc main_arg11) = x11) :
    W10 (F := Ideal) m ρ c (Proc.devRef .tc main_v80) = val_main_v170 (F := Ideal) x0 x1 x2 x3 x4 x5 x6 x7 x8 x9 x10 x11 := by
  -- the prologue
  have A1 : W1 (F := Ideal) m ρ c (Proc.devRef .tc main_v1) = val_main_v1 (F := Ideal) x1 := pro_v1 (W0 m ρ c) x1 a1
  have A3 : W1 (F := Ideal) m ρ c (Proc.devRef .tc main_v3) = val_main_v3 (F := Ideal) x1 := pro_v3 (W0 m ρ c) x1 a1
  have A27 : W1 (F := Ideal) m ρ c (Proc.devRef .tc main_v27) = val_main_v28 (F := Ideal) x1 := pro_v27 (W0 m ρ c) x1 a1
  have A28 : W1 (F := Ideal) m ρ c (Proc.devRef .tc main_v28) = shapeCast _ (val_main_v12 (F := Ideal) x1) Facts₀.shapeCasts_S100000_S100000x1 := pro_v28 (W0 m ρ c) x1 a1
  have Aa0 : W1 (F := Ideal) m ρ c (Proc.devRef .tc main_arg0) = x0 := (hostOps0_keep (W0 m ρ c) main_arg0 (by decide)).trans a0
  have Aa2 : W1 (F := Ideal) m ρ c (Proc.devRef .tc main_arg2) = x2 := (hostOps0_keep (W0 m ρ c) main_arg2 (by decide)).trans a2
  have Aa3 : W1 (F := Ideal) m ρ c (Proc.devRef .tc main_arg3) = x3 := (hostOps0_keep (W0 m ρ c) main_arg3 (by decide)).trans a3
  have Aa4 : W1 (F := Ideal) m ρ c (Proc.devRef .tc main_arg4) = x4 := (hostOps0_keep (W0 m ρ c) main_arg4 (by decide)).trans a4
  have Aa5 : W1 (F := Ideal) m ρ c (Proc.devRef .tc main_arg5) = x5 := (hostOps0_keep (W0 m ρ c) main_arg5 (by decide)).trans a5
  have Aa6 : W1 (F := Ideal) m ρ c (Proc.devRef .tc main_arg6) = x6 := (hostOps0_keep (W0 m ρ c) main_arg6 (by decide)).trans a6
  have Aa7 : W1 (F := Ideal) m ρ c (Proc.devRef .tc main_arg7) = x7 := (hostOps0_keep (W0 m ρ c) main_arg7 (by decide)).trans a7
  have Aa8 : W1 (F := Ideal) m ρ c (Proc.devRef .tc main_arg8) = x8 := (hostOps0_keep (W0 m ρ c) main_arg8 (by decide)).trans a8
  have Aa9 : W1 (F := Ideal) m ρ c (Proc.devRef .tc main_arg9) = x9 := (hostOps0_keep (W0 m ρ c) main_arg9 (by decide)).trans a9
  have Aa10 : W1 (F := Ideal) m ρ c (Proc.devRef .tc main_arg10) = x10 := (hostOps0_keep (W0 m ρ c) main_arg10 (by decide)).trans a10
  have Aa11 : W1 (F := Ideal) m ρ c (Proc.devRef .tc main_arg11) = x11 := (hostOps0_keep (W0 m ρ c) main_arg11 (by decide)).trans a11
  -- region 0: the first projection
  have B29 : W2 (F := Ideal) m ρ c (Proc.devRef .tc main_v29) = val_main_v13 (F := Ideal) x0 x2 :=
    (W2_arr m ρ c 2).trans (final0 (V1 m ρ) c x0 x2 (val_main_v13 (F := Ideal) x0 x2) Aa0 Aa2 (Cert.ReferenceIdeal.Rows.val_main_v13_rows x0 x2))
  have B1 := (W2_of_ne m ρ c main_v1 (by decide)).trans A1
  have B3 := (W2_of_ne m ρ c main_v3 (by decide)).trans A3
  have B27 := (W2_of_ne m ρ c main_v27 (by decide)).trans A27
  have B28 := (W2_of_ne m ρ c main_v28 (by decide)).trans A28
  have Ba3 := (W2_of_ne m ρ c main_arg3 (by decide)).trans Aa3
  have Ba4 := (W2_of_ne m ρ c main_arg4 (by decide)).trans Aa4
  have Ba5 := (W2_of_ne m ρ c main_arg5 (by decide)).trans Aa5
  have Ba6 := (W2_of_ne m ρ c main_arg6 (by decide)).trans Aa6
  have Ba7 := (W2_of_ne m ρ c main_arg7 (by decide)).trans Aa7
  have Ba8 := (W2_of_ne m ρ c main_arg8 (by decide)).trans Aa8
  have Ba9 := (W2_of_ne m ρ c main_arg9 (by decide)).trans Aa9
  have Ba10 := (W2_of_ne m ρ c main_arg10 (by decide)).trans Aa10
  have Ba11 := (W2_of_ne m ρ c main_arg11 (by decide)).trans Aa11
  -- the first neighbour sum; bias, gain and offset as rows
  have C42 : W3 (F := Ideal) m ρ c (Proc.devRef .tc main_v42) = val_main_v41 (F := Ideal) x0 x1 x2 := sum1 (W2 m ρ c) x0 x1 x2 B29 B1 B3 B27
  have C43 : W3 (F := Ideal) m ρ c (Proc.devRef .tc main_v43) = shapeCast _ x3 Facts₀.shapeCasts_S32_S1x32 := by rw [show W3 (F := Ideal) m ρ c (Proc.devRef .tc main_v43) = _ from row_v43 (W2 m ρ c), Ba3]
  have C44 : W3 (F := Ideal) m ρ c (Proc.devRef .tc main_v44) = shapeCast _ x4 Facts₀.shapeCasts_S32_S1x32 := by rw [show W3 (F := Ideal) m ρ c (Proc.devRef .tc main_v44) = _ from row_v44 (W2 m ρ c), Ba4]
  have C45 : W3 (F := Ideal) m ρ c (Proc.devRef .tc main_v45) = shapeCast _ x5 Facts₀.shapeCasts_S32_S1x32 := by rw [show W3 (F := Ideal) m ρ c (Proc.devRef .tc main_v45) = _ from row_v45 (W2 m ρ c), Ba5]
  have C29 := (hostOps1_keep (W2 m ρ c) main_v29 (by decide)).trans B29
  have C28 := (hostOps1_keep (W2 m ρ c) main_v28 (by decide)).trans B28
  have C1 := (hostOps1_keep (W2 m ρ c) main_v1 (by decide)).trans B1
  have C3 := (hostOps1_keep (W2 m ρ c) main_v3 (by decide)).trans B3
  have C27 := (hostOps1_keep (W2 m ρ c) main_v27 (by decide)).trans B27
  have Ca6 := (hostOps1_keep (W2 m ρ c) main_arg6 (by decide)).trans Ba6
  have Ca7 := (hostOps1_keep (W2 m ρ c) main_arg7 (by decide)).trans Ba7
  have Ca8 := (hostOps1_keep (W2 m ρ c) main_arg8 (by decide)).trans Ba8
  have Ca9 := (hostOps1_keep (W2 m ρ c) main_arg9 (by decide)).trans Ba9
  have Ca10 := (hostOps1_keep (W2 m ρ c) main_arg10 (by decide)).trans Ba10
  have Ca11 := (hostOps1_keep (W2 m ρ c) main_arg11 (by decide)).trans Ba11
  -- region 1: the first layer's output
  have D46 : W4 (F := Ideal) m ρ c (Proc.devRef .tc main_v46) = val_main_v73 (F := Ideal) x0 x1 x2 x3 x4 x5 :=
    (W4_arr m ρ c 6).trans (final1 (V3 m ρ) c (val_main_v41 (F := Ideal) x0 x1 x2) (val_main_v13 (F := Ideal) x0 x2) (val_main_v12 (F := Ideal) x1) x3 x4 x5 (val_main_v73 (F := Ideal) x0 x1 x2 x3 x4 x5)
      C42 C29 C28 C43 C44 C45 (Cert.ReferenceIdeal.Rows.val_main_v73_rows x0 x1 x2 x3 x4 x5))
  have D1 := (W4_of_ne m ρ c main_v1 (by decide)).trans C1
  have D3 := (W4_of_ne m ρ c main_v3 (by decide)).trans C3
  have D27 := (W4_of_ne m ρ c main_v27 (by decide)).trans C27
  have D28 := (W4_arr m ρ c 2).trans ((((dat1 (V3 m ρ) c).arrAt_in 2 rfl _).trans (A_eq1 (V3 m ρ) c 2)).trans C28)
  have Da6 := (W4_of_ne m ρ c main_arg6 (by decide)).trans Ca6
  have Da7 := (W4_of_ne m ρ c main_arg7 (by decide)).trans Ca7
  have Da8 := (W4_of_ne m ρ c main_arg8 (by decide)).trans Ca8
  have Da9 := (W4_of_ne m ρ c main_arg9 (by decide)).trans Ca9
  have Da10 := (W4_of_ne m ρ c main_arg10 (by decide)).trans Ca10
  have Da11 := (W4_of_ne m ρ c main_arg11 (by decide)).trans Ca11
  -- region 2: the second projection
  have E47 : W5 (F := Ideal) m ρ c (Proc.devRef .tc main_v47) = val_main_v74 (F := Ideal) x0 x1 x2 x3 x4 x5 x6 :=
    (W5_arr m ρ c 2).trans (final2 (V4 m ρ) c (val_main_v73 (F := Ideal) x0 x1 x2 x3 x4 x5) x6 (val_main_v74 (F := Ideal) x0 x1 x2 x3 x4 x5 x6) D46 Da6 (Cert.ReferenceIdeal.Rows.val_main_v74_rows x0 x1 x2 x3 x4 x5 x6))
  have E1 := (W5_of_ne m ρ c main_v1 (by decide)).trans D1
  have E3 := (W5_of_ne m ρ c main_v3 (by decide)).trans D3
  have E27 := (W5_of_ne m ρ c main_v27 (by decide)).trans D27
  have E28 := (W5_of_ne m ρ c main_v28 (by decide)).trans D28
  have Ea7 := (W5_of_ne m ρ c main_arg7 (by decide)).trans Da7
  have Ea8 := (W5_of_ne m ρ c main_arg8 (by decide)).trans Da8
  have Ea9 := (W5_of_ne m ρ c main_arg9 (by decide)).trans Da9
  have Ea10 := (W5_of_ne m ρ c main_arg10 (by decide)).trans Da10
  have Ea11 := (W5_of_ne m ρ c main_arg11 (by decide)).trans Da11
  -- the second neighbour sum; bias, gain and offset as rows
  have F60 : W6 (F := Ideal) m ρ c (Proc.devRef .tc main_v60) = val_main_v102 (F := Ideal) x0 x1 x2 x3 x4 x5 x6 := sum2 (W5 m ρ c) x0 x1 x2 x3 x4 x5 x6 E47 E1 E3 (E27.trans (coeff_second x1).symm)
  have F61 : W6 (F := Ideal) m ρ c (Proc.devRef .tc main_v61) = shapeCast _ x7 Facts₀.shapeCasts_S32_S1x32 := by rw [show W6 (F := Ideal) m ρ c (Proc.devRef .tc main_v61) = _ from row_v61 (W5 m ρ c), Ea7]
  have F62 : W6 (F := Ideal) m ρ c (Proc.devRef .tc main_v62) = shapeCast _ x8 Facts₀.shapeCasts_S32_S1x32 := by rw [show W6 (F := Ideal) m ρ c (Proc.devRef .tc main_v62) = _ from row_v62 (W5 m ρ c), Ea8]
  have F63 : W6 (F := Ideal) m ρ c (Proc.devRef .tc main_v63) = shapeCast _ x9 Facts₀.shapeCasts_S32_S1x32 := by rw [show W6 (F := Ideal) m ρ c (Proc.devRef .tc main_v63) = _ from row_v63 (W5 m ρ c), Ea9]
  have F47 := (hostOps3_keep (W5 m ρ c) main_v47 (by decide)).trans E47
  have F28 := (hostOps3_keep (W5 m ρ c) main_v28 (by decide)).trans E28
  have F1 := (hostOps3_keep (W5 m ρ c) main_v1 (by decide)).trans E1
  have F3 := (hostOps3_keep (W5 m ρ c) main_v3 (by decide)).trans E3
  have F27 := (hostOps3_keep (W5 m ρ c) main_v27 (by decide)).trans E27
  have Fa10 := (hostOps3_keep (W5 m ρ c) main_arg10 (by decide)).trans Ea10
  have Fa11 := (hostOps3_keep (W5 m ρ c) main_arg11 (by decide)).trans Ea11
  -- region 3: the second layer's output
  have G64 : W7 (F := Ideal) m ρ c (Proc.devRef .tc main_v64) = val_main_v134 (F := Ideal) x0 x1 x2 x3 x4 x5 x6 x7 x8 x9 :=
    (W7_arr m ρ c 6).trans (final3 (V6 m ρ) c (val_main_v102 (F := Ideal) x0 x1 x2 x3 x4 x5 x6) (val_main_v74 (F := Ideal) x0 x1 x2 x3 x4 x5 x6) (val_main_v12 (F := Ideal) x1) x7 x8 x9 (val_main_v134 (F := Ideal) x0 x1 x2 x3 x4 x5 x6 x7 x8 x9)
      F60 F47 F28 F61 F62 F63 (Cert.ReferenceIdeal.Rows.val_main_v134_rows x0 x1 x2 x3 x4 x5 x6 x7 x8 x9))
  have G1 := (W7_of_ne m ρ c main_v1 (by decide)).trans F1
  have G3 := (W7_of_ne m ρ c main_v3 (by decide)).trans F3
  have G27 := (W7_of_ne m ρ c main_v27 (by decide)).trans F27
  have G28 := (W7_arr m ρ c 2).trans ((((dat3 (V6 m ρ) c).arrAt_in 2 rfl _).trans (A_eq3 (V6 m ρ) c 2)).trans F28)
  have Ga10 := (W7_of_ne m ρ c main_arg10 (by decide)).trans Fa10
  have Ga11 := (W7_of_ne m ρ c main_arg11 (by decide)).trans Fa11
  -- region 4: the third projection
  have H65 : W8 (F := Ideal) m ρ c (Proc.devRef .tc main_v65) = val_main_v135 (F := Ideal) x0 x1 x2 x3 x4 x5 x6 x7 x8 x9 x10 :=
    (W8_arr m ρ c 2).trans (final4 (V7 m ρ) c (val_main_v134 (F := Ideal) x0 x1 x2 x3 x4 x5 x6 x7 x8 x9) x10 (val_main_v135 (F := Ideal) x0 x1 x2 x3 x4 x5 x6 x7 x8 x9 x10) G64 Ga10 (Cert.ReferenceIdeal.Rows.val_main_v135_rows x0 x1 x2 x3 x4 x5 x6 x7 x8 x9 x10))
  have H1 := (W8_of_ne m ρ c main_v1 (by decide)).trans G1
  have H3 := (W8_of_ne m ρ c main_v3 (by decide)).trans G3
  have H27 := (W8_of_ne m ρ c main_v27 (by decide)).trans G27
  have H28 := (W8_of_ne m ρ c main_v28 (by decide)).trans G28
  have Ha11 := (W8_of_ne m ρ c main_arg11 (by decide)).trans Ga11
  -- the third neighbour sum; the bias as a row
  have I78 : W9 (F := Ideal) m ρ c (Proc.devRef .tc main_v78) = val_main_v163 (F := Ideal) x0 x1 x2 x3 x4 x5 x6 x7 x8 x9 x10 := sum3 (W8 m ρ c) x0 x1 x2 x3 x4 x5 x6 x7 x8 x9 x10 H65 H1 H3 (H27.trans (coeff_third x1).symm)
  have I79 : W9 (F := Ideal) m ρ c (Proc.devRef .tc main_v79) = shapeCast _ x11 Facts₀.shapeCasts_S2_S1x2 := by rw [show W9 (F := Ideal) m ρ c (Proc.devRef .tc main_v79) = _ from row_v79 (W8 m ρ c), Ha11]
  have I65 := (hostOps5_keep (W8 m ρ c) main_v65 (by decide)).trans H65
  have I28 := (hostOps5_keep (W8 m ρ c) main_v28 (by decide)).trans H28
  -- region 5: the result
  have J0 : V9 (F := Ideal) m ρ c main_v78 = val_main_v163 (F := Ideal) x0 x1 x2 x3 x4 x5 x6 x7 x8 x9 x10 := I78
  have J1 : V9 (F := Ideal) m ρ c main_v65 = val_main_v135 (F := Ideal) x0 x1 x2 x3 x4 x5 x6 x7 x8 x9 x10 := I65
  have J2 : V9 (F := Ideal) m ρ c main_v28 = shapeCast _ (val_main_v12 (F := Ideal) x1) Facts₀.shapeCasts_S100000_S100000x1 := I28
  have J3 : V9 (F := Ideal) m ρ c main_v79 = shapeCast _ x11 Facts₀.shapeCasts_S2_S1x2 := I79
  have J := final5 (V9 m ρ) c (val_main_v163 (F := Ideal) x0 x1 x2 x3 x4 x5 x6 x7 x8 x9 x10) (val_main_v135 (F := Ideal) x0 x1 x2 x3 x4 x5 x6 x7 x8 x9 x10) (val_main_v12 (F := Ideal) x1) x11 (val_main_v170 (F := Ideal) x0 x1 x2 x3 x4 x5 x6 x7 x8 x9 x10 x11)
    J0 J1 J2 J3 (Cert.ReferenceIdeal.Rows.val_main_v170_rows x0 x1 x2 x3 x4 x5 x6 x7 x8 x9 x10 x11)
  exact (W10_arr m ρ c 4).trans J

/-- The last boundary's contents at the result buffer: the reference's result function of the twelve argument arrays
    as launched. -/
theorem result (c : Dev nD) :
    W10 (F := Ideal) m ρ c (Proc.devRef .tc main_v80)
      = val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  chain m ρ c _ _ _ _ _ _ _ _ _ _ _ _ rfl rfl rfl rfl rfl rfl rfl rfl rfl rfl rfl rfl

end Cert.KernelIdeal.Fold

end
-- ==== Proof.RefSegments.lean ====
/- The reference's @main cut into seven stretches.

  The reference is a straight line of 210 host operations: the degrees and their two normalisations, then three
  graph-convolution layers. Read as one nested term its result repeats every shared intermediate many times over; read
  stretch by stretch each intermediate is computed once and named. The stretches are: the degree prologue with the
  first projection (A), the first layer's neighbour sum (B), its self-loop, bias, normalisation and positive part (C),
  the second projection and neighbour sum (D), the second normalisation (E), the third projection and neighbour sum
  (F), and the last self-loop and bias (G). The lists below are the operation list's own entries, in order; that their
  concatenation IS the operation list is checked by `ops_eq`. Each stretch comes with the references it writes; a
  buffer outside that list keeps its contents through the stretch.
-/
import proofs.«157691_j35631048688033_1_alg».proof.Proof.RefOps
import Idealize.ShloMosaic.Lib.Pipeline.Frame

set_option maxRecDepth 16384

noncomputable section

namespace Cert.ReferenceIdeal.Staged

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Operations 1–18 of @main: the degree prologue and the first projection. -/
abbrev segA : List (HloOp τ sig (Elt F)) :=
  [ unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    reshape main_v0 main_v1 rfl shapeCasts_S1x3200000_S3200000,
    unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    reshape main_v2 main_v3 rfl shapeCasts_S1x3200000_S3200000,
    nullary main_cst (constant S_ .f32 0x3F800000#32),
    unary main_cst main_v4 (broadcastInDim S3200000 ![] bcast_S_S3200000 : (⟨S_, .f32⟩ : BufTy).Contents (Elt F) → (⟨S3200000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S3200000x1 ![0] bcast_S3200000_S3200000x1_0 : (⟨S3200000, .i32⟩ : BufTy).Contents (Elt F) → (⟨S3200000x1, .i32⟩ : BufTy).Contents (Elt F)),
    ternary main_v5 main_v6 main_v4 main_v7 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (addf : (⟨S100000, .f32⟩ : BufTy).Contents (Elt F) → (⟨S100000, .f32⟩ : BufTy).Contents (Elt F) → (⟨S100000, .f32⟩ : BufTy).Contents (Elt F)),
    unary main_v9 main_v10 (Host.rsqrt : (⟨S100000, .f32⟩ : BufTy).Contents (Elt F) → (⟨S100000, .f32⟩ : BufTy).Contents (Elt F)),
    nullary main_cst_2 (constant S_ .f32 0x3F800000#32),
    unary main_cst_2 main_v11 (broadcastInDim S100000 ![] bcast_S_S100000 : (⟨S_, .f32⟩ : BufTy).Contents (Elt F) → (⟨S100000, .f32⟩ : BufTy).Contents (Elt F)),
    binary main_v11 main_v9 main_v12 (Host.divf : (⟨S100000, .f32⟩ : BufTy).Contents (Elt F) → (⟨S100000, .f32⟩ : BufTy).Contents (Elt F) → (⟨S100000, .f32⟩ : BufTy).Contents (Elt F)),
    binary main_arg0 main_arg2 main_v13 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)) ]

/-- Operations 19–53 of @main: the first layer's coefficients, gathered rows and neighbour sum. -/
abbrev segB : List (HloOp τ sig (Elt F)) :=
  [ nullary main_c (constantI S_ 32 0#32),
    unary main_c main_v14 (broadcastInDim S3200000 ![] bcast_S_S3200000 : (⟨S_, .i32⟩ : BufTy).Contents (Elt F) → (⟨S3200000, .i32⟩ : BufTy).Contents (Elt F)),
    binary main_v1 main_v14 main_v15 (cmpi .slt : (⟨S3200000, .i32⟩ : BufTy).Contents (Elt F) → (⟨S3200000, .i32⟩ : BufTy).Contents (Elt F) → (⟨S3200000, .i1⟩ : BufTy).Contents (Elt F)),
    nullary main_c_3 (constantI S_ 32 100000#32),
    unary main_c_3 main_v16 (broadcastInDim S3200000 ![] bcast_S_S3200000 : (⟨S_, .i32⟩ : BufTy).Contents (Elt F) → (⟨S3200000, .i32⟩ : BufTy).Contents (Elt F)),
    binary main_v1 main_v16 main_v17 (addi : (⟨S3200000, .i32⟩ : BufTy).Contents (Elt F) → (⟨S3200000, .i32⟩ : BufTy).Contents (Elt F) → (⟨S3200000, .i32⟩ : BufTy).Contents (Elt F)),
    ternary main_v15 main_v17 main_v1 main_v18 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v18 main_v19 (broadcastInDim S3200000x1 ![0] bcast_S3200000_S3200000x1_0 : (⟨S3200000, .i32⟩ : BufTy).Contents (Elt F) → (⟨S3200000x1, .i32⟩ : BufTy).Contents (Elt F)),
    binary main_v10 main_v19 main_v20 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_4 (constantI S_ 32 0#32),
    unary main_c_4 main_v21 (broadcastInDim S3200000 ![] bcast_S_S3200000 : (⟨S_, .i32⟩ : BufTy).Contents (Elt F) → (⟨S3200000, .i32⟩ : BufTy).Contents (Elt F)),
    binary main_v3 main_v21 main_v22 (cmpi .slt : (⟨S3200000, .i32⟩ : BufTy).Contents (Elt F) → (⟨S3200000, .i32⟩ : BufTy).Contents (Elt F) → (⟨S3200000, .i1⟩ : BufTy).Contents (Elt F)),
    nullary main_c_5 (constantI S_ 32 100000#32),
    unary main_c_5 main_v23 (broadcastInDim S3200000 ![] bcast_S_S3200000 : (⟨S_, .i32⟩ : BufTy).Contents (Elt F) → (⟨S3200000, .i32⟩ : BufTy).Contents (Elt F)),
    binary main_v3 main_v23 main_v24 (addi : (⟨S3200000, .i32⟩ : BufTy).Contents (Elt F) → (⟨S3200000, .i32⟩ : BufTy).Contents (Elt F) → (⟨S3200000, .i32⟩ : BufTy).Contents (Elt F)),
    ternary main_v22 main_v24 main_v3 main_v25 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v25 main_v26 (broadcastInDim S3200000x1 ![0] bcast_S3200000_S3200000x1_0 : (⟨S3200000, .i32⟩ : BufTy).Contents (Elt F) → (⟨S3200000x1, .i32⟩ : BufTy).Contents (Elt F)),
    binary main_v10 main_v26 main_v27 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v20 main_v27 main_v28 (mulf : (⟨S3200000, .f32⟩ : BufTy).Contents (Elt F) → (⟨S3200000, .f32⟩ : BufTy).Contents (Elt F) → (⟨S3200000, .f32⟩ : BufTy).Contents (Elt F)),
    unary main_v28 main_v29 (broadcastInDim S3200000x1 ![0] bcast_S3200000_S3200000x1_0 : (⟨S3200000, .f32⟩ : BufTy).Contents (Elt F) → (⟨S3200000x1, .f32⟩ : BufTy).Contents (Elt F)),
    nullary main_c_6 (constantI S_ 32 0#32),
    unary main_c_6 main_v30 (broadcastInDim S3200000 ![] bcast_S_S3200000 : (⟨S_, .i32⟩ : BufTy).Contents (Elt F) → (⟨S3200000, .i32⟩ : BufTy).Contents (Elt F)),
    binary main_v1 main_v30 main_v31 (cmpi .slt : (⟨S3200000, .i32⟩ : BufTy).Contents (Elt F) → (⟨S3200000, .i32⟩ : BufTy).Contents (Elt F) → (⟨S3200000, .i1⟩ : BufTy).Contents (Elt F)),
    nullary main_c_7 (constantI S_ 32 100000#32),
    unary main_c_7 main_v32 (broadcastInDim S3200000 ![] bcast_S_S3200000 : (⟨S_, .i32⟩ : BufTy).Contents (Elt F) → (⟨S3200000, .i32⟩ : BufTy).Contents (Elt F)),
    binary main_v1 main_v32 main_v33 (addi : (⟨S3200000, .i32⟩ : BufTy).Contents (Elt F) → (⟨S3200000, .i32⟩ : BufTy).Contents (Elt F) → (⟨S3200000, .i32⟩ : BufTy).Contents (Elt F)),
    ternary main_v31 main_v33 main_v1 main_v34 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v34 main_v35 (broadcastInDim S3200000x1 ![0] bcast_S3200000_S3200000x1_0 : (⟨S3200000, .i32⟩ : BufTy).Contents (Elt F) → (⟨S3200000x1, .i32⟩ : BufTy).Contents (Elt F)),
    binary main_v13 main_v35 main_v36 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    unary main_v29 main_v37 (broadcastInDim S3200000x32 ![0, 1] bcast_S3200000x1_S3200000x32_0_1 : (⟨S3200000x1, .f32⟩ : BufTy).Contents (Elt F) → (⟨S3200000x32, .f32⟩ : BufTy).Contents (Elt F)),
    binary main_v36 main_v37 main_v38 (mulf : (⟨S3200000x32, .f32⟩ : BufTy).Contents (Elt F) → (⟨S3200000x32, .f32⟩ : BufTy).Contents (Elt F) → (⟨S3200000x32, .f32⟩ : BufTy).Contents (Elt F)),
    nullary main_cst_8 (constant S_ .f32 0x00000000#32),
    unary main_cst_8 main_v39 (broadcastInDim S100000x32 ![] bcast_S_S100000x32 : (⟨S_, .f32⟩ : BufTy).Contents (Elt F) → (⟨S100000x32, .f32⟩ : BufTy).Contents (Elt F)),
    unary main_v3 main_v40 (broadcastInDim S3200000x1 ![0] bcast_S3200000_S3200000x1_0 : (⟨S3200000, .i32⟩ : BufTy).Contents (Elt F) → (⟨S3200000x1, .i32⟩ : BufTy).Contents (Elt F)),
    ternary main_v39 main_v40 main_v38 main_v41 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)) ]

/-- Operations 54–92 of @main: the first layer's self-loop, bias, normalisation and positive part. -/
abbrev segC : List (HloOp τ sig (Elt F)) :=
  [ unary main_v12 main_v42 (broadcastInDim S100000x1 ![0] bcast_S100000_S100000x1_0 : (⟨S100000, .f32⟩ : BufTy).Contents (Elt F) → (⟨S100000x1, .f32⟩ : BufTy).Contents (Elt F)),
    unary main_v42 main_v43 (broadcastInDim S100000x32 ![0, 1] bcast_S100000x1_S100000x32_0_1 : (⟨S100000x1, .f32⟩ : BufTy).Contents (Elt F) → (⟨S100000x32, .f32⟩ : BufTy).Contents (Elt F)),
    binary main_v13 main_v43 main_v44 (mulf : (⟨S100000x32, .f32⟩ : BufTy).Contents (Elt F) → (⟨S100000x32, .f32⟩ : BufTy).Contents (Elt F) → (⟨S100000x32, .f32⟩ : BufTy).Contents (Elt F)),
    binary main_v41 main_v44 main_v45 (addf : (⟨S100000x32, .f32⟩ : BufTy).Contents (Elt F) → (⟨S100000x32, .f32⟩ : BufTy).Contents (Elt F) → (⟨S100000x32, .f32⟩ : BufTy).Contents (Elt F)),
    unary main_arg3 main_v46 (broadcastInDim S1x32 ![1] bcast_S32_S1x32_1 : (⟨S32, .f32⟩ : BufTy).Contents (Elt F) → (⟨S1x32, .f32⟩ : BufTy).Contents (Elt F)),
    unary main_v46 main_v47 (broadcastInDim S100000x32 ![0, 1] bcast_S1x32_S100000x32_0_1 : (⟨S1x32, .f32⟩ : BufTy).Contents (Elt F) → (⟨S100000x32, .f32⟩ : BufTy).Contents (Elt F)),
    binary main_v45 main_v47 main_v48 (addf : (⟨S100000x32, .f32⟩ : BufTy).Contents (Elt F) → (⟨S100000x32, .f32⟩ : BufTy).Contents (Elt F) → (⟨S100000x32, .f32⟩ : BufTy).Contents (Elt F)),
    nullary main_cst_9 (constant S_ .f32 0x00000000#32),
    binary main_v48 main_cst_9 main_v49 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v49 main_v50 (broadcastInDim S100000x1 ![0] bcast_S100000_S100000x1_0 : (⟨S100000, .f32⟩ : BufTy).Contents (Elt F) → (⟨S100000x1, .f32⟩ : BufTy).Contents (Elt F)),
    nullary main_cst_10 (constant S_ .f32 0x42000000#32),
    unary main_cst_10 main_v51 (broadcastInDim S100000x1 ![] bcast_S_S100000x1 : (⟨S_, .f32⟩ : BufTy).Contents (Elt F) → (⟨S100000x1, .f32⟩ : BufTy).Contents (Elt F)),
    binary main_v50 main_v51 main_v52 (Host.divf : (⟨S100000x1, .f32⟩ : BufTy).Contents (Elt F) → (⟨S100000x1, .f32⟩ : BufTy).Contents (Elt F) → (⟨S100000x1, .f32⟩ : BufTy).Contents (Elt F)),
    unary main_v52 main_v53 (broadcastInDim S100000x32 ![0, 1] bcast_S100000x1_S100000x32_0_1 : (⟨S100000x1, .f32⟩ : BufTy).Contents (Elt F) → (⟨S100000x32, .f32⟩ : BufTy).Contents (Elt F)),
    binary main_v48 main_v53 main_v54 (subf : (⟨S100000x32, .f32⟩ : BufTy).Contents (Elt F) → (⟨S100000x32, .f32⟩ : BufTy).Contents (Elt F) → (⟨S100000x32, .f32⟩ : BufTy).Contents (Elt F)),
    binary main_v54 main_v54 main_v55 (mulf : (⟨S100000x32, .f32⟩ : BufTy).Contents (Elt F) → (⟨S100000x32, .f32⟩ : BufTy).Contents (Elt F) → (⟨S100000x32, .f32⟩ : BufTy).Contents (Elt F)),
    nullary main_cst_11 (constant S_ .f32 0x00000000#32),
    binary main_v55 main_cst_11 main_v56 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v56 main_v57 (broadcastInDim S100000x1 ![0] bcast_S100000_S100000x1_0 : (⟨S100000, .f32⟩ : BufTy).Contents (Elt F) → (⟨S100000x1, .f32⟩ : BufTy).Contents (Elt F)),
    nullary main_cst_12 (constant S_ .f32 0x42000000#32),
    unary main_cst_12 main_v58 (broadcastInDim S100000x1 ![] bcast_S_S100000x1 : (⟨S_, .f32⟩ : BufTy).Contents (Elt F) → (⟨S100000x1, .f32⟩ : BufTy).Contents (Elt F)),
    binary main_v57 main_v58 main_v59 (Host.divf : (⟨S100000x1, .f32⟩ : BufTy).Contents (Elt F) → (⟨S100000x1, .f32⟩ : BufTy).Contents (Elt F) → (⟨S100000x1, .f32⟩ : BufTy).Contents (Elt F)),
    unary main_v52 main_v60 (broadcastInDim S100000x32 ![0, 1] bcast_S100000x1_S100000x32_0_1 : (⟨S100000x1, .f32⟩ : BufTy).Contents (Elt F) → (⟨S100000x32, .f32⟩ : BufTy).Contents (Elt F)),
    binary main_v48 main_v60 main_v61 (subf : (⟨S100000x32, .f32⟩ : BufTy).Contents (Elt F) → (⟨S100000x32, .f32⟩ : BufTy).Contents (Elt F) → (⟨S100000x32, .f32⟩ : BufTy).Contents (Elt F)),
    nullary main_cst_13 (constant S_ .f32 0x3727C5AC#32),
    unary main_cst_13 main_v62 (broadcastInDim S100000x1 ![] bcast_S_S100000x1 : (⟨S_, .f32⟩ : BufTy).Contents (Elt F) → (⟨S100000x1, .f32⟩ : BufTy).Contents (Elt F)),
    binary main_v59 main_v62 main_v63 (addf : (⟨S100000x1, .f32⟩ : BufTy).Contents (Elt F) → (⟨S100000x1, .f32⟩ : BufTy).Contents (Elt F) → (⟨S100000x1, .f32⟩ : BufTy).Contents (Elt F)),
    unary main_v63 main_v64 (Host.rsqrt : (⟨S100000x1, .f32⟩ : BufTy).Contents (Elt F) → (⟨S100000x1, .f32⟩ : BufTy).Contents (Elt F)),
    unary main_v64 main_v65 (broadcastInDim S100000x32 ![0, 1] bcast_S100000x1_S100000x32_0_1 : (⟨S100000x1, .f32⟩ : BufTy).Contents (Elt F) → (⟨S100000x32, .f32⟩ : BufTy).Contents (Elt F)),
    binary main_v61 main_v65 main_v66 (mulf : (⟨S100000x32, .f32⟩ : BufTy).Contents (Elt F) → (⟨S100000x32, .f32⟩ : BufTy).Contents (Elt F) → (⟨S100000x32, .f32⟩ : BufTy).Contents (Elt F)),
    unary main_arg4 main_v67 (broadcastInDim S1x32 ![1] bcast_S32_S1x32_1 : (⟨S32, .f32⟩ : BufTy).Contents (Elt F) → (⟨S1x32, .f32⟩ : BufTy).Contents (Elt F)),
    unary main_v67 main_v68 (broadcastInDim S100000x32 ![0, 1] bcast_S1x32_S100000x32_0_1 : (⟨S1x32, .f32⟩ : BufTy).Contents (Elt F) → (⟨S100000x32, .f32⟩ : BufTy).Contents (Elt F)),
    binary main_v66 main_v68 main_v69 (mulf : (⟨S100000x32, .f32⟩ : BufTy).Contents (Elt F) → (⟨S100000x32, .f32⟩ : BufTy).Contents (Elt F) → (⟨S100000x32, .f32⟩ : BufTy).Contents (Elt F)),
    unary main_arg5 main_v70 (broadcastInDim S1x32 ![1] bcast_S32_S1x32_1 : (⟨S32, .f32⟩ : BufTy).Contents (Elt F) → (⟨S1x32, .f32⟩ : BufTy).Contents (Elt F)),
    unary main_v70 main_v71 (broadcastInDim S100000x32 ![0, 1] bcast_S1x32_S100000x32_0_1 : (⟨S1x32, .f32⟩ : BufTy).Contents (Elt F) → (⟨S100000x32, .f32⟩ : BufTy).Contents (Elt F)),
    binary main_v69 main_v71 main_v72 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x32, .f32⟩) main_call0_v0) (broadcastInDim S100000x32 ![] bcast_S_S100000x32),
    TRef.binary (TRef.of (T := ⟨S100000x32, .f32⟩) main_v72) (TRef.of (T := ⟨S100000x32, .f32⟩) main_call0_v0) (TRef.of (T := ⟨S100000x32, .f32⟩) main_v73) maximumf ]

/-- Operations 93–128 of @main: the second projection, coefficients and neighbour sum. -/
abbrev segD : List (HloOp τ sig (Elt F)) :=
  [ binary main_v73 main_arg6 main_v74 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    nullary main_c_14 (constantI S_ 32 0#32),
    unary main_c_14 main_v75 (broadcastInDim S3200000 ![] bcast_S_S3200000 : (⟨S_, .i32⟩ : BufTy).Contents (Elt F) → (⟨S3200000, .i32⟩ : BufTy).Contents (Elt F)),
    binary main_v1 main_v75 main_v76 (cmpi .slt : (⟨S3200000, .i32⟩ : BufTy).Contents (Elt F) → (⟨S3200000, .i32⟩ : BufTy).Contents (Elt F) → (⟨S3200000, .i1⟩ : BufTy).Contents (Elt F)),
    nullary main_c_15 (constantI S_ 32 100000#32),
    unary main_c_15 main_v77 (broadcastInDim S3200000 ![] bcast_S_S3200000 : (⟨S_, .i32⟩ : BufTy).Contents (Elt F) → (⟨S3200000, .i32⟩ : BufTy).Contents (Elt F)),
    binary main_v1 main_v77 main_v78 (addi : (⟨S3200000, .i32⟩ : BufTy).Contents (Elt F) → (⟨S3200000, .i32⟩ : BufTy).Contents (Elt F) → (⟨S3200000, .i32⟩ : BufTy).Contents (Elt F)),
    ternary main_v76 main_v78 main_v1 main_v79 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v79 main_v80 (broadcastInDim S3200000x1 ![0] bcast_S3200000_S3200000x1_0 : (⟨S3200000, .i32⟩ : BufTy).Contents (Elt F) → (⟨S3200000x1, .i32⟩ : BufTy).Contents (Elt F)),
    binary main_v10 main_v80 main_v81 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_16 (constantI S_ 32 0#32),
    unary main_c_16 main_v82 (broadcastInDim S3200000 ![] bcast_S_S3200000 : (⟨S_, .i32⟩ : BufTy).Contents (Elt F) → (⟨S3200000, .i32⟩ : BufTy).Contents (Elt F)),
    binary main_v3 main_v82 main_v83 (cmpi .slt : (⟨S3200000, .i32⟩ : BufTy).Contents (Elt F) → (⟨S3200000, .i32⟩ : BufTy).Contents (Elt F) → (⟨S3200000, .i1⟩ : BufTy).Contents (Elt F)),
    nullary main_c_17 (constantI S_ 32 100000#32),
    unary main_c_17 main_v84 (broadcastInDim S3200000 ![] bcast_S_S3200000 : (⟨S_, .i32⟩ : BufTy).Contents (Elt F) → (⟨S3200000, .i32⟩ : BufTy).Contents (Elt F)),
    binary main_v3 main_v84 main_v85 (addi : (⟨S3200000, .i32⟩ : BufTy).Contents (Elt F) → (⟨S3200000, .i32⟩ : BufTy).Contents (Elt F) → (⟨S3200000, .i32⟩ : BufTy).Contents (Elt F)),
    ternary main_v83 main_v85 main_v3 main_v86 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v86 main_v87 (broadcastInDim S3200000x1 ![0] bcast_S3200000_S3200000x1_0 : (⟨S3200000, .i32⟩ : BufTy).Contents (Elt F) → (⟨S3200000x1, .i32⟩ : BufTy).Contents (Elt F)),
    binary main_v10 main_v87 main_v88 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v81 main_v88 main_v89 (mulf : (⟨S3200000, .f32⟩ : BufTy).Contents (Elt F) → (⟨S3200000, .f32⟩ : BufTy).Contents (Elt F) → (⟨S3200000, .f32⟩ : BufTy).Contents (Elt F)),
    unary main_v89 main_v90 (broadcastInDim S3200000x1 ![0] bcast_S3200000_S3200000x1_0 : (⟨S3200000, .f32⟩ : BufTy).Contents (Elt F) → (⟨S3200000x1, .f32⟩ : BufTy).Contents (Elt F)),
    nullary main_c_18 (constantI S_ 32 0#32),
    unary main_c_18 main_v91 (broadcastInDim S3200000 ![] bcast_S_S3200000 : (⟨S_, .i32⟩ : BufTy).Contents (Elt F) → (⟨S3200000, .i32⟩ : BufTy).Contents (Elt F)),
    binary main_v1 main_v91 main_v92 (cmpi .slt : (⟨S3200000, .i32⟩ : BufTy).Contents (Elt F) → (⟨S3200000, .i32⟩ : BufTy).Contents (Elt F) → (⟨S3200000, .i1⟩ : BufTy).Contents (Elt F)),
    nullary main_c_19 (constantI S_ 32 100000#32),
    unary main_c_19 main_v93 (broadcastInDim S3200000 ![] bcast_S_S3200000 : (⟨S_, .i32⟩ : BufTy).Contents (Elt F) → (⟨S3200000, .i32⟩ : BufTy).Contents (Elt F)),
    binary main_v1 main_v93 main_v94 (addi : (⟨S3200000, .i32⟩ : BufTy).Contents (Elt F) → (⟨S3200000, .i32⟩ : BufTy).Contents (Elt F) → (⟨S3200000, .i32⟩ : BufTy).Contents (Elt F)),
    ternary main_v92 main_v94 main_v1 main_v95 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v95 main_v96 (broadcastInDim S3200000x1 ![0] bcast_S3200000_S3200000x1_0 : (⟨S3200000, .i32⟩ : BufTy).Contents (Elt F) → (⟨S3200000x1, .i32⟩ : BufTy).Contents (Elt F)),
    binary main_v74 main_v96 main_v97 ((fun x i => Host.gather gather_S100000x32_S3200000x1_S3200000x32_1_0_n_n_0_1_132 x i) : (⟨S100000x32, .f32⟩ : BufTy).Contents (Elt F) → (⟨S3200000x1, .i32⟩ : BufTy).Contents (Elt F) → (⟨S3200000x32, .f32⟩ : BufTy).Contents (Elt F)),
    unary main_v90 main_v98 (broadcastInDim S3200000x32 ![0, 1] bcast_S3200000x1_S3200000x32_0_1 : (⟨S3200000x1, .f32⟩ : BufTy).Contents (Elt F) → (⟨S3200000x32, .f32⟩ : BufTy).Contents (Elt F)),
    binary main_v97 main_v98 main_v99 (mulf : (⟨S3200000x32, .f32⟩ : BufTy).Contents (Elt F) → (⟨S3200000x32, .f32⟩ : BufTy).Contents (Elt F) → (⟨S3200000x32, .f32⟩ : BufTy).Contents (Elt F)),
    nullary main_cst_20 (constant S_ .f32 0x00000000#32),
    unary main_cst_20 main_v100 (broadcastInDim S100000x32 ![] bcast_S_S100000x32 : (⟨S_, .f32⟩ : BufTy).Contents (Elt F) → (⟨S100000x32, .f32⟩ : BufTy).Contents (Elt F)),
    unary main_v3 main_v101 (broadcastInDim S3200000x1 ![0] bcast_S3200000_S3200000x1_0 : (⟨S3200000, .i32⟩ : BufTy).Contents (Elt F) → (⟨S3200000x1, .i32⟩ : BufTy).Contents (Elt F)),
    ternary main_v100 main_v101 main_v99 main_v102 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)) ]

/-- Operations 129–167 of @main: the second layer's self-loop, bias, normalisation and positive part. -/
abbrev segE : List (HloOp τ sig (Elt F)) :=
  [ unary main_v12 main_v103 (broadcastInDim S100000x1 ![0] bcast_S100000_S100000x1_0 : (⟨S100000, .f32⟩ : BufTy).Contents (Elt F) → (⟨S100000x1, .f32⟩ : BufTy).Contents (Elt F)),
    unary main_v103 main_v104 (broadcastInDim S100000x32 ![0, 1] bcast_S100000x1_S100000x32_0_1 : (⟨S100000x1, .f32⟩ : BufTy).Contents (Elt F) → (⟨S100000x32, .f32⟩ : BufTy).Contents (Elt F)),
    binary main_v74 main_v104 main_v105 (mulf : (⟨S100000x32, .f32⟩ : BufTy).Contents (Elt F) → (⟨S100000x32, .f32⟩ : BufTy).Contents (Elt F) → (⟨S100000x32, .f32⟩ : BufTy).Contents (Elt F)),
    binary main_v102 main_v105 main_v106 (addf : (⟨S100000x32, .f32⟩ : BufTy).Contents (Elt F) → (⟨S100000x32, .f32⟩ : BufTy).Contents (Elt F) → (⟨S100000x32, .f32⟩ : BufTy).Contents (Elt F)),
    unary main_arg7 main_v107 (broadcastInDim S1x32 ![1] bcast_S32_S1x32_1 : (⟨S32, .f32⟩ : BufTy).Contents (Elt F) → (⟨S1x32, .f32⟩ : BufTy).Contents (Elt F)),
    unary main_v107 main_v108 (broadcastInDim S100000x32 ![0, 1] bcast_S1x32_S100000x32_0_1 : (⟨S1x32, .f32⟩ : BufTy).Contents (Elt F) → (⟨S100000x32, .f32⟩ : BufTy).Contents (Elt F)),
    binary main_v106 main_v108 main_v109 (addf : (⟨S100000x32, .f32⟩ : BufTy).Contents (Elt F) → (⟨S100000x32, .f32⟩ : BufTy).Contents (Elt F) → (⟨S100000x32, .f32⟩ : BufTy).Contents (Elt F)),
    nullary main_cst_21 (constant S_ .f32 0x00000000#32),
    binary main_v109 main_cst_21 main_v110 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v110 main_v111 (broadcastInDim S100000x1 ![0] bcast_S100000_S100000x1_0 : (⟨S100000, .f32⟩ : BufTy).Contents (Elt F) → (⟨S100000x1, .f32⟩ : BufTy).Contents (Elt F)),
    nullary main_cst_22 (constant S_ .f32 0x42000000#32),
    unary main_cst_22 main_v112 (broadcastInDim S100000x1 ![] bcast_S_S100000x1 : (⟨S_, .f32⟩ : BufTy).Contents (Elt F) → (⟨S100000x1, .f32⟩ : BufTy).Contents (Elt F)),
    binary main_v111 main_v112 main_v113 (Host.divf : (⟨S100000x1, .f32⟩ : BufTy).Contents (Elt F) → (⟨S100000x1, .f32⟩ : BufTy).Contents (Elt F) → (⟨S100000x1, .f32⟩ : BufTy).Contents (Elt F)),
    unary main_v113 main_v114 (broadcastInDim S100000x32 ![0, 1] bcast_S100000x1_S100000x32_0_1 : (⟨S100000x1, .f32⟩ : BufTy).Contents (Elt F) → (⟨S100000x32, .f32⟩ : BufTy).Contents (Elt F)),
    binary main_v109 main_v114 main_v115 (subf : (⟨S100000x32, .f32⟩ : BufTy).Contents (Elt F) → (⟨S100000x32, .f32⟩ : BufTy).Contents (Elt F) → (⟨S100000x32, .f32⟩ : BufTy).Contents (Elt F)),
    binary main_v115 main_v115 main_v116 (mulf : (⟨S100000x32, .f32⟩ : BufTy).Contents (Elt F) → (⟨S100000x32, .f32⟩ : BufTy).Contents (Elt F) → (⟨S100000x32, .f32⟩ : BufTy).Contents (Elt F)),
    nullary main_cst_23 (constant S_ .f32 0x00000000#32),
    binary main_v116 main_cst_23 main_v117 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v117 main_v118 (broadcastInDim S100000x1 ![0] bcast_S100000_S100000x1_0 : (⟨S100000, .f32⟩ : BufTy).Contents (Elt F) → (⟨S100000x1, .f32⟩ : BufTy).Contents (Elt F)),
    nullary main_cst_24 (constant S_ .f32 0x42000000#32),
    unary main_cst_24 main_v119 (broadcastInDim S100000x1 ![] bcast_S_S100000x1 : (⟨S_, .f32⟩ : BufTy).Contents (Elt F) → (⟨S100000x1, .f32⟩ : BufTy).Contents (Elt F)),
    binary main_v118 main_v119 main_v120 (Host.divf : (⟨S100000x1, .f32⟩ : BufTy).Contents (Elt F) → (⟨S100000x1, .f32⟩ : BufTy).Contents (Elt F) → (⟨S100000x1, .f32⟩ : BufTy).Contents (Elt F)),
    unary main_v113 main_v121 (broadcastInDim S100000x32 ![0, 1] bcast_S100000x1_S100000x32_0_1 : (⟨S100000x1, .f32⟩ : BufTy).Contents (Elt F) → (⟨S100000x32, .f32⟩ : BufTy).Contents (Elt F)),
    binary main_v109 main_v121 main_v122 (subf : (⟨S100000x32, .f32⟩ : BufTy).Contents (Elt F) → (⟨S100000x32, .f32⟩ : BufTy).Contents (Elt F) → (⟨S100000x32, .f32⟩ : BufTy).Contents (Elt F)),
    nullary main_cst_25 (constant S_ .f32 0x3727C5AC#32),
    unary main_cst_25 main_v123 (broadcastInDim S100000x1 ![] bcast_S_S100000x1 : (⟨S_, .f32⟩ : BufTy).Contents (Elt F) → (⟨S100000x1, .f32⟩ : BufTy).Contents (Elt F)),
    binary main_v120 main_v123 main_v124 (addf : (⟨S100000x1, .f32⟩ : BufTy).Contents (Elt F) → (⟨S100000x1, .f32⟩ : BufTy).Contents (Elt F) → (⟨S100000x1, .f32⟩ : BufTy).Contents (Elt F)),
    unary main_v124 main_v125 (Host.rsqrt : (⟨S100000x1, .f32⟩ : BufTy).Contents (Elt F) → (⟨S100000x1, .f32⟩ : BufTy).Contents (Elt F)),
    unary main_v125 main_v126 (broadcastInDim S100000x32 ![0, 1] bcast_S100000x1_S100000x32_0_1 : (⟨S100000x1, .f32⟩ : BufTy).Contents (Elt F) → (⟨S100000x32, .f32⟩ : BufTy).Contents (Elt F)),
    binary main_v122 main_v126 main_v127 (mulf : (⟨S100000x32, .f32⟩ : BufTy).Contents (Elt F) → (⟨S100000x32, .f32⟩ : BufTy).Contents (Elt F) → (⟨S100000x32, .f32⟩ : BufTy).Contents (Elt F)),
    unary main_arg8 main_v128 (broadcastInDim S1x32 ![1] bcast_S32_S1x32_1 : (⟨S32, .f32⟩ : BufTy).Contents (Elt F) → (⟨S1x32, .f32⟩ : BufTy).Contents (Elt F)),
    unary main_v128 main_v129 (broadcastInDim S100000x32 ![0, 1] bcast_S1x32_S100000x32_0_1 : (⟨S1x32, .f32⟩ : BufTy).Contents (Elt F) → (⟨S100000x32, .f32⟩ : BufTy).Contents (Elt F)),
    binary main_v127 main_v129 main_v130 (mulf : (⟨S100000x32, .f32⟩ : BufTy).Contents (Elt F) → (⟨S100000x32, .f32⟩ : BufTy).Contents (Elt F) → (⟨S100000x32, .f32⟩ : BufTy).Contents (Elt F)),
    unary main_arg9 main_v131 (broadcastInDim S1x32 ![1] bcast_S32_S1x32_1 : (⟨S32, .f32⟩ : BufTy).Contents (Elt F) → (⟨S1x32, .f32⟩ : BufTy).Contents (Elt F)),
    unary main_v131 main_v132 (broadcastInDim S100000x32 ![0, 1] bcast_S1x32_S100000x32_0_1 : (⟨S1x32, .f32⟩ : BufTy).Contents (Elt F) → (⟨S100000x32, .f32⟩ : BufTy).Contents (Elt F)),
    binary main_v130 main_v132 main_v133 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v133) (TRef.of (T := ⟨S100000x32, .f32⟩) main_call1_v0) (TRef.of (T := ⟨S100000x32, .f32⟩) main_v134) maximumf ]

/-- Operations 168–203 of @main: the third projection, coefficients and neighbour sum. -/
abbrev segF : List (HloOp τ sig (Elt F)) :=
  [ binary main_v134 main_arg10 main_v135 ((fun l r => Host.dotGeneral dot_S100000x32_S32x2_S100000x2_1_0_0_1_n_n none l r) : (⟨S100000x32, .f32⟩ : BufTy).Contents (Elt F) → (⟨S32x2, .f32⟩ : BufTy).Contents (Elt F) → (⟨S100000x2, .f32⟩ : BufTy).Contents (Elt F)),
    nullary main_c_26 (constantI S_ 32 0#32),
    unary main_c_26 main_v136 (broadcastInDim S3200000 ![] bcast_S_S3200000 : (⟨S_, .i32⟩ : BufTy).Contents (Elt F) → (⟨S3200000, .i32⟩ : BufTy).Contents (Elt F)),
    binary main_v1 main_v136 main_v137 (cmpi .slt : (⟨S3200000, .i32⟩ : BufTy).Contents (Elt F) → (⟨S3200000, .i32⟩ : BufTy).Contents (Elt F) → (⟨S3200000, .i1⟩ : BufTy).Contents (Elt F)),
    nullary main_c_27 (constantI S_ 32 100000#32),
    unary main_c_27 main_v138 (broadcastInDim S3200000 ![] bcast_S_S3200000 : (⟨S_, .i32⟩ : BufTy).Contents (Elt F) → (⟨S3200000, .i32⟩ : BufTy).Contents (Elt F)),
    binary main_v1 main_v138 main_v139 (addi : (⟨S3200000, .i32⟩ : BufTy).Contents (Elt F) → (⟨S3200000, .i32⟩ : BufTy).Contents (Elt F) → (⟨S3200000, .i32⟩ : BufTy).Contents (Elt F)),
    ternary main_v137 main_v139 main_v1 main_v140 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v140 main_v141 (broadcastInDim S3200000x1 ![0] bcast_S3200000_S3200000x1_0 : (⟨S3200000, .i32⟩ : BufTy).Contents (Elt F) → (⟨S3200000x1, .i32⟩ : BufTy).Contents (Elt F)),
    binary main_v10 main_v141 main_v142 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    nullary main_c_28 (constantI S_ 32 0#32),
    unary main_c_28 main_v143 (broadcastInDim S3200000 ![] bcast_S_S3200000 : (⟨S_, .i32⟩ : BufTy).Contents (Elt F) → (⟨S3200000, .i32⟩ : BufTy).Contents (Elt F)),
    binary main_v3 main_v143 main_v144 (cmpi .slt : (⟨S3200000, .i32⟩ : BufTy).Contents (Elt F) → (⟨S3200000, .i32⟩ : BufTy).Contents (Elt F) → (⟨S3200000, .i1⟩ : BufTy).Contents (Elt F)),
    nullary main_c_29 (constantI S_ 32 100000#32),
    unary main_c_29 main_v145 (broadcastInDim S3200000 ![] bcast_S_S3200000 : (⟨S_, .i32⟩ : BufTy).Contents (Elt F) → (⟨S3200000, .i32⟩ : BufTy).Contents (Elt F)),
    binary main_v3 main_v145 main_v146 (addi : (⟨S3200000, .i32⟩ : BufTy).Contents (Elt F) → (⟨S3200000, .i32⟩ : BufTy).Contents (Elt F) → (⟨S3200000, .i32⟩ : BufTy).Contents (Elt F)),
    ternary main_v144 main_v146 main_v3 main_v147 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v147 main_v148 (broadcastInDim S3200000x1 ![0] bcast_S3200000_S3200000x1_0 : (⟨S3200000, .i32⟩ : BufTy).Contents (Elt F) → (⟨S3200000x1, .i32⟩ : BufTy).Contents (Elt F)),
    binary main_v10 main_v148 main_v149 ((fun x i => Host.gather gather_S100000_S3200000x1_S3200000_n_0_n_n_0_1_1 x i) : (⟨S100000, .f32⟩ : BufTy).Contents (Elt F) → (⟨S3200000x1, .i32⟩ : BufTy).Contents (Elt F) → (⟨S3200000, .f32⟩ : BufTy).Contents (Elt F)),
    binary main_v142 main_v149 main_v150 (mulf : (⟨S3200000, .f32⟩ : BufTy).Contents (Elt F) → (⟨S3200000, .f32⟩ : BufTy).Contents (Elt F) → (⟨S3200000, .f32⟩ : BufTy).Contents (Elt F)),
    unary main_v150 main_v151 (broadcastInDim S3200000x1 ![0] bcast_S3200000_S3200000x1_0 : (⟨S3200000, .f32⟩ : BufTy).Contents (Elt F) → (⟨S3200000x1, .f32⟩ : BufTy).Contents (Elt F)),
    nullary main_c_30 (constantI S_ 32 0#32),
    unary main_c_30 main_v152 (broadcastInDim S3200000 ![] bcast_S_S3200000 : (⟨S_, .i32⟩ : BufTy).Contents (Elt F) → (⟨S3200000, .i32⟩ : BufTy).Contents (Elt F)),
    binary main_v1 main_v152 main_v153 (cmpi .slt : (⟨S3200000, .i32⟩ : BufTy).Contents (Elt F) → (⟨S3200000, .i32⟩ : BufTy).Contents (Elt F) → (⟨S3200000, .i1⟩ : BufTy).Contents (Elt F)),
    nullary main_c_31 (constantI S_ 32 100000#32),
    unary main_c_31 main_v154 (broadcastInDim S3200000 ![] bcast_S_S3200000 : (⟨S_, .i32⟩ : BufTy).Contents (Elt F) → (⟨S3200000, .i32⟩ : BufTy).Contents (Elt F)),
    binary main_v1 main_v154 main_v155 (addi : (⟨S3200000, .i32⟩ : BufTy).Contents (Elt F) → (⟨S3200000, .i32⟩ : BufTy).Contents (Elt F) → (⟨S3200000, .i32⟩ : BufTy).Contents (Elt F)),
    ternary main_v153 main_v155 main_v1 main_v156 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v156 main_v157 (broadcastInDim S3200000x1 ![0] bcast_S3200000_S3200000x1_0 : (⟨S3200000, .i32⟩ : BufTy).Contents (Elt F) → (⟨S3200000x1, .i32⟩ : BufTy).Contents (Elt F)),
    binary main_v135 main_v157 main_v158 ((fun x i => Host.gather gather_S100000x2_S3200000x1_S3200000x2_1_0_n_n_0_1_12 x i) : (⟨S100000x2, .f32⟩ : BufTy).Contents (Elt F) → (⟨S3200000x1, .i32⟩ : BufTy).Contents (Elt F) → (⟨S3200000x2, .f32⟩ : BufTy).Contents (Elt F)),
    unary main_v151 main_v159 (broadcastInDim S3200000x2 ![0, 1] bcast_S3200000x1_S3200000x2_0_1 : (⟨S3200000x1, .f32⟩ : BufTy).Contents (Elt F) → (⟨S3200000x2, .f32⟩ : BufTy).Contents (Elt F)),
    binary main_v158 main_v159 main_v160 (mulf : (⟨S3200000x2, .f32⟩ : BufTy).Contents (Elt F) → (⟨S3200000x2, .f32⟩ : BufTy).Contents (Elt F) → (⟨S3200000x2, .f32⟩ : BufTy).Contents (Elt F)),
    nullary main_cst_32 (constant S_ .f32 0x00000000#32),
    unary main_cst_32 main_v161 (broadcastInDim S100000x2 ![] bcast_S_S100000x2 : (⟨S_, .f32⟩ : BufTy).Contents (Elt F) → (⟨S100000x2, .f32⟩ : BufTy).Contents (Elt F)),
    unary main_v3 main_v162 (broadcastInDim S3200000x1 ![0] bcast_S3200000_S3200000x1_0 : (⟨S3200000, .i32⟩ : BufTy).Contents (Elt F) → (⟨S3200000x1, .i32⟩ : BufTy).Contents (Elt F)),
    ternary main_v161 main_v162 main_v160 main_v163 ((fun x i u => Host.scatterAdd scatter_S100000x2_S3200000x1_S3200000x2_1_0_0_1 x i u) : (⟨S100000x2, .f32⟩ : BufTy).Contents (Elt F) → (⟨S3200000x1, .i32⟩ : BufTy).Contents (Elt F) → (⟨S3200000x2, .f32⟩ : BufTy).Contents (Elt F) → (⟨S100000x2, .f32⟩ : BufTy).Contents (Elt F)) ]

/-- Operations 204–210 of @main: the last layer's self-loop and bias. -/
abbrev segG : List (HloOp τ sig (Elt F)) :=
  [ unary main_v12 main_v164 (broadcastInDim S100000x1 ![0] bcast_S100000_S100000x1_0 : (⟨S100000, .f32⟩ : BufTy).Contents (Elt F) → (⟨S100000x1, .f32⟩ : BufTy).Contents (Elt F)),
    unary main_v164 main_v165 (broadcastInDim S100000x2 ![0, 1] bcast_S100000x1_S100000x2_0_1 : (⟨S100000x1, .f32⟩ : BufTy).Contents (Elt F) → (⟨S100000x2, .f32⟩ : BufTy).Contents (Elt F)),
    binary main_v135 main_v165 main_v166 (mulf : (⟨S100000x2, .f32⟩ : BufTy).Contents (Elt F) → (⟨S100000x2, .f32⟩ : BufTy).Contents (Elt F) → (⟨S100000x2, .f32⟩ : BufTy).Contents (Elt F)),
    binary main_v163 main_v166 main_v167 (addf : (⟨S100000x2, .f32⟩ : BufTy).Contents (Elt F) → (⟨S100000x2, .f32⟩ : BufTy).Contents (Elt F) → (⟨S100000x2, .f32⟩ : BufTy).Contents (Elt F)),
    unary main_arg11 main_v168 (broadcastInDim S1x2 ![1] bcast_S2_S1x2_1 : (⟨S2, .f32⟩ : BufTy).Contents (Elt F) → (⟨S1x2, .f32⟩ : BufTy).Contents (Elt F)),
    unary main_v168 main_v169 (broadcastInDim S100000x2 ![0, 1] bcast_S1x2_S100000x2_0_1 : (⟨S1x2, .f32⟩ : BufTy).Contents (Elt F) → (⟨S100000x2, .f32⟩ : BufTy).Contents (Elt F)),
    binary main_v167 main_v169 main_v170 (addf : (⟨S100000x2, .f32⟩ : BufTy).Contents (Elt F) → (⟨S100000x2, .f32⟩ : BufTy).Contents (Elt F) → (⟨S100000x2, .f32⟩ : BufTy).Contents (Elt F)) ]

/-- The seven stretches, end to end, are @main's operation list. -/
theorem ops_eq : (ops : List (HloOp τ sig (Elt F))) = segA ++ (segB ++ (segC ++ (segD ++ (segE ++ (segF ++ segG))))) := rfl

/-- The fold of the whole list is the folds of the stretches, one after the other. -/
theorem after_ops (V : Valuation τ sig (Elt F)) :
    after ops V = after segG (after segF (after segE (after segD (after segC (after segB (after segA V)))))) := by
  rw [ops_eq, StableHlo.after_append, StableHlo.after_append, StableHlo.after_append, StableHlo.after_append,
    StableHlo.after_append, StableHlo.after_append]

/-- The references segA's operations write. -/
abbrev segA_W : List (Ref sig .tc) := [main_v0, main_v1, main_v2, main_v3, main_cst, main_v4, main_cst_0, main_v5, main_v6, main_v7, main_cst_1, main_v8, main_v9, main_v10, main_cst_2, main_v11, main_v12, main_v13]
theorem segA_writes : (segA : List (HloOp τ sig (Elt F))).Forall fun op => op.writes ⊆ (segA_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer segA does not write keeps its contents through it. -/
theorem segA_keep (V : Valuation τ sig (Elt F)) (r : Ref sig .tc) (h : r ∉ segA_W) :
    after segA V (Proc.devRef .tc r) = V (Proc.devRef .tc r) :=
  after_of_writes_sub segA V segA_writes h

/-- The references segB's operations write. -/
abbrev segB_W : List (Ref sig .tc) := [main_c, main_v14, main_v15, main_c_3, main_v16, main_v17, main_v18, main_v19, main_v20, main_c_4, main_v21, main_v22, main_c_5, main_v23, main_v24, main_v25, main_v26, main_v27, main_v28, main_v29, main_c_6, main_v30, main_v31, main_c_7, main_v32, main_v33, main_v34, main_v35, main_v36, main_v37, main_v38, main_cst_8, main_v39, main_v40, main_v41]
theorem segB_writes : (segB : List (HloOp τ sig (Elt F))).Forall fun op => op.writes ⊆ (segB_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer segB does not write keeps its contents through it. -/
theorem segB_keep (V : Valuation τ sig (Elt F)) (r : Ref sig .tc) (h : r ∉ segB_W) :
    after segB V (Proc.devRef .tc r) = V (Proc.devRef .tc r) :=
  after_of_writes_sub segB V segB_writes h

/-- The references segC's operations write. -/
abbrev segC_W : List (Ref sig .tc) := [main_v42, main_v43, main_v44, main_v45, main_v46, main_v47, main_v48, main_cst_9, main_v49, main_v50, main_cst_10, main_v51, main_v52, main_v53, main_v54, main_v55, main_cst_11, main_v56, main_v57, main_cst_12, main_v58, main_v59, main_v60, main_v61, main_cst_13, main_v62, main_v63, main_v64, main_v65, main_v66, main_v67, main_v68, main_v69, main_v70, main_v71, main_v72, main_call0_cst, main_call0_v0, main_v73]
theorem segC_writes : (segC : List (HloOp τ sig (Elt F))).Forall fun op => op.writes ⊆ (segC_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer segC does not write keeps its contents through it. -/
theorem segC_keep (V : Valuation τ sig (Elt F)) (r : Ref sig .tc) (h : r ∉ segC_W) :
    after segC V (Proc.devRef .tc r) = V (Proc.devRef .tc r) :=
  after_of_writes_sub segC V segC_writes h

/-- The references segD's operations write. -/
abbrev segD_W : List (Ref sig .tc) := [main_v74, main_c_14, main_v75, main_v76, main_c_15, main_v77, main_v78, main_v79, main_v80, main_v81, main_c_16, main_v82, main_v83, main_c_17, main_v84, main_v85, main_v86, main_v87, main_v88, main_v89, main_v90, main_c_18, main_v91, main_v92, main_c_19, main_v93, main_v94, main_v95, main_v96, main_v97, main_v98, main_v99, main_cst_20, main_v100, main_v101, main_v102]
theorem segD_writes : (segD : List (HloOp τ sig (Elt F))).Forall fun op => op.writes ⊆ (segD_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer segD does not write keeps its contents through it. -/
theorem segD_keep (V : Valuation τ sig (Elt F)) (r : Ref sig .tc) (h : r ∉ segD_W) :
    after segD V (Proc.devRef .tc r) = V (Proc.devRef .tc r) :=
  after_of_writes_sub segD V segD_writes h

/-- The references segE's operations write. -/
abbrev segE_W : List (Ref sig .tc) := [main_v103, main_v104, main_v105, main_v106, main_v107, main_v108, main_v109, main_cst_21, main_v110, main_v111, main_cst_22, main_v112, main_v113, main_v114, main_v115, main_v116, main_cst_23, main_v117, main_v118, main_cst_24, main_v119, main_v120, main_v121, main_v122, main_cst_25, main_v123, main_v124, main_v125, main_v126, main_v127, main_v128, main_v129, main_v130, main_v131, main_v132, main_v133, main_call1_cst, main_call1_v0, main_v134]
theorem segE_writes : (segE : List (HloOp τ sig (Elt F))).Forall fun op => op.writes ⊆ (segE_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer segE does not write keeps its contents through it. -/
theorem segE_keep (V : Valuation τ sig (Elt F)) (r : Ref sig .tc) (h : r ∉ segE_W) :
    after segE V (Proc.devRef .tc r) = V (Proc.devRef .tc r) :=
  after_of_writes_sub segE V segE_writes h

/-- The references segF's operations write. -/
abbrev segF_W : List (Ref sig .tc) := [main_v135, main_c_26, main_v136, main_v137, main_c_27, main_v138, main_v139, main_v140, main_v141, main_v142, main_c_28, main_v143, main_v144, main_c_29, main_v145, main_v146, main_v147, main_v148, main_v149, main_v150, main_v151, main_c_30, main_v152, main_v153, main_c_31, main_v154, main_v155, main_v156, main_v157, main_v158, main_v159, main_v160, main_cst_32, main_v161, main_v162, main_v163]
theorem segF_writes : (segF : List (HloOp τ sig (Elt F))).Forall fun op => op.writes ⊆ (segF_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer segF does not write keeps its contents through it. -/
theorem segF_keep (V : Valuation τ sig (Elt F)) (r : Ref sig .tc) (h : r ∉ segF_W) :
    after segF V (Proc.devRef .tc r) = V (Proc.devRef .tc r) :=
  after_of_writes_sub segF V segF_writes h

/-- The references segG's operations write. -/
abbrev segG_W : List (Ref sig .tc) := [main_v164, main_v165, main_v166, main_v167, main_v168, main_v169, main_v170]
theorem segG_writes : (segG : List (HloOp τ sig (Elt F))).Forall fun op => op.writes ⊆ (segG_W.map (Proc.devRef (τ := τ) .tc)).toFinset := by
  simp only [List.Forall]; exact ⟨by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide),
    by simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide)⟩
/-- A buffer segG does not write keeps its contents through it. -/
theorem segG_keep (V : Valuation τ sig (Elt F)) (r : Ref sig .tc) (h : r ∉ segG_W) :
    after segG V (Proc.devRef .tc r) = V (Proc.devRef .tc r) :=
  after_of_writes_sub segG V segG_writes h

end Cert.ReferenceIdeal.Staged

end
-- ==== Proof.RefRun.lean ====
/-
  The reference's run, stretch by stretch.

  Each stretch of the reference's @main (the seven of the stretch module) is read as a map from the contents its
  operations find to the contents they leave: the buffers a later stretch reads are named — the edge endpoints, the
  degree's reciprocal and reciprocal root, each layer's projection, neighbour sum and output — and each is the
  corresponding stage function of the argument arrays, GIVEN that the buffers the stretch reads hold their stage
  functions. Chaining the seven, from the launch contents, the result buffer ends at the last stage function of the
  twelve argument arrays, and no argument buffer is written. Nothing here opens an operation: a stage function is,
  by its definition, its operation applied to the stage functions of its operands.
-/
import proofs.«157691_j35631048688033_1_alg».proof.Proof.RefSegments
import proofs.«157691_j35631048688033_1_alg».proof.Proof.RefRead

set_option maxRecDepth 16384

noncomputable section

namespace Cert.ReferenceIdeal.Staged

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## What each stretch leaves in the buffers later stretches read -/

theorem segA_v1 (V : Valuation τ sig (Elt F)) (x1 : (⟨S2x3200000, .i32⟩ : BufTy).Contents (Elt F)) (a1 : V (Proc.devRef .tc main_arg1) = x1) :
    after segA V (Proc.devRef .tc main_v1) = val_main_v1 (F := F) x1 := by
  after_results_simp
  rw [a1]
  rfl
theorem segA_v3 (V : Valuation τ sig (Elt F)) (x1 : (⟨S2x3200000, .i32⟩ : BufTy).Contents (Elt F)) (a1 : V (Proc.devRef .tc main_arg1) = x1) :
    after segA V (Proc.devRef .tc main_v3) = val_main_v3 (F := F) x1 := by
  after_results_simp
  rw [a1]
  rfl
theorem segA_v10 (V : Valuation τ sig (Elt F)) (x1 : (⟨S2x3200000, .i32⟩ : BufTy).Contents (Elt F)) (a1 : V (Proc.devRef .tc main_arg1) = x1) :
    after segA V (Proc.devRef .tc main_v10) = val_main_v10 (F := F) x1 := by
  after_results_simp
  rw [a1]
  rfl
theorem segA_v12 (V : Valuation τ sig (Elt F)) (x1 : (⟨S2x3200000, .i32⟩ : BufTy).Contents (Elt F)) (a1 : V (Proc.devRef .tc main_arg1) = x1) :
    after segA V (Proc.devRef .tc main_v12) = val_main_v12 (F := F) x1 := by
  after_results_simp
  rw [a1]
  rfl
theorem segA_v13 (V : Valuation τ sig (Elt F)) (x0 : (⟨S100000x128, .f32⟩ : BufTy).Contents (Elt F)) (x2 : (⟨S128x32, .f32⟩ : BufTy).Contents (Elt F)) (a0 : V (Proc.devRef .tc main_arg0) = x0) (a2 : V (Proc.devRef .tc main_arg2) = x2) :
    after segA V (Proc.devRef .tc main_v13) = val_main_v13 (F := F) x0 x2 := by
  after_results_simp
  rw [a0, a2]
  rfl
theorem segB_v41 (V : Valuation τ sig (Elt F)) (x0 : (⟨S100000x128, .f32⟩ : BufTy).Contents (Elt F)) (x1 : (⟨S2x3200000, .i32⟩ : BufTy).Contents (Elt F)) (x2 : (⟨S128x32, .f32⟩ : BufTy).Contents (Elt F))
    (hv1 : V (Proc.devRef .tc main_v1) = val_main_v1 (F := F) x1)
    (hv3 : V (Proc.devRef .tc main_v3) = val_main_v3 (F := F) x1)
    (hv10 : V (Proc.devRef .tc main_v10) = val_main_v10 (F := F) x1)
    (hv13 : V (Proc.devRef .tc main_v13) = val_main_v13 (F := F) x0 x2) :
    after segB V (Proc.devRef .tc main_v41) = val_main_v41 (F := F) x0 x1 x2 := by
  after_results_simp
  rw [hv1, hv3, hv10, hv13]
  rfl
theorem segC_v73 (V : Valuation τ sig (Elt F)) (x0 : (⟨S100000x128, .f32⟩ : BufTy).Contents (Elt F)) (x1 : (⟨S2x3200000, .i32⟩ : BufTy).Contents (Elt F)) (x2 : (⟨S128x32, .f32⟩ : BufTy).Contents (Elt F)) (x3 : (⟨S32, .f32⟩ : BufTy).Contents (Elt F)) (x4 : (⟨S32, .f32⟩ : BufTy).Contents (Elt F)) (x5 : (⟨S32, .f32⟩ : BufTy).Contents (Elt F))
    (hv41 : V (Proc.devRef .tc main_v41) = val_main_v41 (F := F) x0 x1 x2)
    (hv13 : V (Proc.devRef .tc main_v13) = val_main_v13 (F := F) x0 x2)
    (hv12 : V (Proc.devRef .tc main_v12) = val_main_v12 (F := F) x1)
    (a3 : V (Proc.devRef .tc main_arg3) = x3)
    (a4 : V (Proc.devRef .tc main_arg4) = x4)
    (a5 : V (Proc.devRef .tc main_arg5) = x5) :
    after segC V (Proc.devRef .tc main_v73) = val_main_v73 (F := F) x0 x1 x2 x3 x4 x5 := by
  after_results_simp
  rw [hv41, hv13, hv12, a3, a4, a5]
  rfl
theorem segD_v74 (V : Valuation τ sig (Elt F)) (x0 : (⟨S100000x128, .f32⟩ : BufTy).Contents (Elt F)) (x1 : (⟨S2x3200000, .i32⟩ : BufTy).Contents (Elt F)) (x2 : (⟨S128x32, .f32⟩ : BufTy).Contents (Elt F)) (x3 : (⟨S32, .f32⟩ : BufTy).Contents (Elt F)) (x4 : (⟨S32, .f32⟩ : BufTy).Contents (Elt F)) (x5 : (⟨S32, .f32⟩ : BufTy).Contents (Elt F)) (x6 : (⟨S32x32, .f32⟩ : BufTy).Contents (Elt F))
    (hv73 : V (Proc.devRef .tc main_v73) = val_main_v73 (F := F) x0 x1 x2 x3 x4 x5)
    (a6 : V (Proc.devRef .tc main_arg6) = x6) :
    after segD V (Proc.devRef .tc main_v74) = val_main_v74 (F := F) x0 x1 x2 x3 x4 x5 x6 := by
  after_results_simp
  rw [hv73, a6]
  rfl
theorem segD_v102 (V : Valuation τ sig (Elt F)) (x0 : (⟨S100000x128, .f32⟩ : BufTy).Contents (Elt F)) (x1 : (⟨S2x3200000, .i32⟩ : BufTy).Contents (Elt F)) (x2 : (⟨S128x32, .f32⟩ : BufTy).Contents (Elt F)) (x3 : (⟨S32, .f32⟩ : BufTy).Contents (Elt F)) (x4 : (⟨S32, .f32⟩ : BufTy).Contents (Elt F)) (x5 : (⟨S32, .f32⟩ : BufTy).Contents (Elt F)) (x6 : (⟨S32x32, .f32⟩ : BufTy).Contents (Elt F))
    (hv73 : V (Proc.devRef .tc main_v73) = val_main_v73 (F := F) x0 x1 x2 x3 x4 x5)
    (hv1 : V (Proc.devRef .tc main_v1) = val_main_v1 (F := F) x1)
    (hv3 : V (Proc.devRef .tc main_v3) = val_main_v3 (F := F) x1)
    (hv10 : V (Proc.devRef .tc main_v10) = val_main_v10 (F := F) x1)
    (a6 : V (Proc.devRef .tc main_arg6) = x6) :
    after segD V (Proc.devRef .tc main_v102) = val_main_v102 (F := F) x0 x1 x2 x3 x4 x5 x6 := by
  after_results_simp
  rw [hv73, hv1, hv3, hv10, a6]
  rfl
theorem segE_v134 (V : Valuation τ sig (Elt F)) (x0 : (⟨S100000x128, .f32⟩ : BufTy).Contents (Elt F)) (x1 : (⟨S2x3200000, .i32⟩ : BufTy).Contents (Elt F)) (x2 : (⟨S128x32, .f32⟩ : BufTy).Contents (Elt F)) (x3 : (⟨S32, .f32⟩ : BufTy).Contents (Elt F)) (x4 : (⟨S32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S32, .f32⟩ : BufTy).Contents (Elt F)) (x9 : (⟨S32, .f32⟩ : BufTy).Contents (Elt F))
    (hv102 : V (Proc.devRef .tc main_v102) = val_main_v102 (F := F) x0 x1 x2 x3 x4 x5 x6)
    (hv74 : V (Proc.devRef .tc main_v74) = val_main_v74 (F := F) x0 x1 x2 x3 x4 x5 x6)
    (hv12 : V (Proc.devRef .tc main_v12) = val_main_v12 (F := F) x1)
    (a7 : V (Proc.devRef .tc main_arg7) = x7)
    (a8 : V (Proc.devRef .tc main_arg8) = x8)
    (a9 : V (Proc.devRef .tc main_arg9) = x9) :
    after segE V (Proc.devRef .tc main_v134) = val_main_v134 (F := F) x0 x1 x2 x3 x4 x5 x6 x7 x8 x9 := by
  after_results_simp
  rw [hv102, hv74, hv12, a7, a8, a9]
  rfl
theorem segF_v135 (V : Valuation τ sig (Elt F)) (x0 : (⟨S100000x128, .f32⟩ : BufTy).Contents (Elt F)) (x1 : (⟨S2x3200000, .i32⟩ : BufTy).Contents (Elt F)) (x2 : (⟨S128x32, .f32⟩ : BufTy).Contents (Elt F)) (x3 : (⟨S32, .f32⟩ : BufTy).Contents (Elt F)) (x4 : (⟨S32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S32, .f32⟩ : BufTy).Contents (Elt F)) (x9 : (⟨S32, .f32⟩ : BufTy).Contents (Elt F)) (x10 : (⟨S32x2, .f32⟩ : BufTy).Contents (Elt F))
    (hv134 : V (Proc.devRef .tc main_v134) = val_main_v134 (F := F) x0 x1 x2 x3 x4 x5 x6 x7 x8 x9)
    (a10 : V (Proc.devRef .tc main_arg10) = x10) :
    after segF V (Proc.devRef .tc main_v135) = val_main_v135 (F := F) x0 x1 x2 x3 x4 x5 x6 x7 x8 x9 x10 := by
  after_results_simp
  rw [hv134, a10]
  rfl
theorem segF_v163 (V : Valuation τ sig (Elt F)) (x0 : (⟨S100000x128, .f32⟩ : BufTy).Contents (Elt F)) (x1 : (⟨S2x3200000, .i32⟩ : BufTy).Contents (Elt F)) (x2 : (⟨S128x32, .f32⟩ : BufTy).Contents (Elt F)) (x3 : (⟨S32, .f32⟩ : BufTy).Contents (Elt F)) (x4 : (⟨S32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S32, .f32⟩ : BufTy).Contents (Elt F)) (x9 : (⟨S32, .f32⟩ : BufTy).Contents (Elt F)) (x10 : (⟨S32x2, .f32⟩ : BufTy).Contents (Elt F))
    (hv134 : V (Proc.devRef .tc main_v134) = val_main_v134 (F := F) x0 x1 x2 x3 x4 x5 x6 x7 x8 x9)
    (hv1 : V (Proc.devRef .tc main_v1) = val_main_v1 (F := F) x1)
    (hv3 : V (Proc.devRef .tc main_v3) = val_main_v3 (F := F) x1)
    (hv10 : V (Proc.devRef .tc main_v10) = val_main_v10 (F := F) x1)
    (a10 : V (Proc.devRef .tc main_arg10) = x10) :
    after segF V (Proc.devRef .tc main_v163) = val_main_v163 (F := F) x0 x1 x2 x3 x4 x5 x6 x7 x8 x9 x10 := by
  after_results_simp
  rw [hv134, hv1, hv3, hv10, a10]
  rfl
theorem segG_v170 (V : Valuation τ sig (Elt F)) (x0 : (⟨S100000x128, .f32⟩ : BufTy).Contents (Elt F)) (x1 : (⟨S2x3200000, .i32⟩ : BufTy).Contents (Elt F)) (x2 : (⟨S128x32, .f32⟩ : BufTy).Contents (Elt F)) (x3 : (⟨S32, .f32⟩ : BufTy).Contents (Elt F)) (x4 : (⟨S32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S32, .f32⟩ : BufTy).Contents (Elt F)) (x9 : (⟨S32, .f32⟩ : BufTy).Contents (Elt F)) (x10 : (⟨S32x2, .f32⟩ : BufTy).Contents (Elt F)) (x11 : (⟨S2, .f32⟩ : BufTy).Contents (Elt F))
    (hv163 : V (Proc.devRef .tc main_v163) = val_main_v163 (F := F) x0 x1 x2 x3 x4 x5 x6 x7 x8 x9 x10)
    (hv135 : V (Proc.devRef .tc main_v135) = val_main_v135 (F := F) x0 x1 x2 x3 x4 x5 x6 x7 x8 x9 x10)
    (hv12 : V (Proc.devRef .tc main_v12) = val_main_v12 (F := F) x1)
    (a11 : V (Proc.devRef .tc main_arg11) = x11) :
    after segG V (Proc.devRef .tc main_v170) = val_main_v170 (F := F) x0 x1 x2 x3 x4 x5 x6 x7 x8 x9 x10 x11 := by
  after_results_simp
  rw [hv163, hv135, hv12, a11]
  rfl

/-! ## The seven stretches chained -/

/-- From ANY contents `V` whose argument buffers hold `x0 … x11`, after the seven stretches in order the result buffer
    holds the last stage function of the twelve arrays: each stretch's named outputs from the previous stretches'
    (the lemmas above), every buffer a later stretch still reads carried through the stretches that do not write it. -/
theorem chain (V : Valuation τ sig (Elt F)) (x0 : (⟨S100000x128, .f32⟩ : BufTy).Contents (Elt F)) (x1 : (⟨S2x3200000, .i32⟩ : BufTy).Contents (Elt F)) (x2 : (⟨S128x32, .f32⟩ : BufTy).Contents (Elt F)) (x3 : (⟨S32, .f32⟩ : BufTy).Contents (Elt F)) (x4 : (⟨S32, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S32, .f32⟩ : BufTy).Contents (Elt F)) (x9 : (⟨S32, .f32⟩ : BufTy).Contents (Elt F)) (x10 : (⟨S32x2, .f32⟩ : BufTy).Contents (Elt F)) (x11 : (⟨S2, .f32⟩ : BufTy).Contents (Elt F))
    (a0 : V (Proc.devRef .tc main_arg0) = x0) (a1 : V (Proc.devRef .tc main_arg1) = x1) (a2 : V (Proc.devRef .tc main_arg2) = x2) (a3 : V (Proc.devRef .tc main_arg3) = x3) (a4 : V (Proc.devRef .tc main_arg4) = x4) (a5 : V (Proc.devRef .tc main_arg5) = x5) (a6 : V (Proc.devRef .tc main_arg6) = x6) (a7 : V (Proc.devRef .tc main_arg7) = x7) (a8 : V (Proc.devRef .tc main_arg8) = x8) (a9 : V (Proc.devRef .tc main_arg9) = x9) (a10 : V (Proc.devRef .tc main_arg10) = x10) (a11 : V (Proc.devRef .tc main_arg11) = x11) :
    after segG (after segF (after segE (after segD (after segC (after segB (after segA V)))))) (Proc.devRef .tc main_v170) = val_main_v170 (F := F) x0 x1 x2 x3 x4 x5 x6 x7 x8 x9 x10 x11 := by
  -- stretch A: the edge endpoints, the degree's reciprocal root and reciprocal, the first projection
  have A1 := segA_v1 V x1 a1
  have A3 := segA_v3 V x1 a1
  have A10 := segA_v10 V x1 a1
  have A12 := segA_v12 V x1 a1
  have A13 := segA_v13 V x0 x2 a0 a2
  have Aa3 := (segA_keep V main_arg3 (by decide)).trans a3
  have Aa4 := (segA_keep V main_arg4 (by decide)).trans a4
  have Aa5 := (segA_keep V main_arg5 (by decide)).trans a5
  have Aa6 := (segA_keep V main_arg6 (by decide)).trans a6
  have Aa7 := (segA_keep V main_arg7 (by decide)).trans a7
  have Aa8 := (segA_keep V main_arg8 (by decide)).trans a8
  have Aa9 := (segA_keep V main_arg9 (by decide)).trans a9
  have Aa10 := (segA_keep V main_arg10 (by decide)).trans a10
  have Aa11 := (segA_keep V main_arg11 (by decide)).trans a11
  -- stretch B: the first neighbour sum
  have B41 := segB_v41 (after segA V) x0 x1 x2 A1 A3 A10 A13
  have B1 := (segB_keep (after segA V) main_v1 (by decide)).trans A1
  have B3 := (segB_keep (after segA V) main_v3 (by decide)).trans A3
  have B10 := (segB_keep (after segA V) main_v10 (by decide)).trans A10
  have B12 := (segB_keep (after segA V) main_v12 (by decide)).trans A12
  have B13 := (segB_keep (after segA V) main_v13 (by decide)).trans A13
  have Ba3 := (segB_keep (after segA V) main_arg3 (by decide)).trans Aa3
  have Ba4 := (segB_keep (after segA V) main_arg4 (by decide)).trans Aa4
  have Ba5 := (segB_keep (after segA V) main_arg5 (by decide)).trans Aa5
  have Ba6 := (segB_keep (after segA V) main_arg6 (by decide)).trans Aa6
  have Ba7 := (segB_keep (after segA V) main_arg7 (by decide)).trans Aa7
  have Ba8 := (segB_keep (after segA V) main_arg8 (by decide)).trans Aa8
  have Ba9 := (segB_keep (after segA V) main_arg9 (by decide)).trans Aa9
  have Ba10 := (segB_keep (after segA V) main_arg10 (by decide)).trans Aa10
  have Ba11 := (segB_keep (after segA V) main_arg11 (by decide)).trans Aa11
  -- stretch C: the first layer's output
  have C73 := segC_v73 (after segB (after segA V)) x0 x1 x2 x3 x4 x5 B41 B13 B12 Ba3 Ba4 Ba5
  have C1 := (segC_keep (after segB (after segA V)) main_v1 (by decide)).trans B1
  have C3 := (segC_keep (after segB (after segA V)) main_v3 (by decide)).trans B3
  have C10 := (segC_keep (after segB (after segA V)) main_v10 (by decide)).trans B10
  have C12 := (segC_keep (after segB (after segA V)) main_v12 (by decide)).trans B12
  have Ca6 := (segC_keep (after segB (after segA V)) main_arg6 (by decide)).trans Ba6
  have Ca7 := (segC_keep (after segB (after segA V)) main_arg7 (by decide)).trans Ba7
  have Ca8 := (segC_keep (after segB (after segA V)) main_arg8 (by decide)).trans Ba8
  have Ca9 := (segC_keep (after segB (after segA V)) main_arg9 (by decide)).trans Ba9
  have Ca10 := (segC_keep (after segB (after segA V)) main_arg10 (by decide)).trans Ba10
  have Ca11 := (segC_keep (after segB (after segA V)) main_arg11 (by decide)).trans Ba11
  -- stretch D: the second projection and neighbour sum
  have D74 := segD_v74 (after segC (after segB (after segA V))) x0 x1 x2 x3 x4 x5 x6 C73 Ca6
  have D102 := segD_v102 (after segC (after segB (after segA V))) x0 x1 x2 x3 x4 x5 x6 C73 C1 C3 C10 Ca6
  have D1 := (segD_keep (after segC (after segB (after segA V))) main_v1 (by decide)).trans C1
  have D3 := (segD_keep (after segC (after segB (after segA V))) main_v3 (by decide)).trans C3
  have D10 := (segD_keep (after segC (after segB (after segA V))) main_v10 (by decide)).trans C10
  have D12 := (segD_keep (after segC (after segB (after segA V))) main_v12 (by decide)).trans C12
  have Da7 := (segD_keep (after segC (after segB (after segA V))) main_arg7 (by decide)).trans Ca7
  have Da8 := (segD_keep (after segC (after segB (after segA V))) main_arg8 (by decide)).trans Ca8
  have Da9 := (segD_keep (after segC (after segB (after segA V))) main_arg9 (by decide)).trans Ca9
  have Da10 := (segD_keep (after segC (after segB (after segA V))) main_arg10 (by decide)).trans Ca10
  have Da11 := (segD_keep (after segC (after segB (after segA V))) main_arg11 (by decide)).trans Ca11
  -- stretch E: the second layer's output
  have E134 := segE_v134 (after segD (after segC (after segB (after segA V)))) x0 x1 x2 x3 x4 x5 x6 x7 x8 x9 D102 D74 D12 Da7 Da8 Da9
  have E1 := (segE_keep (after segD (after segC (after segB (after segA V)))) main_v1 (by decide)).trans D1
  have E3 := (segE_keep (after segD (after segC (after segB (after segA V)))) main_v3 (by decide)).trans D3
  have E10 := (segE_keep (after segD (after segC (after segB (after segA V)))) main_v10 (by decide)).trans D10
  have E12 := (segE_keep (after segD (after segC (after segB (after segA V)))) main_v12 (by decide)).trans D12
  have Ea10 := (segE_keep (after segD (after segC (after segB (after segA V)))) main_arg10 (by decide)).trans Da10
  have Ea11 := (segE_keep (after segD (after segC (after segB (after segA V)))) main_arg11 (by decide)).trans Da11
  -- stretch F: the third projection and neighbour sum
  have F135 := segF_v135 (after segE (after segD (after segC (after segB (after segA V))))) x0 x1 x2 x3 x4 x5 x6 x7 x8 x9 x10 E134 Ea10
  have F163 := segF_v163 (after segE (after segD (after segC (after segB (after segA V))))) x0 x1 x2 x3 x4 x5 x6 x7 x8 x9 x10 E134 E1 E3 E10 Ea10
  have F12 := (segF_keep (after segE (after segD (after segC (after segB (after segA V))))) main_v12 (by decide)).trans E12
  have Fa11 := (segF_keep (after segE (after segD (after segC (after segB (after segA V))))) main_arg11 (by decide)).trans Ea11
  -- stretch G: the result
  exact segG_v170 (after segF (after segE (after segD (after segC (after segB (after segA V)))))) x0 x1 x2 x3 x4 x5 x6 x7 x8 x9 x10 x11 F163 F135 F12 Fa11

/-- The result buffer after the reference's whole @main, from the launch contents: the last stage function of the
    twelve argument arrays as launched. -/
theorem result (m : (ℓ : Loc nD τ sig) → Buf (Elt F) ℓ) (c : Dev nD) :
    after (ops (F := F)) (launchContents m c) (Proc.devRef .tc main_v170)
      = val_main_v170 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [after_ops]
  exact chain (launchContents m c) _ _ _ _ _ _ _ _ _ _ _ _ rfl rfl rfl rfl rfl rfl rfl rfl rfl rfl rfl rfl

/-- No stretch writes an argument buffer. -/
theorem kept (V : Valuation τ sig (Elt F)) (r : Ref sig .tc)
    (hA : r ∉ segA_W) (hB : r ∉ segB_W) (hC : r ∉ segC_W) (hD : r ∉ segD_W) (hE : r ∉ segE_W) (hF : r ∉ segF_W) (hG : r ∉ segG_W) :
    after (ops (F := F)) V (Proc.devRef .tc r) = V (Proc.devRef .tc r) := by
  rw [after_ops, segG_keep _ r hG, segF_keep _ r hF, segE_keep _ r hE, segD_keep _ r hD, segC_keep _ r hC, segB_keep _ r hB, segA_keep _ r hA]

/-- THE REFERENCE'S RUN: every weakly fair execution of its @main terminates with the result buffer at the last
    stage function of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v170)
          = val_main_v170 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v170).trans (result m c),
      (h c main_arg0).trans (kept _ main_arg0 (by decide) (by decide) (by decide) (by decide) (by decide) (by decide) (by decide)),
      (h c main_arg1).trans (kept _ main_arg1 (by decide) (by decide) (by decide) (by decide) (by decide) (by decide) (by decide)),
      (h c main_arg2).trans (kept _ main_arg2 (by decide) (by decide) (by decide) (by decide) (by decide) (by decide) (by decide)),
      (h c main_arg3).trans (kept _ main_arg3 (by decide) (by decide) (by decide) (by decide) (by decide) (by decide) (by decide)),
      (h c main_arg4).trans (kept _ main_arg4 (by decide) (by decide) (by decide) (by decide) (by decide) (by decide) (by decide)),
      (h c main_arg5).trans (kept _ main_arg5 (by decide) (by decide) (by decide) (by decide) (by decide) (by decide) (by decide)),
      (h c main_arg6).trans (kept _ main_arg6 (by decide) (by decide) (by decide) (by decide) (by decide) (by decide) (by decide)),
      (h c main_arg7).trans (kept _ main_arg7 (by decide) (by decide) (by decide) (by decide) (by decide) (by decide) (by decide)),
      (h c main_arg8).trans (kept _ main_arg8 (by decide) (by decide) (by decide) (by decide) (by decide) (by decide) (by decide)),
      (h c main_arg9).trans (kept _ main_arg9 (by decide) (by decide) (by decide) (by decide) (by decide) (by decide) (by decide)),
      (h c main_arg10).trans (kept _ main_arg10 (by decide) (by decide) (by decide) (by decide) (by decide) (by decide) (by decide)),
      (h c main_arg11).trans (kept _ main_arg11 (by decide) (by decide) (by decide) (by decide) (by decide) (by decide) (by decide))⟩)
    (run_seq scopedRefs_eq scopedSems_eq defs main (fun _ => ops) main_eq (fun _ => ops_sub) m ρ)

end Cert.ReferenceIdeal.Staged

end
-- ==== Proof.lean ====
/-
  A three-layer graph convolution network over 100000 nodes and 3200000 edges: the tiled kernel against its reference.

  Both programs compute, per layer, h = A + (X·W)·d + b row by row — A the sum over incoming edges of the projected
  source rows weighted by the product of the two endpoints' reciprocal-root degrees, d the node's reciprocal degree —
  and, for the two hidden layers, the positive part of the row normalised over its 32 lanes (mean and variance as sums
  divided by 32, the reciprocal root of variance plus a constant, a gain and an offset). The reference does all of it
  with host operations on whole arrays. The kernel keeps the degree prologue and the three neighbour sums on the host
  and runs six tiled regions, each over ten blocks of 10000 rows: the three projections on the matrix unit (narrowing
  its operands to a 16-bit format first, which is the identity on extended reals) and the three self-loop-and-bias
  steps, the first two fused with the normalisation and the positive part.
  At the exact extended reals nothing else differs: a block product started from zero is the rows of the whole
  product; a lane sum of a block is the row sum of the array; a vector reshaped to a row or a column reads the same
  entries as the reference's broadcast; the kernel computes the edge coefficient once where the reference computes it
  in every layer. No law of arithmetic beyond "a finite sum is a function of its terms" is used, so the precondition is
  never opened.
  The idealized kernel's run ends with its result buffer at the last boundary's contents of a fold through its ten
  segments; that fold, read buffer by buffer, is the reference's chain of stage functions; the reference's own run,
  read stretch by stretch, ends at the same function of the twelve argument arrays. The three frames are the two
  generated kernel frames and the reference's run with the result dropped; the idealization rewrote no operation.
-/
import proofs.«157691_j35631048688033_1_alg».proof.Defs
import proofs.«157691_j35631048688033_1_alg».proof.Proof.Gen.Kernel
import proofs.«157691_j35631048688033_1_alg».proof.Proof.Gen.Kernel.Skeleton
import proofs.«157691_j35631048688033_1_alg».proof.Proof.Gen.Kernel.Launch
import proofs.«157691_j35631048688033_1_alg».proof.Proof.Gen.Kernel.Points
import proofs.«157691_j35631048688033_1_alg».proof.Proof.Gen.Kernel.Frame
import proofs.«157691_j35631048688033_1_alg».proof.Proof.Gen.KernelIdeal
import proofs.«157691_j35631048688033_1_alg».proof.Proof.Gen.KernelIdeal.Skeleton
import proofs.«157691_j35631048688033_1_alg».proof.Proof.Gen.KernelIdeal.Launch
import proofs.«157691_j35631048688033_1_alg».proof.Proof.Gen.KernelIdeal.Points
import proofs.«157691_j35631048688033_1_alg».proof.Proof.Gen.KernelIdeal.Frame
import proofs.«157691_j35631048688033_1_alg».proof.Proof.Gen.ReferenceIdeal
import proofs.«157691_j35631048688033_1_alg».proof.Proof.Gen.Pre_finite_inputs
import proofs.«157691_j35631048688033_1_alg».proof.Proof.KernelRun
import proofs.«157691_j35631048688033_1_alg».proof.Proof.KernelFold
import proofs.«157691_j35631048688033_1_alg».proof.Proof.RefRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Staged.run (F := Ideal) m ρ)

/-- The idealization rewrote no operation. -/
theorem preserves : Cert.preserves_Kernel_KernelIdeal := trivial

/-- Both runs end with their result at the reference's result function of the argument arrays, which agree. -/
theorem algebraic : Cert.algebraic_KernelIdeal_ReferenceIdeal := by
  intro m ρ m' ρ' _ hagree
  refine ⟨fun c => Cert.ReferenceIdeal.ReadP.val_main_v170 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun _ h c => ⟨(h c).1.trans (Cert.KernelIdeal.Fold.result m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.Staged.run (F := Ideal) m' ρ')
    obtain ⟨e0, e1, e2, e3, e4, e5, e6, e7, e8, e9, e10, e11⟩ := hagree c
    rw [e0, e1, e2, e3, e4, e5, e6, e7, e8, e9, e10, e11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
